-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.sign_bit.Statement Cert.KernelIdeal.S2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_v24) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S8x100000x32 : Shape := ⟨3, ![8, 100000, 32]⟩
abbrev S10x2 : Shape := ⟨2, ![10, 2]⟩
abbrev S10 : Shape := ⟨1, ![10]⟩
abbrev S10x10 : Shape := ⟨2, ![10, 10]⟩
abbrev S128x10 : Shape := ⟨2, ![128, 10]⟩
abbrev S128x32 : Shape := ⟨2, ![128, 32]⟩
abbrev S128 : Shape := ⟨1, ![128]⟩
abbrev S1x32 : Shape := ⟨2, ![1, 32]⟩
abbrev S1 : Shape := ⟨1, ![1]⟩
abbrev S_ : Shape := ⟨0, ![]⟩

class Facts : Prop where
  bcast_S_S8x100000 : S_.BroadcastsInDim S8x100000 (![] : Fin 0 → Fin S8x100000.rank)
  reducesTo_S8x100000_S_d0_1 : S8x100000.ReducesTo [0, 1] S_
  h_S_ : 0 < S_.numel
  bcast_S_S8x100000x32 : S_.BroadcastsInDim S8x100000x32 (![] : Fin 0 → Fin S8x100000x32.rank)
  reducesTo_S8x100000x32_S_d0_1_2 : S8x100000x32.ReducesTo [0, 1, 2] S_
  bcast_S_S10x2 : S_.BroadcastsInDim S10x2 (![] : Fin 0 → Fin S10x2.rank)
  reducesTo_S10x2_S_d0_1 : S10x2.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S128x10 : S_.BroadcastsInDim S128x10 (![] : Fin 0 → Fin S128x10.rank)
  reducesTo_S128x10_S_d0_1 : S128x10.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1x32 .f32) (main_arg19 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x32 .f32 := Host.absf main_arg18
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S128x32 .f32) (main_arg15 : FVec F S128x32 .f32) (main_arg16 : FVec F S128 .f32) (main_arg17 : FVec F S128 .f32) (main_arg18 : FVec F S1x32 .f32) (main_arg19 : FVec F S1 .f32) (main_v63 : IVec S_ 1) (main_v67 : IVec S_ 1) : IVec S_ 1 :=
  let main_v68 : IVec S_ 1 := andi main_v63 main_v67
  let main_v69 : FVec F S128x32 .f32 := Host.absf main_arg14
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S128x32 .f32 := Host.absf main_arg15
  let main_cst_28 : FVec F S_ .f32 := constant S_ .f32 0x7F800000#32
  let main_v75 : FVec F S128x32 .f32 := broadcastInDim S128x32 ![] bcast_S_S128x32 main_cst_28
  let main_v76 : IVec S128x32 1 := cmpf .olt main_v74 main_v75
  let main_c_29 : IVec S_ 1 := constantI S_ 1 1#1
  let main_v77 : IVec S_ 1 := (fun x v => Host.reduce IntOp.andi x v reducesTo_S128x32_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128x32 .f32) (main_arg12 : FVec F S128 .f32) (main_arg13 : FVec F S128 .f32) (main_arg14 : FVec F S128x32 .f32) (main_arg15 : FVec F S128x32 .f32) (main_arg16 : FVec F S128 .f32) (main_arg17 : FVec F S128 .f32) (main_arg18 : FVec F S1x32 .f32) (main_arg19 : FVec F S1 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S128x32 .f32 := Host.absf main_arg11
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S10 .f32) (main_arg8 : FVec F S10x10 .f32) (main_arg9 : FVec F S10 .f32) (main_arg10 : FVec F S128x10 .f32) (main_arg11 : FVec F S128x32 .f32) (main_arg12 : FVec F S128 .f32) (main_arg13 : FVec F S128 .f32) (main_arg14 : FVec F S128x32 .f32) (main_arg15 : FVec F S128x32 .f32) (main_arg16 : FVec F S128 .f32) (main_arg17 : FVec F S128 .f32) (main_arg18 : FVec F S1x32 .f32) (main_arg19 : FVec F S1 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg8
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S128x10 .f32 := Host.absf main_arg10
  let main_cst_18 : FVec F S_ .f32 := constant S_ .f32 0x7F800000#32
  let main_v50 : FVec F S128x10 .f32 := broadcastInDim S128x10 ![] bcast_S_S128x10 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S8x100000x32 .f32) (main_arg5 : FVec F S8x100000x32 .f32) (main_arg6 : FVec F S10x2 .f32) (main_arg7 : FVec F S10 .f32) (main_arg8 : FVec F S10x10 .f32) (main_arg9 : FVec F S10 .f32) (main_arg10 : FVec F S128x10 .f32) (main_arg11 : FVec F S128x32 .f32) (main_arg12 : FVec F S128 .f32) (main_arg13 : FVec F S128 .f32) (main_arg14 : FVec F S128x32 .f32) (main_arg15 : FVec F S128x32 .f32) (main_arg16 : FVec F S128 .f32) (main_arg17 : FVec F S128 .f32) (main_arg18 : FVec F S1x32 .f32) (main_arg19 : FVec F S1 .f32) (main_v13 : IVec S_ 1) (main_v16 : IVec S8x100000x32 1) : IVec S_ 1 :=
  let main_c_5 : IVec S_ 1 := constantI S_ 1 1#1
  let main_v17 : IVec S_ 1 := (fun x v => Host.reduce IntOp.andi x v reducesTo_S8x100000x32_S_d0_1_2 h_S_) main_v16 main_c_5
  let main_v18 : IVec S_ 1 := andi main_v13 main_v17
  let main_v19 : FVec F S8x100000x32 .f32 := Host.absf main_arg4
  let main_cst_6 : FVec F S_ .f32 := constant S_ .f32 0x7F800000#32
  let main_v20 : FVec F S8x100000x32 .f32 := broadcastInDim S8x100000x32 ![] bcast_S_S8x100000x32 main_cst_6
  let main_v21 : IVec S8x100000x32 1 := cmpf .olt main_v19 main_v20
  let main_c_7 : IVec S_ 1 := constantI S_ 1 1#1
  let main_v22 : IVec S_ 1 := (fun x v => Host.reduce IntOp.andi x v reducesTo_S8x100000x32_S_d0_1_2 h_S_) main_v21 main_c_7
  let main_v23 : IVec S_ 1 := andi main_v18 main_v22
  let main_v24 : FVec F S8x100000x32 .f32 := Host.absf main_arg5
  let main_cst_8 : FVec F S_ .f32 := constant S_ .f32 0x7F800000#32
  let main_v25 : FVec F S8x100000x32 .f32 := broadcastInDim S8x100000x32 ![] bcast_S_S8x100000x32 main_cst_8
  let main_v26 : IVec S8x100000x32 1 := cmpf .olt main_v24 main_v25
  let main_c_9 : IVec S_ 1 := constantI S_ 1 1#1
  let main_v27 : IVec S_ 1 := (fun x v => Host.reduce IntOp.andi x v reducesTo_S8x100000x32_S_d0_1_2 h_S_) main_v26 main_c_9
  let main_v28 : IVec S_ 1 := andi main_v23 main_v27
  let main_v29 : FVec F S10x2 .f32 := Host.absf main_arg6
  let main_cst_10 : FVec F S_ .f32 := constant S_ .f32 0x7F800000#32
  let main_v30 : FVec F S10x2 .f32 := broadcastInDim S10x2 ![] bcast_S_S10x2 main_cst_10
  let main_v31 : IVec S10x2 1 := cmpf .olt main_v29 main_v30
  let main_c_11 : IVec S_ 1 := constantI S_ 1 1#1
  let main_v32 : IVec S_ 1 := (fun x v => Host.reduce IntOp.andi x v reducesTo_S10x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8x100000 .f32) (main_arg1 : FVec F S8x100000 .f32) (main_arg2 : FVec F S8x100000x32 .f32) (main_arg3 : FVec F S8x100000x32 .f32) (main_arg4 : FVec F S8x100000x32 .f32) (main_arg5 : FVec F S8x100000x32 .f32) (main_arg6 : FVec F S10x2 .f32) (main_arg7 : FVec F S10 .f32) (main_arg8 : FVec F S10x10 .f32) (main_arg9 : FVec F S10 .f32) (main_arg10 : FVec F S128x10 .f32) (main_arg11 : FVec F S128x32 .f32) (main_arg12 : FVec F S128 .f32) (main_arg13 : FVec F S128 .f32) (main_arg14 : FVec F S128x32 .f32) (main_arg15 : FVec F S128x32 .f32) (main_arg16 : FVec F S128 .f32) (main_arg17 : FVec F S128 .f32) (main_arg18 : FVec F S1x32 .f32) (main_arg19 : FVec F S1 .f32) : IVec S_ 1 :=
  let main_v0 : FVec F S8x100000 .f32 := Host.absf main_arg0
  let main_cst : FVec F S_ .f32 := constant S_ .f32 0x7F800000#32
  let main_v1 : FVec F S8x100000 .f32 := broadcastInDim S8x100000 ![] bcast_S_S8x100000 main_cst
  let main_v2 : IVec S8x100000 1 := cmpf .olt main_v0 main_v1
  let main_c : IVec S_ 1 := constantI S_ 1 1#1
  let main_v3 : IVec S_ 1 := (fun x v => Host.reduce IntOp.andi x v reducesTo_S8x100000_S_d0_1 h_S_) main_v2 main_c
  let main_v4 : FVec F S8x100000 .f32 := Host.absf main_arg1
  let main_cst_0 : FVec F S_ .f32 := constant S_ .f32 0x7F800000#32
  let main_v5 : FVec F S8x100000 .f32 := broadcastInDim S8x100000 ![] bcast_S_S8x100000 main_cst_0
  let main_v6 : IVec S8x100000 1 := cmpf .olt main_v4 main_v5
  let main_c_1 : IVec S_ 1 := constantI S_ 1 1#1
  let main_v7 : IVec S_ 1 := (fun x v => Host.reduce IntOp.andi x v reducesTo_S8x100000_S_d0_1 h_S_) main_v6 main_c_1
  let main_v8 : IVec S_ 1 := andi main_v3 main_v7
  let main_v9 : FVec F S8x100000x32 .f32 := Host.absf main_arg2
  let main_cst_2 : FVec F S_ .f32 := constant S_ .f32 0x7F800000#32
  let main_v10 : FVec F S8x100000x32 .f32 := broadcastInDim S8x100000x32 ![] bcast_S_S8x100000x32 main_cst_2
  let main_v11 : IVec S8x100000x32 1 := cmpf .olt main_v9 main_v10
  let main_c_3 : IVec S_ 1 := constantI S_ 1 1#1
  let main_v12 : IVec S_ 1 := (fun x v => Host.reduce IntOp.andi x v reducesTo_S8x100000x32_S_d0_1_2 h_S_) main_v11 main_c_3
  let main_v13 : IVec S_ 1 := andi main_v8 main_v12
  let main_v14 : FVec F S8x100000x32 .f32 := Host.absf main_arg3
  let main_cst_4 : FVec F S_ .f32 := constant S_ .f32 0x7F800000#32
  let main_v15 : FVec F S8x100000x32 .f32 := broadcastInDim S8x100000x32 ![] bcast_S_S8x100000x32 main_cst_4
  let main_v16 : IVec S8x100000x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8x100000 : Shape := ⟨2, ![8, 100000]⟩
abbrev S8x100000x32 : Shape := ⟨3, ![8, 100000, 32]⟩
abbrev S10x2 : Shape := ⟨2, ![10, 2]⟩
abbrev S10 : Shape := ⟨1, ![10]⟩
abbrev S10x10 : Shape := ⟨2, ![10, 10]⟩
abbrev S128x10 : Shape := ⟨2, ![128, 10]⟩
abbrev S128x32 : Shape := ⟨2, ![128, 32]⟩
abbrev S128 : Shape := ⟨1, ![128]⟩
abbrev S1x32 : Shape := ⟨2, ![1, 32]⟩
abbrev S1 : Shape := ⟨1, ![1]⟩
abbrev S800000 : Shape := ⟨1, ![800000]⟩
abbrev S800000x32 : Shape := ⟨2, ![800000, 32]⟩
abbrev S_ : Shape := ⟨0, ![]⟩
abbrev S800768 : Shape := ⟨1, ![800768]⟩
abbrev S800768x32 : Shape := ⟨2, ![800768, 32]⟩
abbrev S2048 : Shape := ⟨1, ![2048]⟩
abbrev S2048x32 : Shape := ⟨2, ![2048, 32]⟩
abbrev S10x1 : Shape := ⟨2, ![10, 1]⟩
abbrev S2048x1 : Shape := ⟨2, ![2048, 1]⟩
abbrev S1x10 : Shape := ⟨2, ![1, 10]⟩
abbrev S2048x10 : Shape := ⟨2, ![2048, 10]⟩
abbrev S10x128 : Shape := ⟨2, ![10, 128]⟩
abbrev S2048x128 : Shape := ⟨2, ![2048, 128]⟩
abbrev S1x128 : Shape := ⟨2, ![1, 128]⟩
abbrev S32x128 : Shape := ⟨2, ![32, 128]⟩
abbrev S32 : Shape := ⟨1, ![32]⟩

abbrev nBuf : Space → Nat
  | .hbm => 62
  | .vmem => 38
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S8x100000x32, .f32⟩
  | .hbm, ⟨3, _⟩ => ⟨S8x100000x32, .f32⟩
  | .hbm, ⟨4, _⟩ => ⟨S8x100000x32, .f32⟩
  | .hbm, ⟨5, _⟩ => ⟨S8x100000x32, .f32⟩
  | .hbm, ⟨6, _⟩ => ⟨S10x2, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S128x10, .f32⟩
  | .hbm, ⟨11, _⟩ => ⟨S128x32, .f32⟩
  | .hbm, ⟨12, _⟩ => ⟨S128, .f32⟩
  | .hbm, ⟨13, _⟩ => ⟨S128, .f32⟩
  | .hbm, ⟨14, _⟩ => ⟨S128x32, .f32⟩
  | .hbm, ⟨15, _⟩ => ⟨S128x32, .f32⟩
  | .hbm, ⟨16, _⟩ => ⟨S128, .f32⟩
  | .hbm, ⟨17, _⟩ => ⟨S128, .f32⟩
  | .hbm, ⟨18, _⟩ => ⟨S1x32, .f32⟩
  | .hbm, ⟨19, _⟩ => ⟨S1, .f32⟩
  | .hbm, ⟨20, _⟩ => ⟨S800000, .f32⟩
  | .hbm, ⟨21, _⟩ => ⟨S800000, .f32⟩
  | .hbm, ⟨22, _⟩ => ⟨S800000x32, .f32⟩
  | .hbm, ⟨23, _⟩ => ⟨S800000x32, .f32⟩
  | .hbm, ⟨24, _⟩ => ⟨S800000x32, .f32⟩
  | .hbm, ⟨25, _⟩ => ⟨S800000x32, .f32⟩
  | .hbm, ⟨26, _⟩ => ⟨S_, .i32⟩
  | .hbm, ⟨27, _⟩ => ⟨S_, .f32⟩
  | .hbm, ⟨28, _⟩ => ⟨S800768, .f32⟩
  | .hbm, ⟨29, _⟩ => ⟨S_, .i32⟩
  | .hbm, ⟨30, _⟩ => ⟨S_, .f32⟩
  | .hbm, ⟨31, _⟩ => ⟨S800768, .f32⟩
  | .hbm, ⟨32, _⟩ => ⟨S_, .i32⟩
  | .hbm, ⟨33, _⟩ => ⟨S_, .f32⟩
  | .hbm, ⟨34, _⟩ => ⟨S800768x32, .f32⟩
  | .hbm, ⟨35, _⟩ => ⟨S_, .i32⟩
  | .hbm, ⟨36, _⟩ => ⟨S_, .f32⟩
  | .hbm, ⟨37, _⟩ => ⟨S800768x32, .f32⟩
  | .hbm, ⟨38, _⟩ => ⟨S_, .i32⟩
  | .hbm, ⟨39, _⟩ => ⟨S_, .f32⟩
  | .hbm, ⟨40, _⟩ => ⟨S800768x32, .f32⟩
  | .hbm, ⟨41, _⟩ => ⟨S_, .i32⟩
  | .hbm, ⟨42, _⟩ => ⟨S_, .f32⟩
  | .hbm, ⟨43, _⟩ => ⟨S800768x32, .f32⟩
  | .hbm, ⟨44, _⟩ => ⟨S800768, .f32⟩
  | .hbm, ⟨45, _⟩ => ⟨S800768x32, .f32⟩
  | .hbm, ⟨46, _⟩ => ⟨S800768x32, .f32⟩
  | .hbm, ⟨47, _⟩ => ⟨S800768x32, .f32⟩
  | .hbm, ⟨48, _⟩ => ⟨S800768x32, .f32⟩
  | .hbm, ⟨49, _⟩ => ⟨S800768, .f32⟩
  | .hbm, ⟨50, _⟩ => ⟨S800000, .f32⟩
  | .hbm, ⟨51, _⟩ => ⟨S800000x32, .f32⟩
  | .hbm, ⟨52, _⟩ => ⟨S800000x32, .f32⟩
  | .hbm, ⟨53, _⟩ => ⟨S800000x32, .f32⟩
  | .hbm, ⟨54, _⟩ => ⟨S800000x32, .f32⟩
  | .hbm, ⟨55, _⟩ => ⟨S800000, .f32⟩
  | .hbm, ⟨56, _⟩ => ⟨S8x100000, .f32⟩
  | .hbm, ⟨57, _⟩ => ⟨S8x100000x32, .f32⟩
  | .hbm, ⟨58, _⟩ => ⟨S8x100000x32, .f32⟩
  | .hbm, ⟨59, _⟩ => ⟨S8x100000x32, .f32⟩
  | .hbm, ⟨60, _⟩ => ⟨S8x100000x32, .f32⟩
  | .hbm, ⟨61, _⟩ => ⟨S8x100000, .f32⟩
  | .local _ .vmem, ⟨0, _⟩ => ⟨S2048, .f32⟩
  | .local _ .vmem, ⟨1, _⟩ => ⟨S2048, .f32⟩
  | .local _ .vmem, ⟨2, _⟩ => ⟨S2048, .f32⟩
  | .local _ .vmem, ⟨3, _⟩ => ⟨S2048, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S10x2, .f32⟩
  | .local _ .vmem, ⟨13, _⟩ => ⟨S10, .f32⟩
  | .local _ .vmem, ⟨14, _⟩ => ⟨S10x10, .f32⟩
  | .local _ .vmem, ⟨15, _⟩ => ⟨S10, .f32⟩
  | .local _ .vmem, ⟨16, _⟩ => ⟨S128x10, .f32⟩
  | .local _ .vmem, ⟨17, _⟩ => ⟨S128x32, .f32⟩
  | .local _ .vmem, ⟨18, _⟩ => ⟨S128, .f32⟩
  | .local _ .vmem, ⟨19, _⟩ => ⟨S128, .f32⟩
  | .local _ .vmem, ⟨20, _⟩ => ⟨S128x32, .f32⟩
  | .local _ .vmem, ⟨21, _⟩ => ⟨S128x32, .f32⟩
  | .local _ .vmem, ⟨22, _⟩ => ⟨S128, .f32⟩
  | .local _ .vmem, ⟨23, _⟩ => ⟨S128, .f32⟩
  | .local _ .vmem, ⟨24, _⟩ => ⟨S1x32, .f32⟩
  | .local _ .vmem, ⟨25, _⟩ => ⟨S1, .f32⟩
  | .local _ .vmem, ⟨26, _⟩ => ⟨S2048, .f32⟩
  | .local _ .vmem, ⟨27, _⟩ => ⟨S2048, .f32⟩
  | .local _ .vmem, ⟨28, _⟩ => ⟨S2048x32, .f32⟩
  | .local _ .vmem, ⟨29, _⟩ => ⟨S2048x32, .f32⟩
  | .local _ .vmem, ⟨30, _⟩ => ⟨S2048x32, .f32⟩
  | .local _ .vmem, ⟨31, _⟩ => ⟨S2048x32, .f32⟩
  | .local _ .vmem, ⟨32, _⟩ => ⟨S2048x32, .f32⟩
  | .local _ .vmem, ⟨33, _⟩ => ⟨S2048x32, .f32⟩
  | .local _ .vmem, ⟨34, _⟩ => ⟨S2048x32, .f32⟩
  | .local _ .vmem, ⟨35, _⟩ => ⟨S2048x32, .f32⟩
  | .local _ .vmem, ⟨36, _⟩ => ⟨S2048, .f32⟩
  | .local _ .vmem, ⟨37, _⟩ => ⟨S2048, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_call0_v0 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_v7 : Ref sig .tc := ⟨.hbm, 31, rfl⟩
abbrev main_c_1 : Ref sig .tc := ⟨.hbm, 32, rfl⟩
abbrev main_call2_v0 : Ref sig .tc := ⟨.hbm, 33, rfl⟩
abbrev main_v8 : Ref sig .tc := ⟨.hbm, 34, rfl⟩
abbrev main_c_2 : Ref sig .tc := ⟨.hbm, 35, rfl⟩
abbrev main_call3_v0 : Ref sig .tc := ⟨.hbm, 36, rfl⟩
abbrev main_v9 : Ref sig .tc := ⟨.hbm, 37, rfl⟩
abbrev main_c_3 : Ref sig .tc := ⟨.hbm, 38, rfl⟩
abbrev main_call4_v0 : Ref sig .tc := ⟨.hbm, 39, rfl⟩
abbrev main_v10 : Ref sig .tc := ⟨.hbm, 40, rfl⟩
abbrev main_c_4 : Ref sig .tc := ⟨.hbm, 41, rfl⟩
abbrev main_call5_v0 : Ref sig .tc := ⟨.hbm, 42, rfl⟩
abbrev main_v11 : Ref sig .tc := ⟨.hbm, 43, rfl⟩
abbrev main_v12_0 : Ref sig .tc := ⟨.hbm, 44, rfl⟩
abbrev main_v12_1 : Ref sig .tc := ⟨.hbm, 45, rfl⟩
abbrev main_v12_2 : Ref sig .tc := ⟨.hbm, 46, rfl⟩
abbrev main_v12_3 : Ref sig .tc := ⟨.hbm, 47, rfl⟩
abbrev main_v12_4 : Ref sig .tc := ⟨.hbm, 48, rfl⟩
abbrev main_v12_5 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [BitOps F]

abbrev grid0 : Pipeline.Grid := ⟨1, ![391], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  ![arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x32 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x32 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x32 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  shapeCasts_S8x100000_S800000 : S8x100000.ShapeCasts S800000
  shapeCasts_S8x100000x32_S800000x32 : S8x100000x32.ShapeCasts S800000x32
  pads_S800000_S800768_07680 : S800000.Pads (![0] : Fin 1 → Nat) ![768] ![0] S800768
  h_S_ : 0 < S_.numel
  pads_S800000x32_S800768x32_07680_000 : S800000x32.Pads (![0, 0] : Fin 2 → Nat) ![768, 0] ![0, 0] S800768x32
  inb_S2048_S2048_0 : ∀ a, (![0] : Fin 1 → Nat) a + S2048.size a ≤ S2048.size a
  h_S2048 : 0 < S2048.numel
  shapeCasts_S2048_S2048 : S2048.ShapeCasts S2048
  inb_S10x2_S10x2_0_0 : ∀ a, (![0, 0] : Fin 2 → Nat) a + S10x2.size a ≤ S10x2.size a
  h_S10x2 : 0 < S10x2.numel
  inb_S10_S10_0 : ∀ a, (![0] : Fin 1 → Nat) a + S10.size a ≤ S10.size a
  h_S10 : 0 < S10.numel
  slices_S10x2_o0_0_S10x1 : S10x2.Slices ![0, 0] S10x1
  shapeCasts_S10x1_S10 : S10x1.ShapeCasts S10
  slices_S10x2_o0_1_S10x1 : S10x2.Slices ![0, 1] S10x1
  shapeCasts_S2048_S2048x1 : S2048.ShapeCasts S2048x1
  shapeCasts_S10_S1x10 : S10.ShapeCasts S1x10
  broadcasts_S2048x1_S2048x10 : S2048x1.Broadcasts S2048x10
  broadcasts_S1x10_S2048x10 : S1x10.Broadcasts S2048x10
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S128x10_S128x10_0_0 : ∀ a, (![0, 0] : Fin 2 → Nat) a + S128x10.size a ≤ S128x10.size a
  h_S128x10 : 0 < S128x10.numel
  inb_S128x32_S128x32_0_0 : ∀ a, (![0, 0] : Fin 2 → Nat) a + S128x32.size a ≤ S128x32.size a
  h_S128x32 : 0 < S128x32.numel
  inb_S128_S128_0 : ∀ a, (![0] : Fin 1 → Nat) a + S128.size a ≤ S128.size a
  h_S128 : 0 < S128.numel
  transposes_S128x10_p1_0_S10x128 : S128x10.Transposes [1, 0] S10x128
  shapeCasts_S128_S1x128 : S128.ShapeCasts S1x128
  broadcasts_S1x128_S2048x128 : S1x128.Broadcasts S2048x128
  transposes_S128x32_p1_0_S32x128 : S128x32.Transposes [1, 0] S32x128
  slices_S2048x128_o0_0_S2048x32 : S2048x128.Slices ![0, 0] S2048x32
  slices_S2048x128_o0_32_S2048x32 : S2048x128.Slices ![0, 32] S2048x32
  slices_S2048x128_o0_64_S2048x32 : S2048x128.Slices ![0, 64] S2048x32
  slices_S2048x128_o0_96_S2048x32 : S2048x128.Slices ![0, 96] S2048x32
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  shapeCasts_S1x32_S32 : S1x32.ShapeCasts S32
  shapeCasts_S32_S1x32 : S32.ShapeCasts S1x32
  broadcasts_S1x32_S2048x32 : S1x32.Broadcasts S2048x32
  reduces_S2048x32_S2048 : S2048x32.Reduces [1] S2048
  inpos_S1_p0 : ∀ a, (![0] : Fin 1 → Nat) a < S1.size a
  slices_S800768_S800000_0 : S800768.Slices ![0] S800000
  slices_S800768x32_S800000x32_0_0 : S800768x32.Slices ![0, 0] S800000x32
  shapeCasts_S800000_S8x100000 : S800000.ShapeCasts S8x100000
  shapeCasts_S800000x32_S8x100000x32 : S800000x32.ShapeCasts S8x100000x32
  dot_S2048x10_S10x10_S2048x10_1_0_0_1_n_n_wf : DotDims.WF S2048x10 S10x10 S2048x10 [1] [0] [0] [1] [] []
  dot_S2048x10_S10x128_S2048x128_1_0_0_1_n_n_wf : DotDims.WF S2048x10 S10x128 S2048x128 [1] [0] [0] [1] [] []
  dot_S2048x32_S32x128_S2048x128_1_0_0_1_n_n_wf : DotDims.WF S2048x32 S32x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S800768.size a
  hwx0_0 : ∀ i : grid0.Coords, EltTy.bits .f32 = 32 ∨ (Rect.block (s := S800768) S2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S800768.size a
  hwx0_1 : ∀ i : grid0.Coords, EltTy.bits .f32 = 32 ∨ (Rect.block (s := S800768) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S800768x32.size a
  hwx0_2 : ∀ i : grid0.Coords, EltTy.bits .f32 = 32 ∨ (Rect.block (s := S800768x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S800768x32.size a
  hwx0_3 : ∀ i : grid0.Coords, EltTy.bits .f32 = 32 ∨ (Rect.block (s := S800768x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S800768x32.size a
  hwx0_4 : ∀ i : grid0.Coords, EltTy.bits .f32 = 32 ∨ (Rect.block (s := S800768x32) S2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x32.size a ≤ S800768x32.size a
  hwx0_5 : ∀ i : grid0.Coords, EltTy.bits .f32 = 32 ∨ (Rect.block (s := S800768x32) S2048x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x2.size a ≤ S10x2.size a
  hwx0_6 : ∀ i : grid0.Coords, EltTy.bits .f32 = 32 ∨ (Rect.block (s := S10x2) S10x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10.size a ≤ S10.size a
  hwx0_7 : ∀ i : grid0.Coords, EltTy.bits .f32 = 32 ∨ (Rect.block (s := S10) S10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x10.size a ≤ S10x10.size a
  hwx0_8 : ∀ i : grid0.Coords, EltTy.bits .f32 = 32 ∨ (Rect.block (s := S10x10) S10x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10.size a ≤ S10.size a
  hwx0_9 : ∀ i : grid0.Coords, EltTy.bits .f32 = 32 ∨ (Rect.block (s := S10) S10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x10.size a ≤ S128x10.size a
  hwx0_10 : ∀ i : grid0.Coords, EltTy.bits .f32 = 32 ∨ (Rect.block (s := S128x10) S128x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x32.size a ≤ S128x32.size a
  hwx0_11 : ∀ i : grid0.Coords, EltTy.bits .f32 = 32 ∨ (Rect.block (s := S128x32) S128x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x32.size a ≤ S128x32.size a
  hwx0_14 : ∀ i : grid0.Coords, EltTy.bits .f32 = 32 ∨ (Rect.block (s := S128x32) S128x32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x32.size a ≤ S128x32.size a
  hwx0_15 : ∀ i : grid0.Coords, EltTy.bits .f32 = 32 ∨ (Rect.block (s := S128x32) S128x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x32.size a ≤ S1x32.size a
  hwx0_18 : ∀ i : grid0.Coords, EltTy.bits .f32 = 32 ∨ (Rect.block (s := S1x32) S1x32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1.size a ≤ S1.size a
  hwx0_19 : ∀ i : grid0.Coords, EltTy.bits .f32 = 32 ∨ (Rect.block (s := S1) S1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2048.size a ≤ S800768.size a
  hwx0_20 : ∀ i : grid0.Coords, EltTy.bits .f32 = 32 ∨ (Rect.block (s := S800768) S2048.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x32.size a ≤ S800768x32.size a
  hwx0_21 : ∀ i : grid0.Coords, EltTy.bits .f32 = 32 ∨ (Rect.block (s := S800768x32) S2048x32.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x32.size a ≤ S800768x32.size a
  hwx0_22 : ∀ i : grid0.Coords, EltTy.bits .f32 = 32 ∨ (Rect.block (s := S800768x32) S2048x32.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x32.size a ≤ S800768x32.size a
  hwx0_23 : ∀ i : grid0.Coords, EltTy.bits .f32 = 32 ∨ (Rect.block (s := S800768x32) S2048x32.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x32.size a ≤ S800768x32.size a
  hwx0_24 : ∀ i : grid0.Coords, EltTy.bits .f32 = 32 ∨ (Rect.block (s := S800768x32) S2048x32.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048.size a ≤ S800768.size a
  hwx0_25 : ∀ i : grid0.Coords, EltTy.bits .f32 = 32 ∨ (Rect.block (s := S800768) S2048.size (cc0_transform_25 i) (hinb0_25 i)).WholeWords (EltTy.packing .f32)

variable [Facts₀]

def dot_S2048x10_S10x10_S2048x10_1_0_0_1_n_n : DotDims S2048x10 S10x10 S2048x10 where
  lhsContracting := [1]
  rhsContracting := [0]
  lhsNonContracting := [0]
  rhsNonContracting := [1]
  lhsBatch := []
  rhsBatch := []
  wf := dot_S2048x10_S10x10_S2048x10_1_0_0_1_n_n_wf
def dot_S2048x10_S10x128_S2048x128_1_0_0_1_n_n : DotDims S2048x10 S10x128 S2048x128 where
  lhsContracting := [1]
  rhsContracting := [0]
  lhsNonContracting := [0]
  rhsNonContracting := [1]
  lhsBatch := []
  rhsBatch := []
  wf := dot_S2048x10_S10x128_S2048x128_1_0_0_1_n_n_wf
def dot_S2048x32_S32x128_S2048x128_1_0_0_1_n_n : DotDims S2048x32 S32x128 S2048x128 where
  lhsContracting := [1]
  rhsContracting := [0]
  lhsNonContracting := [0]
  rhsNonContracting := [1]
  lhsBatch := []
  rhsBatch := []
  wf := dot_S2048x32_S32x128_S2048x128_1_0_0_1_n_n_wf

abbrev win0_0 : Pipeline.Window sig grid0 :=
  Pipeline.Window.ofSpec (Memref.whole main_v6) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v12_0) S2048.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v12_1) S2048x32.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v12_2) S2048x32.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v12_3) S2048x32.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v12_4) S2048x32.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v12_5) S2048.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8x100000 : Shape := ⟨2, ![8, 100000]⟩
abbrev S8x100000x32 : Shape := ⟨3, ![8, 100000, 32]⟩
abbrev S10x2 : Shape := ⟨2, ![10, 2]⟩
abbrev S10 : Shape := ⟨1, ![10]⟩
abbrev S10x10 : Shape := ⟨2, ![10, 10]⟩
abbrev S128x10 : Shape := ⟨2, ![128, 10]⟩
abbrev S128x32 : Shape := ⟨2, ![128, 32]⟩
abbrev S128 : Shape := ⟨1, ![128]⟩
abbrev S1x32 : Shape := ⟨2, ![1, 32]⟩
abbrev S1 : Shape := ⟨1, ![1]⟩
abbrev S800000x1 : Shape := ⟨2, ![800000, 1]⟩
abbrev S_ : Shape := ⟨0, ![]⟩
abbrev S800000x2 : Shape := ⟨2, ![800000, 2]⟩
abbrev S2x10 : Shape := ⟨2, ![2, 10]⟩
abbrev S800000x10 : Shape := ⟨2, ![800000, 10]⟩
abbrev S1x10 : Shape := ⟨2, ![1, 10]⟩
abbrev S800000x32 : Shape := ⟨2, ![800000, 32]⟩
abbrev S10x128 : Shape := ⟨2, ![10, 128]⟩
abbrev S800000x128 : Shape := ⟨2, ![800000, 128]⟩
abbrev S1x128 : Shape := ⟨2, ![1, 128]⟩
abbrev S32x128 : Shape := ⟨2, ![32, 128]⟩
abbrev S32x1 : Shape := ⟨2, ![32, 1]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S8x100000, .f32⟩
  | 1 => ⟨S8x100000, .f32⟩
  | 2 => ⟨S8x100000x32, .f32⟩
  | 3 => ⟨S8x100000x32, .f32⟩
  | 4 => ⟨S8x100000x32, .f32⟩
  | 5 => ⟨S8x100000x32, .f32⟩
  | 6 => ⟨S10x2, .f32⟩
  | 7 => ⟨S10, .f32⟩
  | 8 => ⟨S10x10, .f32⟩
  | 9 => ⟨S10, .f32⟩
  | 10 => ⟨S128x10, .f32⟩
  | 11 => ⟨S128x32, .f32⟩
  | 12 => ⟨S128, .f32⟩
  | 13 => ⟨S128, .f32⟩
  | 14 => ⟨S128x32, .f32⟩
  | 15 => ⟨S128x32, .f32⟩
  | 16 => ⟨S128, .f32⟩
  | 17 => ⟨S128, .f32⟩
  | 18 => ⟨S1x32, .f32⟩
  | 19 => ⟨S1, .f32⟩
  | 20 => ⟨S800000x1, .f32⟩
  | 21 => ⟨S800000x1, .f32⟩
  | 22 => ⟨S800000x1, .f32⟩
  | 23 => ⟨S_, .f32⟩
  | 24 => ⟨S800000x1, .f32⟩
  | 25 => ⟨S800000x1, .f32⟩
  | 26 => ⟨S800000x1, .f32⟩
  | 27 => ⟨S800000x2, .f32⟩
  | 28 => ⟨S2x10, .f32⟩
  | 29 => ⟨S800000x10, .f32⟩
  | 30 => ⟨S1x10, .f32⟩
  | 31 => ⟨S800000x10, .f32⟩
  | 32 => ⟨S800000x10, .f32⟩
  | 33 => ⟨S800000x10, .f32⟩
  | 34 => ⟨S10x10, .f32⟩
  | 35 => ⟨S800000x10, .f32⟩
  | 36 => ⟨S1x10, .f32⟩
  | 37 => ⟨S800000x10, .f32⟩
  | 38 => ⟨S800000x10, .f32⟩
  | 39 => ⟨S800000x32, .f32⟩
  | 40 => ⟨S800000x32, .f32⟩
  | 41 => ⟨S10x128, .f32⟩
  | 42 => ⟨S800000x128, .f32⟩
  | 43 => ⟨S1x128, .f32⟩
  | 44 => ⟨S800000x128, .f32⟩
  | 45 => ⟨S800000x128, .f32⟩
  | 46 => ⟨S32x128, .f32⟩
  | 47 => ⟨S800000x128, .f32⟩
  | 48 => ⟨S800000x128, .f32⟩
  | 49 => ⟨S1x128, .f32⟩
  | 50 => ⟨S800000x128, .f32⟩
  | 51 => ⟨S800000x128, .f32⟩
  | 52 => ⟨S800000x32, .f32⟩
  | 53 => ⟨S800000x32, .f32⟩
  | 54 => ⟨S800000x32, .f32⟩
  | 55 => ⟨S800000x32, .f32⟩
  | 56 => ⟨S800000x32, .f32⟩
  | 57 => ⟨S800000x32, .f32⟩
  | 58 => ⟨S_, .f32⟩
  | 59 => ⟨S800000x32, .f32⟩
  | 60 => ⟨S800000x32, .f32⟩
  | 61 => ⟨S_, .f32⟩
  | 62 => ⟨S800000x32, .f32⟩
  | 63 => ⟨S800000x32, .f32⟩
  | 64 => ⟨S800000x32, .f32⟩
  | 65 => ⟨S800000x32, .f32⟩
  | 66 => ⟨S_, .f32⟩
  | 67 => ⟨S800000x32, .f32⟩
  | 68 => ⟨S800000x32, .f32⟩
  | 69 => ⟨S_, .f32⟩
  | 70 => ⟨S800000x32, .f32⟩
  | 71 => ⟨S800000x32, .f32⟩
  | 72 => ⟨S800000x32, .f32⟩
  | 73 => ⟨S800000x32, .f32⟩
  | 74 => ⟨S800000x32, .f32⟩
  | 75 => ⟨S_, .f32⟩
  | 76 => ⟨S800000x32, .f32⟩
  | 77 => ⟨S800000x32, .f32⟩
  | 78 => ⟨S_, .f32⟩
  | 79 => ⟨S800000x32, .f32⟩
  | 80 => ⟨S800000x32, .f32⟩
  | 81 => ⟨S800000x32, .f32⟩
  | 82 => ⟨S800000x32, .f32⟩
  | 83 => ⟨S800000x32, .f32⟩
  | 84 => ⟨S800000x32, .f32⟩
  | 85 => ⟨S800000x32, .f32⟩
  | 86 => ⟨S800000x32, .f32⟩
  | 87 => ⟨S800000x32, .f32⟩
  | 88 => ⟨S32x128, .f32⟩
  | 89 => ⟨S800000x128, .f32⟩
  | 90 => ⟨S1x128, .f32⟩
  | 91 => ⟨S800000x128, .f32⟩
  | 92 => ⟨S800000x128, .f32⟩
  | 93 => ⟨S32x128, .f32⟩
  | 94 => ⟨S800000x128, .f32⟩
  | 95 => ⟨S800000x128, .f32⟩
  | 96 => ⟨S1x128, .f32⟩
  | 97 => ⟨S800000x128, .f32⟩
  | 98 => ⟨S800000x128, .f32⟩
  | 99 => ⟨S800000x32, .f32⟩
  | 100 => ⟨S800000x32, .f32⟩
  | 101 => ⟨S800000x32, .f32⟩
  | 102 => ⟨S800000x32, .f32⟩
  | 103 => ⟨S800000x32, .f32⟩
  | 104 => ⟨S800000x32, .f32⟩
  | 105 => ⟨S_, .f32⟩
  | 106 => ⟨S800000x32, .f32⟩
  | 107 => ⟨S800000x32, .f32⟩
  | 108 => ⟨S_, .f32⟩
  | 109 => ⟨S800000x32, .f32⟩
  | 110 => ⟨S800000x32, .f32⟩
  | 111 => ⟨S800000x32, .f32⟩
  | 112 => ⟨S800000x32, .f32⟩
  | 113 => ⟨S_, .f32⟩
  | 114 => ⟨S800000x32, .f32⟩
  | 115 => ⟨S800000x32, .f32⟩
  | 116 => ⟨S_, .f32⟩
  | 117 => ⟨S800000x32, .f32⟩
  | 118 => ⟨S800000x32, .f32⟩
  | 119 => ⟨S800000x32, .f32⟩
  | 120 => ⟨S800000x32, .f32⟩
  | 121 => ⟨S800000x32, .f32⟩
  | 122 => ⟨S_, .f32⟩
  | 123 => ⟨S800000x32, .f32⟩
  | 124 => ⟨S800000x32, .f32⟩
  | 125 => ⟨S_, .f32⟩
  | 126 => ⟨S800000x32, .f32⟩
  | 127 => ⟨S800000x32, .f32⟩
  | _ => ⟨S8x100000, .f32⟩

abbrev hbmTy0_1 (i : Nat) : BufTy := match i % 128 with
  | 0 => ⟨S800000x32, .f32⟩
  | 1 => ⟨S800000x32, .f32⟩
  | 2 => ⟨S800000x32, .f32⟩
  | 3 => ⟨S800000x32, .f32⟩
  | 4 => ⟨S800000x32, .f32⟩
  | 5 => ⟨S32x1, .f32⟩
  | 6 => ⟨S800000x1, .f32⟩
  | 7 => ⟨S1x1, .f32⟩
  | 8 => ⟨S800000x1, .f32⟩
  | 9 => ⟨S800000x1, .f32⟩
  | 10 => ⟨S8x100000, .f32⟩
  | 11 => ⟨S8x100000, .f32⟩
  | 12 => ⟨S8x100000x32, .f32⟩
  | 13 => ⟨S8x100000x32, .f32⟩
  | 14 => ⟨S8x100000x32, .f32⟩
  | 15 => ⟨S8x100000x32, .f32⟩
  | _ => ⟨S8x100000, .f32⟩

abbrev hbmTy (i : Nat) : BufTy := match i / 128 with
  | 0 => hbmTy0_0 i
  | 1 => hbmTy0_1 i
  | _ => ⟨S8x100000, .f32⟩

abbrev bufTy : (tb : Table) → Fin (tcTables nBuf tb) → BufTy
  | .hbm, ⟨i, _⟩ => hbmTy i
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_0 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_6 : Ref sig .tc := ⟨.hbm, 105, rfl⟩
abbrev main_v78 : Ref sig .tc := ⟨.hbm, 106, rfl⟩
abbrev main_v79 : Ref sig .tc := ⟨.hbm, 107, rfl⟩
abbrev main_cst_7 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_8 : Ref sig .tc := ⟨.hbm, 113, rfl⟩
abbrev main_v84 : Ref sig .tc := ⟨.hbm, 114, rfl⟩
abbrev main_v85 : Ref sig .tc := ⟨.hbm, 115, rfl⟩
abbrev main_cst_9 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_10 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩

abbrev nD : Nat := 1
abbrev τ : Topo := Topo.v7x

variable {F : FTy → Type} [FloatOps F]

class Facts₀ : Prop where
  shapeCasts_S8x100000_S800000x1 : S8x100000.ShapeCasts S800000x1
  bcast_S_S800000x1 : S_.BroadcastsInDim S800000x1 (![] : Fin 0 → Fin S800000x1.rank)
  concatenates_S800000x1_S800000x1_S800000x2_d1 : Shape.Concatenates [S800000x1, S800000x1] S800000x2 1
  transposes_S10x2_S2x10_1_0 : S10x2.Transposes [1, 0] S2x10
  bcast_S10_S1x10_1 : S10.BroadcastsInDim S1x10 (![1] : Fin 1 → Fin S1x10.rank)
  bcast_S1x10_S800000x10_0_1 : S1x10.BroadcastsInDim S800000x10 (![0, 1] : Fin 2 → Fin S800000x10.rank)
  transposes_S10x10_S10x10_1_0 : S10x10.Transposes [1, 0] S10x10
  shapeCasts_S8x100000x32_S800000x32 : S8x100000x32.ShapeCasts S800000x32
  transposes_S128x10_S10x128_1_0 : S128x10.Transposes [1, 0] S10x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  transposes_S128x32_S32x128_1_0 : S128x32.Transposes [1, 0] S32x128
  slices_S800000x128_S800000x32_0_0 : S800000x128.Slices ![0, 0] S800000x32
  slices_S800000x128_S800000x32_0_32 : S800000x128.Slices ![0, 32] S800000x32
  slices_S800000x128_S800000x32_0_64 : S800000x128.Slices ![0, 64] S800000x32
  slices_S800000x128_S800000x32_0_96 : S800000x128.Slices ![0, 96] S800000x32
  bcast_S_S800000x32 : S_.BroadcastsInDim S800000x32 (![] : Fin 0 → Fin S800000x32.rank)
  transposes_S1x32_S32x1_1_0 : S1x32.Transposes [1, 0] S32x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S8x100000 : S800000x1.ShapeCasts S8x100000
  shapeCasts_S800000x32_S8x100000x32 : S800000x32.ShapeCasts S8x100000x32
  dot_S800000x2_S2x10_S800000x10_1_0_0_1_n_n_wf : DotDims.WF S800000x2 S2x10 S800000x10 [1] [0] [0] [1] [] []
  dot_S800000x10_S10x10_S800000x10_1_0_0_1_n_n_wf : DotDims.WF S800000x10 S10x10 S800000x10 [1] [0] [0] [1] [] []
  dot_S800000x10_S10x128_S800000x128_1_0_0_1_n_n_wf : DotDims.WF S800000x10 S10x128 S800000x128 [1] [0] [0] [1] [] []
  dot_S800000x32_S32x128_S800000x128_1_0_0_1_n_n_wf : DotDims.WF S800000x32 S32x128 S800000x128 [1] [0] [0] [1] [] []
  dot_S800000x32_S32x1_S800000x1_1_0_0_1_n_n_wf : DotDims.WF S800000x32 S32x1 S800000x1 [1] [0] [0] [1] [] []

variable [Facts₀]

def dot_S800000x2_S2x10_S800000x10_1_0_0_1_n_n : DotDims S800000x2 S2x10 S800000x10 where
  lhsContracting := [1]
  rhsContracting := [0]
  lhsNonContracting := [0]
  rhsNonContracting := [1]
  lhsBatch := []
  rhsBatch := []
  wf := dot_S800000x2_S2x10_S800000x10_1_0_0_1_n_n_wf
def dot_S800000x10_S10x10_S800000x10_1_0_0_1_n_n : DotDims S800000x10 S10x10 S800000x10 where
  lhsContracting := [1]
  rhsContracting := [0]
  lhsNonContracting := [0]
  rhsNonContracting := [1]
  lhsBatch := []
  rhsBatch := []
  wf := dot_S800000x10_S10x10_S800000x10_1_0_0_1_n_n_wf
def dot_S800000x10_S10x128_S800000x128_1_0_0_1_n_n : DotDims S800000x10 S10x128 S800000x128 where
  lhsContracting := [1]
  rhsContracting := [0]
  lhsNonContracting := [0]
  rhsNonContracting := [1]
  lhsBatch := []
  rhsBatch := []
  wf := dot_S800000x10_S10x128_S800000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x32_S32x1_S800000x1_1_0_0_1_n_n : DotDims S800000x32 S32x1 S800000x1 where
  lhsContracting := [1]
  rhsContracting := [0]
  lhsNonContracting := [0]
  rhsNonContracting := [1]
  lhsBatch := []
  rhsBatch := []
  wf := dot_S800000x32_S32x1_S800000x1_1_0_0_1_n_n_wf

class Facts : Prop extends Facts₀ where

variable [Facts]
-- ==== Proof.UpdateRule.lean ====
/-
  The update of ONE optimised variable, as a function on the extended reals.

  A variable carries a gradient entry `g`, its value `x`, and the states `(h⁰, c⁰)`, `(h¹, c¹)` of two recurrent
  cells of width 32. The rule:
    * two features of the gradient, its sign and `log (|g| + ε)`;
    * a hidden layer of width 10, `tanh (sign g · W₁[l,0] + log(|g| + ε) · W₁[l,1] + b₁[l])`, and a linear layer
      of width 10 on top of it (`embed`);
    * a recurrent cell: 128 pre-activations `x·Wihᵀ + bih + h·Whhᵀ + bhh` (`gates`), cut into four runs of 32 —
      input, forget, candidate, output —, the new cell state `σ(f)·c + σ(i)·tanh(cand)` (`cellState`) and the new
      hidden state `σ(o)·tanh(new cell state)` (`cellOut`), with `σ x = 1 / (1 + e⁻ˣ)`;
    * a second cell fed by the first one's new hidden state;
    * a linear head `Σₖ h¹'[k]·Wfc[k] + bfc` (`step`), added to the value (`moved`).
  Every sum is written in the order both programs take it, so that each program meets these terms without any
  rearrangement: the only laws used later are that a sum over two indices is its two terms, and that the two programs'
  elementary functions are the same functions on the extended reals.
-/
import Idealize.ShloMosaic.PureOps.Ideal
import Idealize.ShloMosaic.Lib.ValueIdx

noncomputable section

namespace Cert.Update

open Idealize.ShloMosaic Idealize.ShloMosaic.ValueIdx

/-- The small constant added to `|g|` before the logarithm: the single-precision number nearest 1e-14. -/
def eps : EReal := Ideal.ofBits .f32 0x283424DC#32

/-- The logarithmic feature `log (|g| + ε)`, the absolute value written as `max g (-g)`. -/
def logFeature (g : EReal) : EReal := Ideal.log (max g (-g) + eps)

/-- The hidden layer at unit `l`: `tanh (sign g · W₁[l,0] + log(|g| + ε) · W₁[l,1] + b₁[l])`. -/
def hidden (g : EReal) (W1 : Fin 10 → Fin 2 → EReal) (b1 : Fin 10 → EReal) (l : Fin 10) : EReal :=
  Ideal.tanh (Ideal.sign g * W1 l 0 + logFeature g * W1 l 1 + b1 l)

/-- The embedding of the gradient entry at unit `l`: `Σₖ hidden[k] · W₂[l,k] + b₂[l]`. -/
def embed (g : EReal) (W1 : Fin 10 → Fin 2 → EReal) (b1 : Fin 10 → EReal) (W2 : Fin 10 → Fin 10 → EReal)
    (b2 : Fin 10 → EReal) (l : Fin 10) : EReal :=
  (∑ k : Fin 10, hidden g W1 b1 k * W2 l k) + b2 l

/-- A recurrent cell's pre-activation `j` of 128, from an input of width `K` and the hidden state:
    `((Σₖ x[k]·Wih[j,k] + bih[j]) + Σₖ h[k]·Whh[j,k]) + bhh[j]`. -/
def gates {K : ℕ} (x : Fin K → EReal) (h : Fin 32 → EReal) (Wih : Fin 128 → Fin K → EReal)
    (Whh : Fin 128 → Fin 32 → EReal) (bih bhh : Fin 128 → EReal) (j : Fin 128) : EReal :=
  (∑ k : Fin K, x k * Wih j k) + bih j + (∑ k : Fin 32, h k * Whh j k) + bhh j

/-- Entry `q` of the run of 32 pre-activations that starts at `o`. -/
def run (o : ℕ) (ho : o + 32 ≤ 128) (q : Fin 32) : Fin 128 := ⟨o + q.val, by have := q.isLt; omega⟩

/-- The new cell state: `σ(forget)·c + σ(input)·tanh(candidate)`; the input run starts at 0, the forget run at 32,
    the candidate run at 64. -/
def cellState (G : Fin 128 → EReal) (c : Fin 32 → EReal) (q : Fin 32) : EReal :=
  Ideal.logistic (G (run 32 (by omega) q)) * c q
    + Ideal.logistic (G (run 0 (by omega) q)) * Ideal.tanh (G (run 64 (by omega) q))

/-- The new hidden state: `σ(output)·tanh(new cell state)`; the output run starts at 96. -/
def cellOut (G : Fin 128 → EReal) (c : Fin 32 → EReal) (q : Fin 32) : EReal :=
  Ideal.logistic (G (run 96 (by omega) q)) * Ideal.tanh (cellState G c q)

/-- The weights of the rule. -/
structure Params where
  W1 : Fin 10 → Fin 2 → EReal
  b1 : Fin 10 → EReal
  W2 : Fin 10 → Fin 10 → EReal
  b2 : Fin 10 → EReal
  Wih0 : Fin 128 → Fin 10 → EReal
  Whh0 : Fin 128 → Fin 32 → EReal
  bih0 : Fin 128 → EReal
  bhh0 : Fin 128 → EReal
  Wih1 : Fin 128 → Fin 32 → EReal
  Whh1 : Fin 128 → Fin 32 → EReal
  bih1 : Fin 128 → EReal
  bhh1 : Fin 128 → EReal
  Wfc : Fin 32 → EReal
  bfc : EReal

/-- The weights as the fourteen weight arrays hold them, each read at coordinates. -/
def Params.ofArrays (a6 : (⟨2, ![10, 2]⟩ : Shape).Idx → EReal) (a7 : (⟨1, ![10]⟩ : Shape).Idx → EReal)
    (a8 : (⟨2, ![10, 10]⟩ : Shape).Idx → EReal) (a9 : (⟨1, ![10]⟩ : Shape).Idx → EReal)
    (a10 : (⟨2, ![128, 10]⟩ : Shape).Idx → EReal) (a11 : (⟨2, ![128, 32]⟩ : Shape).Idx → EReal)
    (a12 a13 : (⟨1, ![128]⟩ : Shape).Idx → EReal)
    (a14 a15 : (⟨2, ![128, 32]⟩ : Shape).Idx → EReal) (a16 a17 : (⟨1, ![128]⟩ : Shape).Idx → EReal)
    (a18 : (⟨2, ![1, 32]⟩ : Shape).Idx → EReal) (a19 : (⟨1, ![1]⟩ : Shape).Idx → EReal) : Params where
  W1 l k := a6 (ix2 l k)
  b1 l := a7 (ix1 l)
  W2 l k := a8 (ix2 l k)
  b2 l := a9 (ix1 l)
  Wih0 j k := a10 (ix2 j k)
  Whh0 j k := a11 (ix2 j k)
  bih0 j := a12 (ix1 j)
  bhh0 j := a13 (ix1 j)
  Wih1 j k := a14 (ix2 j k)
  Whh1 j k := a15 (ix2 j k)
  bih1 j := a16 (ix1 j)
  bhh1 j := a17 (ix1 j)
  Wfc k := a18 (ix2 (0 : Fin 1) k)
  bfc := a19 (ix1 (0 : Fin 1))

variable (P : Params)

/-- The first cell's pre-activations: its input is the embedding of the gradient entry. -/
def gates0 (g : EReal) (h0 : Fin 32 → EReal) : Fin 128 → EReal :=
  gates (embed g P.W1 P.b1 P.W2 P.b2) h0 P.Wih0 P.Whh0 P.bih0 P.bhh0

/-- The first cell's new cell state. -/
def c0n (g : EReal) (h0 c0 : Fin 32 → EReal) : Fin 32 → EReal := cellState (gates0 P g h0) c0

/-- The first cell's new hidden state. -/
def h0n (g : EReal) (h0 c0 : Fin 32 → EReal) : Fin 32 → EReal := cellOut (gates0 P g h0) c0

/-- The second cell's pre-activations: its input is the first cell's new hidden state. -/
def gates1 (g : EReal) (h0 c0 h1 : Fin 32 → EReal) : Fin 128 → EReal :=
  gates (h0n P g h0 c0) h1 P.Wih1 P.Whh1 P.bih1 P.bhh1

/-- The second cell's new cell state. -/
def c1n (g : EReal) (h0 c0 h1 c1 : Fin 32 → EReal) : Fin 32 → EReal := cellState (gates1 P g h0 c0 h1) c1

/-- The second cell's new hidden state. -/
def h1n (g : EReal) (h0 c0 h1 c1 : Fin 32 → EReal) : Fin 32 → EReal := cellOut (gates1 P g h0 c0 h1) c1

/-- The step: the linear head on the second cell's new hidden state, `Σₖ h¹'[k]·Wfc[k] + bfc`. -/
def step (g : EReal) (h0 c0 h1 c1 : Fin 32 → EReal) : EReal :=
  (∑ k : Fin 32, h1n P g h0 c0 h1 c1 k * P.Wfc k) + P.bfc

/-- The moved value `x + step`. -/
def moved (x g : EReal) (h0 c0 h1 c1 : Fin 32 → EReal) : EReal := x + step P g h0 c0 h1 c1

end Cert.Update

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.BodyLayout.lean ====
/-
  Small facts about arrays read at coordinates, for any extents.

  * A vector spread along the rows of a matrix (a bias `b[c]` added to every row): cast `[b] → [1, b]`, broadcast
    `[1, b] → [a, b]`; at `(p, c)` it is the vector at `c`.
  * A vector spread along the columns (a per-row scalar): cast `[a] → [a, 1]`, broadcast `[a, 1] → [a, b]`; at `(p, c)`
    it is the vector at `p`.
  * A one-column matrix `[a, 1]` cast to the vector `[a]`: at `i` it is the column at `(i, 0)`.
  * A product `x · Wᵀ` into the zero accumulator, both operands passed through a format change that is the identity on
    the extended reals: at `(p, q)` it is `Σₖ x[p,k] · W[q,k]`.
-/
import Idealize.ShloMosaic.Lib.ValueLayout
import Idealize.ShloMosaic.PureOps.Ideal.Laws
import proofs.«144035_j37589553775001_2_alg».proof.Proof.LibKeepdims
import proofs.«144035_j37589553775001_2_alg».proof.Proof.LibPlainMatmul

noncomputable section

namespace Cert.KernelIdeal.Row

open Idealize.ShloMosaic Idealize.ShloMosaic.ValueIdx
open scoped BigOperators

variable {α : Type}

/-- A `[b]` vector laid as one row and repeated over `a` rows reads, at `(p, c)`, the vector at `c`. -/
theorem rowSpread_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- An `[a]` vector laid as one column and repeated over `b` columns reads, at `(p, c)`, the vector at `p`. -/
theorem colSpread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (Cert.LibKeepdims.broadcastTo_a1_ab_apply _ h2 p c).trans (Cert.LibKeepdims.shapeCast_a_a1_apply x h1 p 0)

/-- An `[a, 1]` column cast to the `[a]` vector reads, at `i`, the column at `(i, 0)`: row-major positions
    `i · 1 + 0 = i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `o` of an `[a, n]` matrix, cut out as an `[a, 1]` column and cast to a vector, reads at `i` the matrix at
    `(i, o)`. -/
theorem column_apply {a n : ℕ} (o : ℕ) (ho : o < n) (x : (⟨2, ![a, n]⟩ : Shape).Idx → α)
    (hs : (⟨2, ![a, n]⟩ : Shape).Slices ![0, o] ⟨2, ![a, 1]⟩) (h : (⟨2, ![a, 1]⟩ : Shape).ShapeCasts ⟨1, ![a]⟩) (i : Fin a) :
    shapeCast ⟨1, ![a]⟩ (extractStridedSlice ⟨2, ![a, 1]⟩ ![0, o] x hs) h (ix1 i) = x (ix2 i ⟨o, ho⟩) :=
  (shapeCast_a1_a_apply _ h i).trans (slice2_axis1_apply o x hs i 0 ⟨o, ho⟩ rfl)

/-- `x · Wᵀ` into the zero accumulator, the operands narrowed on the way in (the identity on the extended reals): at
    `(p, q)` it is `Σₖ x[p,k] · W[q,k]`. -/
theorem matmul_transposed_apply {m k n : ℕ}
    (wf : DotDims.WF (⟨2, ![m, k]⟩ : Shape) ⟨2, ![k, n]⟩ ⟨2, ![m, n]⟩ [1] [0] [0] [1] [] [])
    (x : FVec Ideal ⟨2, ![m, k]⟩ .f32) (w : FVec Ideal ⟨2, ![n, k]⟩ .f32)
    (ht : (⟨2, ![n, k]⟩ : Shape).Transposes [1, 0] ⟨2, ![k, n]⟩) (hb : FTy.bits .bf16 < FTy.bits .f32)
    (p : Fin m) (q : Fin n) :
    FloatOps.matmul (Cert.LibPlainMatmul.plainDims wf) none (truncf .bf16 x hb)
        (truncf .bf16 (transpose ⟨2, ![k, n]⟩ [1, 0] w ht) hb) (constant (F := Ideal) ⟨2, ![m, n]⟩ .f32 0x00000000#32) (ix2 p q)
      = ∑ c : Fin k, x (ix2 p c) * w (ix2 q c) :=
  (Cert.LibPlainMatmul.matmul_zero_plain wf _ _ p q).trans
    (Finset.sum_congr rfl fun c _ => congrArg (x (ix2 p c) * ·) (transpose_ix2_apply w ht c q))

end Cert.KernelIdeal.Row

end
-- ==== Proof.BodyEmbed.lean ====
/-
  The embedding block of the kernel body, read at one entry.

  The body computes, for the 2048 variables of a block at once, the two features of the gradient entries (the sign, spelt
  as a select on comparisons, and `log (|g| + ε)`), spreads each along 10 columns, multiplies by the two columns of
  `W₁` spread along the rows, adds `b₁`, takes `tanh`, multiplies by `W₂ᵀ` and adds `b₂`. Read at `(p, l)` every
  spread is the value it spreads and the matrix product is the sum over the ten hidden units, so the entry is the
  embedding of the one gradient entry `g[p]` at unit `l`.
-/
import proofs.«144035_j37589553775001_2_alg».proof.Proof.Gen.KernelIdeal.Skeleton
import proofs.«144035_j37589553775001_2_alg».proof.Proof.UpdateRule
import proofs.«144035_j37589553775001_2_alg».proof.Proof.BodyLayout

noncomputable section

namespace Cert.KernelIdeal.Row

open Cert.KernelIdeal Cert.KernelIdeal.Gen Idealize.ShloMosaic Idealize.ShloMosaic.ValueIdx
open scoped BigOperators

/-- The embedding block at `(p, l)` is the embedding of the gradient entry `p` at unit `l`. -/
theorem embed_at (v0 : Vec Ideal S2048 .f32) (v16 : Vec Ideal S10x2 .f32) (v17 : Vec Ideal S10 .f32)
    (v37 : Vec Ideal S10x10 .f32) (v38 : Vec Ideal S10 .f32) (p : Fin 2048) (l : Fin 10) :
    k0_pay1 v0 v16 v17 v37 v38 (ix2 p l)
      = Cert.Update.embed (v0 (ix1 p)) (fun l k => v16 (ix2 l k)) (fun l => v17 (ix1 l)) (fun l k => v37 (ix2 l k))
          (fun l => v38 (ix1 l)) l := by
  unfold k0_pay1 Cert.Update.embed
  dsimp only
  refine (addf_apply _ _ _).trans (congrArg₂ (· + ·) ?_ (rowSpread_apply v38 _ _ p l))
  refine (matmul_transposed_apply _ _ v37 _ _ p l).trans
    (Finset.sum_congr rfl fun k _ => congrArg (· * v37 (ix2 l k)) ?_)
  unfold Cert.Update.hidden Cert.Update.logFeature Cert.Update.eps
  refine congrArg Ideal.tanh ?_
  refine (addf_apply _ _ _).trans (congrArg₂ (· + ·) ((addf_apply _ _ _).trans (congrArg₂ (· + ·)
    ((mulf_apply _ _ _).trans (congrArg₂ (· * ·) ?_ ?_)) ((mulf_apply _ _ _).trans (congrArg₂ (· * ·) ?_ ?_))))
    (rowSpread_apply v17 _ _ p k))
  · refine (colSpread_apply _ _ _ p k).trans ?_
    rw [shapeCast_self]
    exact Ideal.jnp_sign_eq_sign_f32 _
  · exact (rowSpread_apply _ _ _ p k).trans (column_apply 0 (by omega) v16 _ _ k)
  · refine (colSpread_apply _ _ _ p k).trans ?_
    rw [shapeCast_self]
    rfl
  · exact (rowSpread_apply _ _ _ p k).trans (column_apply 1 (by omega) v16 _ _ k)

end Cert.KernelIdeal.Row

end
-- ==== Proof.BodyGates.lean ====
/-
  The pre-activation blocks of the two recurrent cells, read at one entry.

  Each block is `x · Wihᵀ + bih + h · Whhᵀ + bhh` over the 2048 variables of a block: two matrix products against
  transposed weights and two biases spread along the rows, added in that order. At `(p, j)` the products are sums over
  the input and the hidden width and the spread biases are their entries `j`, so the entry is the pre-activation `j` of
  the cell fed with row `p` of the input block and row `p` of the hidden-state block.
-/
import proofs.«144035_j37589553775001_2_alg».proof.Proof.Gen.KernelIdeal.Skeleton
import proofs.«144035_j37589553775001_2_alg».proof.Proof.UpdateRule
import proofs.«144035_j37589553775001_2_alg».proof.Proof.BodyLayout

noncomputable section

namespace Cert.KernelIdeal.Row

open Cert.KernelIdeal Cert.KernelIdeal.Gen Idealize.ShloMosaic Idealize.ShloMosaic.ValueIdx
open scoped BigOperators

/-- The first cell's pre-activation block at `(p, j)`: `((Σₖ x[p,k]·Wih[j,k] + bih[j]) + Σₖ h[p,k]·Whh[j,k]) + bhh[j]`. -/
theorem gates0_at (v45 : FVec Ideal S2048x10 .f32) (v47 : FVec Ideal S2048x32 .f32) (v50 : Vec Ideal S128x10 .f32)
    (v51 : Vec Ideal S128x32 .f32) (v52 v53 : Vec Ideal S128 .f32) (p : Fin 2048) (j : Fin 128) :
    k0_pay3 v45 v47 v50 v51 v52 v53 (ix2 p j)
      = Cert.Update.gates (fun k => v45 (ix2 p k)) (fun k => v47 (ix2 p k)) (fun j k => v50 (ix2 j k))
          (fun j k => v51 (ix2 j k)) (fun j => v52 (ix1 j)) (fun j => v53 (ix1 j)) j := by
  unfold k0_pay3 Cert.Update.gates
  dsimp only
  exact (addf_apply _ _ _).trans (congrArg₂ (· + ·) ((addf_apply _ _ _).trans (congrArg₂ (· + ·)
    ((addf_apply _ _ _).trans (congrArg₂ (· + ·) (matmul_transposed_apply _ v45 v50 _ _ p j) (rowSpread_apply v52 _ _ p j)))
    (matmul_transposed_apply _ v47 v51 _ _ p j))) (rowSpread_apply v53 _ _ p j))

/-- The second cell's pre-activation block at `(p, j)`, the same expression over an input of width 32. -/
theorem gates1_at (v79 v81 : FVec Ideal S2048x32 .f32) (v84 v85 : Vec Ideal S128x32 .f32)
    (v86 v87 : Vec Ideal S128 .f32) (p : Fin 2048) (j : Fin 128) :
    k0_pay9 v79 v81 v84 v85 v86 v87 (ix2 p j)
      = Cert.Update.gates (fun k => v79 (ix2 p k)) (fun k => v81 (ix2 p k)) (fun j k => v84 (ix2 j k))
          (fun j k => v85 (ix2 j k)) (fun j => v86 (ix1 j)) (fun j => v87 (ix1 j)) j := by
  unfold k0_pay9 Cert.Update.gates
  dsimp only
  exact (addf_apply _ _ _).trans (congrArg₂ (· + ·) ((addf_apply _ _ _).trans (congrArg₂ (· + ·)
    ((addf_apply _ _ _).trans (congrArg₂ (· + ·) (matmul_transposed_apply _ v79 v84 _ _ p j) (rowSpread_apply v86 _ _ p j)))
    (matmul_transposed_apply _ v81 v85 _ _ p j))) (rowSpread_apply v87 _ _ p j))

end Cert.KernelIdeal.Row

end
-- ==== Proof.BodyCell.lean ====
/-
  The new cell and hidden states of the two recurrent cells, read at one entry.

  The 128 pre-activations of a row are cut into four runs of 32 at column offsets 0, 32, 64, 96 (input, forget,
  candidate, output). The new cell state is `σ(forget)·c + σ(input)·tanh(candidate)` and the new hidden state
  `σ(output)·tanh(new cell state)`, all elementwise over the block; a column cut at offset `o` read at `(p, q)` is the
  source at `(p, o + q)`. So each entry `(p, q)` is the cell rule applied to the pre-activations of row `p` and the old
  cell state of row `p`.
-/
import proofs.«144035_j37589553775001_2_alg».proof.Proof.Gen.KernelIdeal.Skeleton
import proofs.«144035_j37589553775001_2_alg».proof.Proof.UpdateRule
import proofs.«144035_j37589553775001_2_alg».proof.Proof.BodyLayout

noncomputable section

namespace Cert.KernelIdeal.Row

open Cert.KernelIdeal Cert.KernelIdeal.Gen Idealize.ShloMosaic Idealize.ShloMosaic.ValueIdx
open scoped BigOperators

/-- The first cell's new cell state at `(p, q)`, from the pre-activations of row `p` and the old cell state. -/
theorem cellState0_at (v45 : FVec Ideal S2048x10 .f32) (v47 : FVec Ideal S2048x32 .f32) (v48 : Vec Ideal S2048x32 .f32)
    (v50 : Vec Ideal S128x10 .f32) (v51 : Vec Ideal S128x32 .f32) (v52 v53 : Vec Ideal S128 .f32)
    (p : Fin 2048) (q : Fin 32) :
    k0_pay5 v45 v47 v48 v50 v51 v52 v53 (ix2 p q)
      = Cert.Update.cellState (fun j => k0_pay3 v45 v47 v50 v51 v52 v53 (ix2 p j)) (fun k => v48 (ix2 p k)) q := by
  unfold k0_pay5 k0_pay4 Cert.Update.cellState
  dsimp only
  exact (addf_apply _ _ _).trans (congrArg₂ (· + ·)
    ((mulf_apply _ _ _).trans (congrArg₂ (· * ·) (slice2_axis1_eq 32 _ _ p q) (congrFun (shapeCast_self v48 _) (ix2 p q))))
    ((mulf_apply _ _ _).trans (congrArg₂ (· * ·) (slice2_axis1_eq 0 _ _ p q) (slice2_axis1_eq 64 _ _ p q))))

/-- The first cell's new hidden state at `(p, q)`. -/
theorem cellOut0_at (v45 : FVec Ideal S2048x10 .f32) (v47 : FVec Ideal S2048x32 .f32) (v48 : Vec Ideal S2048x32 .f32)
    (v50 : Vec Ideal S128x10 .f32) (v51 : Vec Ideal S128x32 .f32) (v52 v53 : Vec Ideal S128 .f32)
    (p : Fin 2048) (q : Fin 32) :
    k0_pay6 v45 v47 v48 v50 v51 v52 v53 (ix2 p q)
      = Cert.Update.cellOut (fun j => k0_pay3 v45 v47 v50 v51 v52 v53 (ix2 p j)) (fun k => v48 (ix2 p k)) q := by
  unfold k0_pay6 k0_pay4 Cert.Update.cellOut
  dsimp only
  exact (mulf_apply _ _ _).trans (congrArg₂ (· * ·) (slice2_axis1_eq 96 _ _ p q)
    (congrArg Ideal.tanh (cellState0_at v45 v47 v48 v50 v51 v52 v53 p q)))

/-- The second cell's new cell state at `(p, q)`. -/
theorem cellState1_at (v79 v81 v83 : FVec Ideal S2048x32 .f32) (v84 v85 : Vec Ideal S128x32 .f32)
    (v86 v87 : Vec Ideal S128 .f32) (p : Fin 2048) (q : Fin 32) :
    k0_pay11 v79 v81 v83 v84 v85 v86 v87 (ix2 p q)
      = Cert.Update.cellState (fun j => k0_pay9 v79 v81 v84 v85 v86 v87 (ix2 p j)) (fun k => v83 (ix2 p k)) q := by
  unfold k0_pay11 k0_pay10 Cert.Update.cellState
  dsimp only
  exact (addf_apply _ _ _).trans (congrArg₂ (· + ·)
    ((mulf_apply _ _ _).trans (congrArg₂ (· * ·) (slice2_axis1_eq 32 _ _ p q) rfl))
    ((mulf_apply _ _ _).trans (congrArg₂ (· * ·) (slice2_axis1_eq 0 _ _ p q) (slice2_axis1_eq 64 _ _ p q))))

/-- The second cell's new hidden state at `(p, q)`. -/
theorem cellOut1_at (v79 v81 v83 : FVec Ideal S2048x32 .f32) (v84 v85 : Vec Ideal S128x32 .f32)
    (v86 v87 : Vec Ideal S128 .f32) (p : Fin 2048) (q : Fin 32) :
    k0_pay12 v79 v81 v83 v84 v85 v86 v87 (ix2 p q)
      = Cert.Update.cellOut (fun j => k0_pay9 v79 v81 v84 v85 v86 v87 (ix2 p j)) (fun k => v83 (ix2 p k)) q := by
  unfold k0_pay12 k0_pay10 Cert.Update.cellOut
  dsimp only
  exact (mulf_apply _ _ _).trans (congrArg₂ (· * ·) (slice2_axis1_eq 96 _ _ p q)
    (congrArg Ideal.tanh (cellState1_at v79 v81 v83 v84 v85 v86 v87 p q)))

end Cert.KernelIdeal.Row

end
-- ==== Proof.BodyHead.lean ====
/-
  The head of the rule and the moved value, as blocks read at one entry.

  The head multiplies the second cell's new hidden-state block by the one row of `Wfc` spread along the 2048 rows, sums
  each row over its 32 columns from the neutral accumulator, and adds `bfc`'s one entry to every row; the moved value adds
  the block of values. At `p` the row sum is `Σₖ h[p,k]·Wfc[0,k]`, the spread row is `Wfc[0,k]` and the added scalar is
  `bfc[0]`.
-/
import proofs.«144035_j37589553775001_2_alg».proof.Proof.Gen.KernelIdeal.Skeleton
import proofs.«144035_j37589553775001_2_alg».proof.Proof.UpdateRule
import proofs.«144035_j37589553775001_2_alg».proof.Proof.BodyLayout

noncomputable section

namespace Cert.KernelIdeal.Row

open Cert.KernelIdeal Cert.KernelIdeal.Gen Idealize.ShloMosaic Idealize.ShloMosaic.ValueIdx
open scoped BigOperators

/-- The head block at `p`: `Σₖ h[p,k]·Wfc[0,k] + bfc[0]` over the second cell's new hidden state. -/
theorem head_at (v79 v81 v83 : FVec Ideal S2048x32 .f32) (v84 v85 : Vec Ideal S128x32 .f32)
    (v86 v87 : Vec Ideal S128 .f32) (v114 : Vec Ideal S1x32 .f32) (v115 : Vec Ideal S1 .f32) (p : Fin 2048) :
    k0_pay13 v79 v81 v83 v84 v85 v86 v87 v114 v115 (ix1 p)
      = (∑ k : Fin 32, k0_pay12 v79 v81 v83 v84 v85 v86 v87 (ix2 p k) * v114 (ix2 (0 : Fin 1) k))
          + v115 (ix1 (0 : Fin 1)) := by
  unfold k0_pay13
  dsimp only
  refine (addf_apply _ _ _).trans (congrArg₂ (· + ·) ?_ ?_)
  · refine (Cert.LibKeepdims.multiReduction_add_row _ _ _ _ _ p).trans (Finset.sum_congr rfl fun k _ => ?_)
    exact (mulf_apply _ _ _).trans (congrArg (k0_pay12 v79 v81 v83 v84 v85 v86 v87 (ix2 p k) * ·)
      ((rowSpread_apply _ _ _ p k).trans (shapeCast_1a_a_apply v114 _ k)))
  · exact congrArg v115 (funext fun a => match a with | ⟨0, _⟩ => rfl)

/-- The moved-value block at `p`: the value plus the head. -/
theorem moved_blk_at (v79 v81 v83 : FVec Ideal S2048x32 .f32) (v84 v85 : Vec Ideal S128x32 .f32)
    (v86 v87 : Vec Ideal S128 .f32) (v114 : Vec Ideal S1x32 .f32) (v115 : Vec Ideal S1 .f32) (v124 : Vec Ideal S2048 .f32)
    (p : Fin 2048) :
    k0_pay14 v79 v81 v83 v84 v85 v86 v87 v114 v115 v124 (ix1 p)
      = v124 (ix1 p) + k0_pay13 v79 v81 v83 v84 v85 v86 v87 v114 v115 (ix1 p) := by
  unfold k0_pay14
  exact (addf_apply _ _ _).trans (congrArg (· + k0_pay13 v79 v81 v83 v84 v85 v86 v87 v114 v115 (ix1 p))
    (congrFun (shapeCast_self v124 _) (ix1 p)))

end Cert.KernelIdeal.Row

end
-- ==== Proof.BodyRow.lean ====
/-
  The kernel body's blocks, read at one variable, are the update rule of that variable.

  The body's blocks are chained: the embedding block feeds the first cell, whose new hidden-state block feeds the second
  cell, whose new hidden-state block feeds the head, which is added to the block of values. Each block read at row `p`
  was shown to be one layer of the rule applied to row `p` of the blocks it reads; composing these along the chain, the
  new states, the step and the moved value of row `p` are the rule's, for the weights read off the fourteen weight arrays
  and the gradient entry, the value and the four state rows of variable `p`.
-/
import proofs.«144035_j37589553775001_2_alg».proof.Proof.Gen.KernelIdeal.Skeleton
import proofs.«144035_j37589553775001_2_alg».proof.Proof.UpdateRule
import proofs.«144035_j37589553775001_2_alg».proof.Proof.BodyLayout
import proofs.«144035_j37589553775001_2_alg».proof.Proof.BodyEmbed
import proofs.«144035_j37589553775001_2_alg».proof.Proof.BodyGates
import proofs.«144035_j37589553775001_2_alg».proof.Proof.BodyCell
import proofs.«144035_j37589553775001_2_alg».proof.Proof.BodyHead

noncomputable section

namespace Cert.KernelIdeal.Row

open Cert.KernelIdeal Cert.KernelIdeal.Gen Idealize.ShloMosaic Idealize.ShloMosaic.ValueIdx
open scoped BigOperators

variable (x0 x1 : Vec Ideal S2048 .f32) (x2 x3 x4 x5 : Vec Ideal S2048x32 .f32) (x6 : Vec Ideal S10x2 .f32)
  (x7 : Vec Ideal S10 .f32) (x8 : Vec Ideal S10x10 .f32) (x9 : Vec Ideal S10 .f32) (x10 : Vec Ideal S128x10 .f32)
  (x11 : Vec Ideal S128x32 .f32) (x12 x13 : Vec Ideal S128 .f32) (x14 x15 : Vec Ideal S128x32 .f32)
  (x16 x17 : Vec Ideal S128 .f32) (x18 : Vec Ideal S1x32 .f32) (x19 : Vec Ideal S1 .f32) (p : Fin 2048) (q : Fin 32)

local notation "PP" => Cert.Update.Params.ofArrays x6 x7 x8 x9 x10 x11 x12 x13 x14 x15 x16 x17 x18 x19
local notation "EE" => k0_pay1 x1 x6 x7 x8 x9
local notation "HH" => k0_pay6 (k0_pay1 x1 x6 x7 x8 x9) (k0_pay2 x2) x3 x10 x11 x12 x13
local notation "g" => x1 (ix1 p)
local notation "h0" => fun k => x2 (ix2 p k)
local notation "c0" => fun k => x3 (ix2 p k)
local notation "h1" => fun k => x4 (ix2 p k)
local notation "c1" => fun k => x5 (ix2 p k)

/-- The first cell's pre-activation `j` of row `p`: the cell is fed the embedding of the gradient entry `p` and row
    `p` of its hidden state. -/
theorem gates0_row (j : Fin 128) :
    k0_pay3 EE (k0_pay2 x2) x10 x11 x12 x13 (ix2 p j) = Cert.Update.gates0 PP g h0 j :=
  (gates0_at _ _ x10 x11 x12 x13 p j).trans
    (congrArg₂ (fun a b => Cert.Update.gates a b (fun j k => x10 (ix2 j k)) (fun j k => x11 (ix2 j k))
        (fun j => x12 (ix1 j)) (fun j => x13 (ix1 j)) j)
      (funext fun k => embed_at x1 x6 x7 x8 x9 p k)
      (funext fun k => congrFun (shapeCast_self x2 _) (ix2 p k)))

/-- The first cell's new cell state. -/
theorem c0n_at : k0_pay5 EE (k0_pay2 x2) x3 x10 x11 x12 x13 (ix2 p q) = Cert.Update.c0n PP g h0 c0 q :=
  (cellState0_at _ _ x3 x10 x11 x12 x13 p q).trans
    (congrArg (fun G => Cert.Update.cellState G (fun k => x3 (ix2 p k)) q)
      (funext fun j => gates0_row x1 x2 x6 x7 x8 x9 x10 x11 x12 x13 x14 x15 x16 x17 x18 x19 p j))

/-- The first cell's new hidden state. -/
theorem h0n_at : k0_pay6 EE (k0_pay2 x2) x3 x10 x11 x12 x13 (ix2 p q) = Cert.Update.h0n PP g h0 c0 q :=
  (cellOut0_at _ _ x3 x10 x11 x12 x13 p q).trans
    (congrArg (fun G => Cert.Update.cellOut G (fun k => x3 (ix2 p k)) q)
      (funext fun j => gates0_row x1 x2 x6 x7 x8 x9 x10 x11 x12 x13 x14 x15 x16 x17 x18 x19 p j))

/-- The second cell's pre-activation `j` of row `p`: the cell is fed row `p` of the first cell's new hidden state. -/
theorem gates1_row (j : Fin 128) :
    k0_pay9 HH (k0_pay7 x4) x14 x15 x16 x17 (ix2 p j) = Cert.Update.gates1 PP g h0 c0 h1 j :=
  (gates1_at _ _ x14 x15 x16 x17 p j).trans
    (congrArg₂ (fun a b => Cert.Update.gates a b (fun j k => x14 (ix2 j k)) (fun j k => x15 (ix2 j k))
        (fun j => x16 (ix1 j)) (fun j => x17 (ix1 j)) j)
      (funext fun k => h0n_at x1 x2 x3 x6 x7 x8 x9 x10 x11 x12 x13 x14 x15 x16 x17 x18 x19 p k)
      (funext fun k => congrFun (shapeCast_self x4 _) (ix2 p k)))

/-- The second cell's new cell state. -/
theorem c1n_at :
    k0_pay11 HH (k0_pay7 x4) (k0_pay8 x5) x14 x15 x16 x17 (ix2 p q) = Cert.Update.c1n PP g h0 c0 h1 c1 q :=
  (cellState1_at _ _ _ x14 x15 x16 x17 p q).trans
    (congrArg₂ (fun G c => Cert.Update.cellState G c q)
      (funext fun j => gates1_row x1 x2 x3 x4 x6 x7 x8 x9 x10 x11 x12 x13 x14 x15 x16 x17 x18 x19 p j)
      (funext fun k => congrFun (shapeCast_self x5 _) (ix2 p k)))

/-- The second cell's new hidden state. -/
theorem h1n_at :
    k0_pay12 HH (k0_pay7 x4) (k0_pay8 x5) x14 x15 x16 x17 (ix2 p q) = Cert.Update.h1n PP g h0 c0 h1 c1 q :=
  (cellOut1_at _ _ _ x14 x15 x16 x17 p q).trans
    (congrArg₂ (fun G c => Cert.Update.cellOut G c q)
      (funext fun j => gates1_row x1 x2 x3 x4 x6 x7 x8 x9 x10 x11 x12 x13 x14 x15 x16 x17 x18 x19 p j)
      (funext fun k => congrFun (shapeCast_self x5 _) (ix2 p k)))

/-- The step of variable `p`. -/
theorem step_at :
    k0_pay13 HH (k0_pay7 x4) (k0_pay8 x5) x14 x15 x16 x17 x18 x19 (ix1 p) = Cert.Update.step PP g h0 c0 h1 c1 :=
  (head_at _ _ _ x14 x15 x16 x17 x18 x19 p).trans
    (congrArg (· + x19 (ix1 (0 : Fin 1))) (Finset.sum_congr rfl fun k _ =>
      congrArg (· * x18 (ix2 (0 : Fin 1) k))
        (h1n_at x1 x2 x3 x4 x5 x6 x7 x8 x9 x10 x11 x12 x13 x14 x15 x16 x17 x18 x19 p k)))

/-- The moved value of variable `p`. -/
theorem moved_at :
    k0_pay14 HH (k0_pay7 x4) (k0_pay8 x5) x14 x15 x16 x17 x18 x19 x0 (ix1 p)
      = Cert.Update.moved PP (x0 (ix1 p)) g h0 c0 h1 c1 :=
  (moved_blk_at _ _ _ x14 x15 x16 x17 x18 x19 x0 p).trans
    (congrArg (x0 (ix1 p) + ·) (step_at x1 x2 x3 x4 x5 x6 x7 x8 x9 x10 x11 x12 x13 x14 x15 x16 x17 x18 x19 p))

end Cert.KernelIdeal.Row

end
-- ==== Proof.BlockReads.lean ====
/-
  How the kernel's grid cuts its arrays.

  The kernel visits 391 points. At point `t` each per-variable window (the values, the gradient, the four state
  arrays, and the six results) holds the 2048 consecutive rows `t·2048 … t·2048 + 2047` of its array — all 32
  columns, for the state arrays —, and each weight window holds its whole array. The printed index maps say so: on
  the leading axis a per-variable window's block index is the point, on the second axis it is 0, and every weight
  window's block index is 0 on every axis; each fact is decided once over the 391 points.

  From these: an input block read at an entry is the array as the region finds it, read at the row `t·2048 + p`
  (`rowAt t p`); a weight block IS its array; an output block's entry `(p, q)` sits at `(t·2048 + p, q)` of its array;
  an index of an output array lies in point `t`'s block iff its row lies in that run of 2048; and the 391 runs cover
  all 800768 rows (row `r` is in the block of point `r / 2048`).
-/
import proofs.«144035_j37589553775001_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl

theorem N391 : cfg0.N = 391 := N_0

/-! ## The index maps over the grid -/

theorem idx0 : ∀ t : Fin cfg0.N, win0_0.index t (0 : Fin 1) = t.val := (by decide +kernel : ∀ t : Fin grid0.N, _)
theorem idx1 : ∀ t : Fin cfg0.N, win0_1.index t (0 : Fin 1) = t.val := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 1) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 1) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 1) = 0 := (by decide +kernel : ∀ t : Fin grid0.N, _)
theorem idx13 : ∀ t : Fin cfg0.N, win0_13.index t (0 : Fin 1) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 1) = 0 := (by decide +kernel : ∀ t : Fin grid0.N, _)
theorem idx17 : ∀ t : Fin cfg0.N, win0_17.index t (0 : Fin 1) = 0 := (by decide +kernel : ∀ t : Fin grid0.N, _)
theorem idx18 : ∀ t : Fin cfg0.N, win0_18.index t (0 : Fin 2) = 0 ∧ win0_18.index t (1 : Fin 2) = 0 := (by decide +kernel : ∀ t : Fin grid0.N, _)
theorem idx19 : ∀ t : Fin cfg0.N, win0_19.index t (0 : Fin 1) = 0 := (by decide +kernel : ∀ t : Fin grid0.N, _)
theorem idx20 : ∀ t : Fin cfg0.N, win0_20.index t (0 : Fin 1) = t.val := (by decide +kernel : ∀ t : Fin grid0.N, _)
theorem idx21 : ∀ t : Fin cfg0.N, win0_21.index t (0 : Fin 2) = t.val ∧ win0_21.index t (1 : Fin 2) = 0 := (by decide +kernel : ∀ t : Fin grid0.N, _)
theorem idx22 : ∀ t : Fin cfg0.N, win0_22.index t (0 : Fin 2) = t.val ∧ win0_22.index t (1 : Fin 2) = 0 := (by decide +kernel : ∀ t : Fin grid0.N, _)
theorem idx23 : ∀ t : Fin cfg0.N, win0_23.index t (0 : Fin 2) = t.val ∧ win0_23.index t (1 : Fin 2) = 0 := (by decide +kernel : ∀ t : Fin grid0.N, _)
theorem idx24 : ∀ t : Fin cfg0.N, win0_24.index t (0 : Fin 2) = t.val ∧ win0_24.index t (1 : Fin 2) = 0 := (by decide +kernel : ∀ t : Fin grid0.N, _)
theorem idx25 : ∀ t : Fin cfg0.N, win0_25.index t (0 : Fin 1) = t.val := (by decide +kernel : ∀ t : Fin grid0.N, _)

/-- The row of a per-variable array that entry `p` of point `t`'s block is: `t·2048 + p`. -/
def rowAt (t : Fin cfg0.N) (p : Fin 2048) : Fin 800768 := ⟨t.val * 2048 + p.val, by
  have ht : t.val < 391 := lt_of_lt_of_eq t.isLt N391
  have hp := p.isLt; omega⟩

/-! ## The per-variable input blocks, read at an entry -/

theorem iblk0_at (c : Dev nD) (t : Fin cfg0.N) (p : Fin 2048) :
    iblk m c 0 t (ix1 p) = V m c main_v6 (ix1 (rowAt t p)) := by
  have e := idx0 t
  show V m c main_v6 (((cfg0.win 0).blk t).view.emb (ix1 p)) = V m c main_v6 (ix1 (rowAt t p))
  refine congrArg (V m c main_v6) (funext fun a => Fin.ext ?_)
  match a with
  | ⟨0, _⟩ => show win0_0.index t (0 : Fin 1) * 2048 + 1 * p.val = t.val * 2048 + p.val; rw [e]; omega

theorem iblk1_at (c : Dev nD) (t : Fin cfg0.N) (p : Fin 2048) :
    iblk m c 1 t (ix1 p) = V m c main_v7 (ix1 (rowAt t p)) := by
  have e := idx1 t
  show V m c main_v7 (((cfg0.win 1).blk t).view.emb (ix1 p)) = V m c main_v7 (ix1 (rowAt t p))
  refine congrArg (V m c main_v7) (funext fun a => Fin.ext ?_)
  match a with
  | ⟨0, _⟩ => show win0_1.index t (0 : Fin 1) * 2048 + 1 * p.val = t.val * 2048 + p.val; rw [e]; omega

theorem iblk2_at (c : Dev nD) (t : Fin cfg0.N) (p : Fin 2048) (k : Fin 32) :
    iblk m c 2 t (ix2 p k) = V m c main_v8 (ix2 (rowAt t p) k) := by
  obtain ⟨e0, e1⟩ := idx2 t
  show V m c main_v8 (((cfg0.win 2).blk t).view.emb (ix2 p k)) = V m c main_v8 (ix2 (rowAt t p) k)
  refine congrArg (V m c main_v8) (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 32 + 1 * k.val = k.val; rw [e1]; omega

theorem iblk3_at (c : Dev nD) (t : Fin cfg0.N) (p : Fin 2048) (k : Fin 32) :
    iblk m c 3 t (ix2 p k) = V m c main_v9 (ix2 (rowAt t p) k) := by
  obtain ⟨e0, e1⟩ := idx3 t
  show V m c main_v9 (((cfg0.win 3).blk t).view.emb (ix2 p k)) = V m c main_v9 (ix2 (rowAt t p) k)
  refine congrArg (V m c main_v9) (funext fun a => Fin.ext ?_)
  match a with
  | ⟨0, _⟩ => show win0_3.index t (0 : Fin 2) * 2048 + 1 * p.val = t.val * 2048 + p.val; rw [e0]; omega
  | ⟨1, _⟩ => show win0_3.index t (1 : Fin 2) * 32 + 1 * k.val = k.val; rw [e1]; omega

theorem iblk4_at (c : Dev nD) (t : Fin cfg0.N) (p : Fin 2048) (k : Fin 32) :
    iblk m c 4 t (ix2 p k) = V m c main_v10 (ix2 (rowAt t p) k) := by
  obtain ⟨e0, e1⟩ := idx4 t
  show V m c main_v10 (((cfg0.win 4).blk t).view.emb (ix2 p k)) = V m c main_v10 (ix2 (rowAt t p) k)
  refine congrArg (V m c main_v10) (funext fun a => Fin.ext ?_)
  match a with
  | ⟨0, _⟩ => show win0_4.index t (0 : Fin 2) * 2048 + 1 * p.val = t.val * 2048 + p.val; rw [e0]; omega
  | ⟨1, _⟩ => show win0_4.index t (1 : Fin 2) * 32 + 1 * k.val = k.val; rw [e1]; omega

theorem iblk5_at (c : Dev nD) (t : Fin cfg0.N) (p : Fin 2048) (k : Fin 32) :
    iblk m c 5 t (ix2 p k) = V m c main_v11 (ix2 (rowAt t p) k) := by
  obtain ⟨e0, e1⟩ := idx5 t
  show V m c main_v11 (((cfg0.win 5).blk t).view.emb (ix2 p k)) = V m c main_v11 (ix2 (rowAt t p) k)
  refine congrArg (V m c main_v11) (funext fun a => Fin.ext ?_)
  match a with
  | ⟨0, _⟩ => show win0_5.index t (0 : Fin 2) * 2048 + 1 * p.val = t.val * 2048 + p.val; rw [e0]; omega
  | ⟨1, _⟩ => show win0_5.index t (1 : Fin 2) * 32 + 1 * k.val = k.val; rw [e1]; omega

/-! ## The weight blocks are the weight arrays -/

theorem iblk6_eq (c : Dev nD) (t : Fin cfg0.N) : iblk m c 6 t = V m c main_arg6 := by
  obtain ⟨e0, e1⟩ := idx6 t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 10 + 1 * (y 0).val = (y 0).val; rw [e0]; omega
  | ⟨1, _⟩ => show win0_6.index t (1 : Fin 2) * 2 + 1 * (y 1).val = (y 1).val; rw [e1]; omega

theorem iblk7_eq (c : Dev nD) (t : Fin cfg0.N) : iblk m c 7 t = V m c main_arg7 := by
  have e0 := idx7 t
  funext y
  show V m c main_arg7 (((cfg0.win 7).blk t).view.emb y) = V m c main_arg7 y
  refine congrArg (V m c main_arg7) (funext fun a => Fin.ext ?_)
  match a with
  | ⟨0, _⟩ => show win0_7.index t (0 : Fin 1) * 10 + 1 * (y 0).val = (y 0).val; rw [e0]; omega

theorem iblk8_eq (c : Dev nD) (t : Fin cfg0.N) : iblk m c 8 t = V m c main_arg8 := by
  obtain ⟨e0, e1⟩ := idx8 t
  funext y
  show V m c main_arg8 (((cfg0.win 8).blk t).view.emb y) = V m c main_arg8 y
  refine congrArg (V m c main_arg8) (funext fun a => Fin.ext ?_)
  match a with
  | ⟨0, _⟩ => show win0_8.index t (0 : Fin 2) * 10 + 1 * (y 0).val = (y 0).val; rw [e0]; omega
  | ⟨1, _⟩ => show win0_8.index t (1 : Fin 2) * 10 + 1 * (y 1).val = (y 1).val; rw [e1]; omega

theorem iblk9_eq (c : Dev nD) (t : Fin cfg0.N) : iblk m c 9 t = V m c main_arg9 := by
  have e0 := idx9 t
  funext y
  show V m c main_arg9 (((cfg0.win 9).blk t).view.emb y) = V m c main_arg9 y
  refine congrArg (V m c main_arg9) (funext fun a => Fin.ext ?_)
  match a with
  | ⟨0, _⟩ => show win0_9.index t (0 : Fin 1) * 10 + 1 * (y 0).val = (y 0).val; rw [e0]; omega

theorem iblk10_eq (c : Dev nD) (t : Fin cfg0.N) : iblk m c 10 t = V m c main_arg10 := by
  obtain ⟨e0, e1⟩ := idx10 t
  funext y
  show V m c main_arg10 (((cfg0.win 10).blk t).view.emb y) = V m c main_arg10 y
  refine congrArg (V m c main_arg10) (funext fun a => Fin.ext ?_)
  match a with
  | ⟨0, _⟩ => show win0_10.index t (0 : Fin 2) * 128 + 1 * (y 0).val = (y 0).val; rw [e0]; omega
  | ⟨1, _⟩ => show win0_10.index t (1 : Fin 2) * 10 + 1 * (y 1).val = (y 1).val; rw [e1]; omega

theorem iblk11_eq (c : Dev nD) (t : Fin cfg0.N) : iblk m c 11 t = V m c main_arg11 := by
  obtain ⟨e0, e1⟩ := idx11 t
  funext y
  show V m c main_arg11 (((cfg0.win 11).blk t).view.emb y) = V m c main_arg11 y
  refine congrArg (V m c main_arg11) (funext fun a => Fin.ext ?_)
  match a with
  | ⟨0, _⟩ => show win0_11.index t (0 : Fin 2) * 128 + 1 * (y 0).val = (y 0).val; rw [e0]; omega
  | ⟨1, _⟩ => show win0_11.index t (1 : Fin 2) * 32 + 1 * (y 1).val = (y 1).val; rw [e1]; omega

theorem iblk12_eq (c : Dev nD) (t : Fin cfg0.N) : iblk m c 12 t = V m c main_arg12 := by
  have e0 := idx12 t
  funext y
  show V m c main_arg12 (((cfg0.win 12).blk t).view.emb y) = V m c main_arg12 y
  refine congrArg (V m c main_arg12) (funext fun a => Fin.ext ?_)
  match a with
  | ⟨0, _⟩ => show win0_12.index t (0 : Fin 1) * 128 + 1 * (y 0).val = (y 0).val; rw [e0]; omega

theorem iblk13_eq (c : Dev nD) (t : Fin cfg0.N) : iblk m c 13 t = V m c main_arg13 := by
  have e0 := idx13 t
  funext y
  show V m c main_arg13 (((cfg0.win 13).blk t).view.emb y) = V m c main_arg13 y
  refine congrArg (V m c main_arg13) (funext fun a => Fin.ext ?_)
  match a with
  | ⟨0, _⟩ => show win0_13.index t (0 : Fin 1) * 128 + 1 * (y 0).val = (y 0).val; rw [e0]; omega

theorem iblk14_eq (c : Dev nD) (t : Fin cfg0.N) : iblk m c 14 t = V m c main_arg14 := by
  obtain ⟨e0, e1⟩ := idx14 t
  funext y
  show V m c main_arg14 (((cfg0.win 14).blk t).view.emb y) = V m c main_arg14 y
  refine congrArg (V m c main_arg14) (funext fun a => Fin.ext ?_)
  match a with
  | ⟨0, _⟩ => show win0_14.index t (0 : Fin 2) * 128 + 1 * (y 0).val = (y 0).val; rw [e0]; omega
  | ⟨1, _⟩ => show win0_14.index t (1 : Fin 2) * 32 + 1 * (y 1).val = (y 1).val; rw [e1]; omega

theorem iblk15_eq (c : Dev nD) (t : Fin cfg0.N) : iblk m c 15 t = V m c main_arg15 := by
  obtain ⟨e0, e1⟩ := idx15 t
  funext y
  show V m c main_arg15 (((cfg0.win 15).blk t).view.emb y) = V m c main_arg15 y
  refine congrArg (V m c main_arg15) (funext fun a => Fin.ext ?_)
  match a with
  | ⟨0, _⟩ => show win0_15.index t (0 : Fin 2) * 128 + 1 * (y 0).val = (y 0).val; rw [e0]; omega
  | ⟨1, _⟩ => show win0_15.index t (1 : Fin 2) * 32 + 1 * (y 1).val = (y 1).val; rw [e1]; omega

theorem iblk16_eq (c : Dev nD) (t : Fin cfg0.N) : iblk m c 16 t = V m c main_arg16 := by
  have e0 := idx16 t
  funext y
  show V m c main_arg16 (((cfg0.win 16).blk t).view.emb y) = V m c main_arg16 y
  refine congrArg (V m c main_arg16) (funext fun a => Fin.ext ?_)
  match a with
  | ⟨0, _⟩ => show win0_16.index t (0 : Fin 1) * 128 + 1 * (y 0).val = (y 0).val; rw [e0]; omega

theorem iblk17_eq (c : Dev nD) (t : Fin cfg0.N) : iblk m c 17 t = V m c main_arg17 := by
  have e0 := idx17 t
  funext y
  show V m c main_arg17 (((cfg0.win 17).blk t).view.emb y) = V m c main_arg17 y
  refine congrArg (V m c main_arg17) (funext fun a => Fin.ext ?_)
  match a with
  | ⟨0, _⟩ => show win0_17.index t (0 : Fin 1) * 128 + 1 * (y 0).val = (y 0).val; rw [e0]; omega

theorem iblk18_eq (c : Dev nD) (t : Fin cfg0.N) : iblk m c 18 t = V m c main_arg18 := by
  obtain ⟨e0, e1⟩ := idx18 t
  funext y
  show V m c main_arg18 (((cfg0.win 18).blk t).view.emb y) = V m c main_arg18 y
  refine congrArg (V m c main_arg18) (funext fun a => Fin.ext ?_)
  match a with
  | ⟨0, _⟩ => show win0_18.index t (0 : Fin 2) * 1 + 1 * (y 0).val = (y 0).val; rw [e0]; omega
  | ⟨1, _⟩ => show win0_18.index t (1 : Fin 2) * 32 + 1 * (y 1).val = (y 1).val; rw [e1]; omega

theorem iblk19_eq (c : Dev nD) (t : Fin cfg0.N) : iblk m c 19 t = V m c main_arg19 := by
  have e0 := idx19 t
  funext y
  show V m c main_arg19 (((cfg0.win 19).blk t).view.emb y) = V m c main_arg19 y
  refine congrArg (V m c main_arg19) (funext fun a => Fin.ext ?_)
  match a with
  | ⟨0, _⟩ => show win0_19.index t (0 : Fin 1) * 1 + 1 * (y 0).val = (y 0).val; rw [e0]; omega

/-! ## Where an output block's entry sits in its array -/

theorem emb20_at (t : Fin cfg0.N) (p : Fin 2048) : ((cfg0.win 20).blk t).view.emb (ix1 p) = ix1 (rowAt t p) := by
  have e := idx20 t
  refine funext fun a => Fin.ext ?_
  match a with
  | ⟨0, _⟩ => show win0_20.index t (0 : Fin 1) * 2048 + 1 * p.val = t.val * 2048 + p.val; rw [e]; omega

theorem emb25_at (t : Fin cfg0.N) (p : Fin 2048) : ((cfg0.win 25).blk t).view.emb (ix1 p) = ix1 (rowAt t p) := by
  have e := idx25 t
  refine funext fun a => Fin.ext ?_
  match a with
  | ⟨0, _⟩ => show win0_25.index t (0 : Fin 1) * 2048 + 1 * p.val = t.val * 2048 + p.val; rw [e]; omega

theorem emb21_at (t : Fin cfg0.N) (p : Fin 2048) (q : Fin 32) : ((cfg0.win 21).blk t).view.emb (ix2 p q) = ix2 (rowAt t p) q := by
  obtain ⟨e0, e1⟩ := idx21 t
  refine funext fun a => Fin.ext ?_
  match a with
  | ⟨0, _⟩ => show win0_21.index t (0 : Fin 2) * 2048 + 1 * p.val = t.val * 2048 + p.val; rw [e0]; omega
  | ⟨1, _⟩ => show win0_21.index t (1 : Fin 2) * 32 + 1 * q.val = q.val; rw [e1]; omega

theorem emb22_at (t : Fin cfg0.N) (p : Fin 2048) (q : Fin 32) : ((cfg0.win 22).blk t).view.emb (ix2 p q) = ix2 (rowAt t p) q := by
  obtain ⟨e0, e1⟩ := idx22 t
  refine funext fun a => Fin.ext ?_
  match a with
  | ⟨0, _⟩ => show win0_22.index t (0 : Fin 2) * 2048 + 1 * p.val = t.val * 2048 + p.val; rw [e0]; omega
  | ⟨1, _⟩ => show win0_22.index t (1 : Fin 2) * 32 + 1 * q.val = q.val; rw [e1]; omega

theorem emb23_at (t : Fin cfg0.N) (p : Fin 2048) (q : Fin 32) : ((cfg0.win 23).blk t).view.emb (ix2 p q) = ix2 (rowAt t p) q := by
  obtain ⟨e0, e1⟩ := idx23 t
  refine funext fun a => Fin.ext ?_
  match a with
  | ⟨0, _⟩ => show win0_23.index t (0 : Fin 2) * 2048 + 1 * p.val = t.val * 2048 + p.val; rw [e0]; omega
  | ⟨1, _⟩ => show win0_23.index t (1 : Fin 2) * 32 + 1 * q.val = q.val; rw [e1]; omega

theorem emb24_at (t : Fin cfg0.N) (p : Fin 2048) (q : Fin 32) : ((cfg0.win 24).blk t).view.emb (ix2 p q) = ix2 (rowAt t p) q := by
  obtain ⟨e0, e1⟩ := idx24 t
  refine funext fun a => Fin.ext ?_
  match a with
  | ⟨0, _⟩ => show win0_24.index t (0 : Fin 2) * 2048 + 1 * p.val = t.val * 2048 + p.val; rw [e0]; omega
  | ⟨1, _⟩ => show win0_24.index t (1 : Fin 2) * 32 + 1 * q.val = q.val; rw [e1]; omega

end Cert.KernelIdeal.Blocks

end
-- ==== Proof.BlockCover.lean ====
/-
  The six result arrays are covered by the grid's blocks.

  An index of a result array lies in point `t`'s block exactly when each coordinate lies in the block's range on its
  axis: rows `t·2048 … t·2048 + 2047`, and, for a state array, all 32 columns. Every row `r < 800768 = 391·2048` lies in
  the block of the point `r / 2048`, and every point writes its block back; so each result array, after the run, is
  what the points wrote, everywhere.
-/
import proofs.«144035_j37589553775001_2_alg».proof.Proof.BlockReads

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The point whose block holds row `r`. -/
def pointOf (r : ℕ) (hr : r < 800768) : Fin cfg0.N := ⟨r / 2048, by rw [N391]; omega⟩

theorem mem_blk20 (t : Fin cfg0.N) (i : S800768.Idx) :
    i ∈ ((cfg0.win 20).blk t).view.set ↔ ∀ a : Fin 1, win0_20.index t a * S2048.size a ≤ (i a).val ∧ (i a).val < win0_20.index t a * S2048.size a + S2048.size a := by
  show i ∈ ((View.whole main_v12_0).slice (win0_20.rect t)).set ↔ _
  rw [View.set_slice_whole, Rect.mem_set_unit]
  exact Iff.rfl

theorem mem_blk25 (t : Fin cfg0.N) (i : S800768.Idx) :
    i ∈ ((cfg0.win 25).blk t).view.set ↔ ∀ a : Fin 1, win0_25.index t a * S2048.size a ≤ (i a).val ∧ (i a).val < win0_25.index t a * S2048.size a + S2048.size a := by
  show i ∈ ((View.whole main_v12_5).slice (win0_25.rect t)).set ↔ _
  rw [View.set_slice_whole, Rect.mem_set_unit]
  exact Iff.rfl

theorem mem_blk21 (t : Fin cfg0.N) (i : S800768x32.Idx) :
    i ∈ ((cfg0.win 21).blk t).view.set ↔ ∀ a : Fin 2, win0_21.index t a * S2048x32.size a ≤ (i a).val ∧ (i a).val < win0_21.index t a * S2048x32.size a + S2048x32.size a := by
  show i ∈ ((View.whole main_v12_1).slice (win0_21.rect t)).set ↔ _
  rw [View.set_slice_whole, Rect.mem_set_unit]
  exact Iff.rfl

theorem mem_blk22 (t : Fin cfg0.N) (i : S800768x32.Idx) :
    i ∈ ((cfg0.win 22).blk t).view.set ↔ ∀ a : Fin 2, win0_22.index t a * S2048x32.size a ≤ (i a).val ∧ (i a).val < win0_22.index t a * S2048x32.size a + S2048x32.size a := by
  show i ∈ ((View.whole main_v12_2).slice (win0_22.rect t)).set ↔ _
  rw [View.set_slice_whole, Rect.mem_set_unit]
  exact Iff.rfl

theorem mem_blk23 (t : Fin cfg0.N) (i : S800768x32.Idx) :
    i ∈ ((cfg0.win 23).blk t).view.set ↔ ∀ a : Fin 2, win0_23.index t a * S2048x32.size a ≤ (i a).val ∧ (i a).val < win0_23.index t a * S2048x32.size a + S2048x32.size a := by
  show i ∈ ((View.whole main_v12_3).slice (win0_23.rect t)).set ↔ _
  rw [View.set_slice_whole, Rect.mem_set_unit]
  exact Iff.rfl

theorem mem_blk24 (t : Fin cfg0.N) (i : S800768x32.Idx) :
    i ∈ ((cfg0.win 24).blk t).view.set ↔ ∀ a : Fin 2, win0_24.index t a * S2048x32.size a ≤ (i a).val ∧ (i a).val < win0_24.index t a * S2048x32.size a + S2048x32.size a := by
  show i ∈ ((View.whole main_v12_4).slice (win0_24.rect t)).set ↔ _
  rw [View.set_slice_whole, Rect.mem_set_unit]
  exact Iff.rfl

theorem cover20 (i : S800768.Idx) : ∃ t : Fin cfg0.N, (cfg0.win 20).flush t = true ∧ i ∈ ((cfg0.win 20).blk t).view.set := by
  have hi0 : (i 0).val < 800768 := (i 0).isLt
  have e := idx20 (pointOf (i 0).val hi0)
  refine ⟨pointOf (i 0).val hi0, flush0_20 _, ?_⟩
  rw [mem_blk20]
  intro a
  match a with
  | ⟨0, _⟩ =>
    show win0_20.index (pointOf (i 0).val hi0) (0 : Fin 1) * 2048 ≤ (i 0).val ∧ (i 0).val < win0_20.index (pointOf (i 0).val hi0) (0 : Fin 1) * 2048 + 2048
    rw [e]
    show (i 0).val / 2048 * 2048 ≤ (i 0).val ∧ (i 0).val < (i 0).val / 2048 * 2048 + 2048
    omega

theorem cover25 (i : S800768.Idx) : ∃ t : Fin cfg0.N, (cfg0.win 25).flush t = true ∧ i ∈ ((cfg0.win 25).blk t).view.set := by
  have hi0 : (i 0).val < 800768 := (i 0).isLt
  have e := idx25 (pointOf (i 0).val hi0)
  refine ⟨pointOf (i 0).val hi0, flush0_25 _, ?_⟩
  rw [mem_blk25]
  intro a
  match a with
  | ⟨0, _⟩ =>
    show win0_25.index (pointOf (i 0).val hi0) (0 : Fin 1) * 2048 ≤ (i 0).val ∧ (i 0).val < win0_25.index (pointOf (i 0).val hi0) (0 : Fin 1) * 2048 + 2048
    rw [e]
    show (i 0).val / 2048 * 2048 ≤ (i 0).val ∧ (i 0).val < (i 0).val / 2048 * 2048 + 2048
    omega

theorem cover21 (i : S800768x32.Idx) : ∃ t : Fin cfg0.N, (cfg0.win 21).flush t = true ∧ i ∈ ((cfg0.win 21).blk t).view.set := by
  have hi0 : (i 0).val < 800768 := (i 0).isLt
  have hi1 : (i 1).val < 32 := (i 1).isLt
  obtain ⟨e0, e1⟩ := idx21 (pointOf (i 0).val hi0)
  refine ⟨pointOf (i 0).val hi0, flush0_21 _, ?_⟩
  rw [mem_blk21]
  intro a
  match a with
  | ⟨0, _⟩ =>
    show win0_21.index (pointOf (i 0).val hi0) (0 : Fin 2) * 2048 ≤ (i 0).val ∧ (i 0).val < win0_21.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_21.index (pointOf (i 0).val hi0) (1 : Fin 2) * 32 ≤ (i 1).val ∧ (i 1).val < win0_21.index (pointOf (i 0).val hi0) (1 : Fin 2) * 32 + 32
    rw [e1]; omega

theorem cover22 (i : S800768x32.Idx) : ∃ t : Fin cfg0.N, (cfg0.win 22).flush t = true ∧ i ∈ ((cfg0.win 22).blk t).view.set := by
  have hi0 : (i 0).val < 800768 := (i 0).isLt
  have hi1 : (i 1).val < 32 := (i 1).isLt
  obtain ⟨e0, e1⟩ := idx22 (pointOf (i 0).val hi0)
  refine ⟨pointOf (i 0).val hi0, flush0_22 _, ?_⟩
  rw [mem_blk22]
  intro a
  match a with
  | ⟨0, _⟩ =>
    show win0_22.index (pointOf (i 0).val hi0) (0 : Fin 2) * 2048 ≤ (i 0).val ∧ (i 0).val < win0_22.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_22.index (pointOf (i 0).val hi0) (1 : Fin 2) * 32 ≤ (i 1).val ∧ (i 1).val < win0_22.index (pointOf (i 0).val hi0) (1 : Fin 2) * 32 + 32
    rw [e1]; omega

theorem cover23 (i : S800768x32.Idx) : ∃ t : Fin cfg0.N, (cfg0.win 23).flush t = true ∧ i ∈ ((cfg0.win 23).blk t).view.set := by
  have hi0 : (i 0).val < 800768 := (i 0).isLt
  have hi1 : (i 1).val < 32 := (i 1).isLt
  obtain ⟨e0, e1⟩ := idx23 (pointOf (i 0).val hi0)
  refine ⟨pointOf (i 0).val hi0, flush0_23 _, ?_⟩
  rw [mem_blk23]
  intro a
  match a with
  | ⟨0, _⟩ =>
    show win0_23.index (pointOf (i 0).val hi0) (0 : Fin 2) * 2048 ≤ (i 0).val ∧ (i 0).val < win0_23.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_23.index (pointOf (i 0).val hi0) (1 : Fin 2) * 32 ≤ (i 1).val ∧ (i 1).val < win0_23.index (pointOf (i 0).val hi0) (1 : Fin 2) * 32 + 32
    rw [e1]; omega

theorem cover24 (i : S800768x32.Idx) : ∃ t : Fin cfg0.N, (cfg0.win 24).flush t = true ∧ i ∈ ((cfg0.win 24).blk t).view.set := by
  have hi0 : (i 0).val < 800768 := (i 0).isLt
  have hi1 : (i 1).val < 32 := (i 1).isLt
  obtain ⟨e0, e1⟩ := idx24 (pointOf (i 0).val hi0)
  refine ⟨pointOf (i 0).val hi0, flush0_24 _, ?_⟩
  rw [mem_blk24]
  intro a
  match a with
  | ⟨0, _⟩ =>
    show win0_24.index (pointOf (i 0).val hi0) (0 : Fin 2) * 2048 ≤ (i 0).val ∧ (i 0).val < win0_24.index (pointOf (i 0).val hi0) (0 : Fin 2) * 2048 + 2048
    rw [e0]
    show (i 0).val / 2048 * 2048 ≤ (i 0).val ∧ (i 0).val < (i 0).val / 2048 * 2048 + 2048
    omega
  | ⟨1, _⟩ =>
    show win0_24.index (pointOf (i 0).val hi0) (1 : Fin 2) * 32 ≤ (i 1).val ∧ (i 1).val < win0_24.index (pointOf (i 0).val hi0) (1 : Fin 2) * 32 + 32
    rw [e1]; omega

end Cert.KernelIdeal.Blocks

end
-- ==== Proof.PaddedResults.lean ====
/-
  The six result arrays after the run, padded rows included.

  At point `t` the body's stores are whole blocks, so what the point writes back to a result array is the body's
  arithmetic (the generated payloads) of the point's input blocks. The body's arithmetic at entry `p` of a block is the
  update rule at that row's data (BodyRow.lean); the input blocks' entry `p` is row `t·2048 + p` of the arrays the
  region finds, the weight blocks are the weight arrays, and the output block's entry `(p, q)` sits at `(t·2048 + p, q)`
  (BlockReads.lean). Hence every point writes the block of ONE function of the region's arrays — the rule applied to
  each of the 800768 rows, padding rows included —, and since the blocks cover each result array (BlockCover.lean), the
  array ends holding that function everywhere.
-/
import proofs.«144035_j37589553775001_2_alg».proof.Proof.BodyRow
import proofs.«144035_j37589553775001_2_alg».proof.Proof.BlockCover

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The weights as the region finds them. -/
abbrev Pm (c : Dev nD) : Cert.Update.Params :=
  Cert.Update.Params.ofArrays (V m c main_arg6) (V m c main_arg7) (V m c main_arg8) (V m c main_arg9) (V m c main_arg10) (V m c main_arg11)
    (V m c main_arg12) (V m c main_arg13) (V m c main_arg14) (V m c main_arg15) (V m c main_arg16) (V m c main_arg17) (V m c main_arg18) (V m c main_arg19)

/-! ## The rule over the rows of the padded arrays -/

/-- The moved value of row `r`. -/
def movedRow (c : Dev nD) (r : Fin 800768) : EReal :=
  Cert.Update.moved (Pm m c) (V m c main_v6 (ix1 r)) (V m c main_v7 (ix1 r)) (fun k => V m c main_v8 (ix2 r k)) (fun k => V m c main_v9 (ix2 r k))
    (fun k => V m c main_v10 (ix2 r k)) (fun k => V m c main_v11 (ix2 r k))

/-- The step of row `r`. -/
def stepRow (c : Dev nD) (r : Fin 800768) : EReal :=
  Cert.Update.step (Pm m c) (V m c main_v7 (ix1 r)) (fun k => V m c main_v8 (ix2 r k)) (fun k => V m c main_v9 (ix2 r k))
    (fun k => V m c main_v10 (ix2 r k)) (fun k => V m c main_v11 (ix2 r k))

/-- The first cell's new hidden state of row `r`. -/
def h0nRow (c : Dev nD) (r : Fin 800768) (q : Fin 32) : EReal :=
  Cert.Update.h0n (Pm m c) (V m c main_v7 (ix1 r)) (fun k => V m c main_v8 (ix2 r k)) (fun k => V m c main_v9 (ix2 r k)) q

/-- The first cell's new cell state of row `r`. -/
def c0nRow (c : Dev nD) (r : Fin 800768) (q : Fin 32) : EReal :=
  Cert.Update.c0n (Pm m c) (V m c main_v7 (ix1 r)) (fun k => V m c main_v8 (ix2 r k)) (fun k => V m c main_v9 (ix2 r k)) q

/-- The second cell's new hidden state of row `r`. -/
def h1nRow (c : Dev nD) (r : Fin 800768) (q : Fin 32) : EReal :=
  Cert.Update.h1n (Pm m c) (V m c main_v7 (ix1 r)) (fun k => V m c main_v8 (ix2 r k)) (fun k => V m c main_v9 (ix2 r k))
    (fun k => V m c main_v10 (ix2 r k)) (fun k => V m c main_v11 (ix2 r k)) q

/-- The second cell's new cell state of row `r`. -/
def c1nRow (c : Dev nD) (r : Fin 800768) (q : Fin 32) : EReal :=
  Cert.Update.c1n (Pm m c) (V m c main_v7 (ix1 r)) (fun k => V m c main_v8 (ix2 r k)) (fun k => V m c main_v9 (ix2 r k))
    (fun k => V m c main_v10 (ix2 r k)) (fun k => V m c main_v11 (ix2 r k)) q

/-- A function of rows as a padded vector. -/
def asVec (f : Fin 800768 → EReal) : S800768.Idx → EReal := fun i => f ⟨(i 0).val, (i 0).isLt⟩

/-- A function of rows and columns as a padded matrix. -/
def asMat (f : Fin 800768 → Fin 32 → EReal) : S800768x32.Idx → EReal := fun i => f ⟨(i 0).val, (i 0).isLt⟩ ⟨(i 1).val, (i 1).isLt⟩

theorem asVec_ix1 (f : Fin 800768 → EReal) (r : Fin 800768) : asVec f (ix1 r) = f r := rfl
theorem asMat_ix2 (f : Fin 800768 → Fin 32 → EReal) (r : Fin 800768) (q : Fin 32) : asMat f (ix2 r q) = f r q := rfl

/-! ## The moved values (result window 20) -/

theorem point20 (c : Dev nD) (t : Fin cfg0.N) (j : S2048.Idx) :
    k0_pay14 (k0_pay6 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t))
        (k0_pay7 (iblk m c 4 t)) (k0_pay8 (iblk m c 5 t)) (iblk m c 14 t) (iblk m c 15 t) (iblk m c 16 t) (iblk m c 17 t) (iblk m c 18 t) (iblk m c 19 t) (iblk m c 0 t) j
      = asVec (movedRow m c) (((cfg0.win 20).blk t).view.emb j) := by
  obtain ⟨p, rfl⟩ : ∃ p : Fin 2048, j = ix1 p := ⟨j 0, eq_ix1 j⟩
  rw [emb20_at, asVec_ix1]
  refine (Cert.KernelIdeal.Row.moved_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk0_at, iblk1_at, iblk2_at, iblk3_at, iblk4_at, iblk5_at]
  rfl

theorem flushed20_eq (c : Dev nD) (t : Fin cfg0.N) :
    (dats m 0 c).flushed 20 t = ((cfg0.win 20).blk t).view.read (Elt Ideal) (asVec (movedRow m c)) := by
  show (cfg0.win 20).cut (grid0.coords t) ((dats m 0 c).after 20 t) = _
  rw [after0_20]
  unfold out0_20
  rw [View.canon_unit_zero hz1]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point20 m c t j

/-- The first result array after the run: the moved value of every row. -/
theorem final20 (c : Dev nD) : (dats m 0 c).arrAt 20 cfg0.N = asVec (movedRow m c) :=
  (dats m 0 c).arrAt_eq_of_cover 20 (asVec (movedRow m c)) (fun t _ => flushed20_eq m c t) cover20

/-! ## The first cell's new hidden states (result window 21) -/

theorem point21 (c : Dev nD) (t : Fin cfg0.N) (j : S2048x32.Idx) :
    k0_pay6 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t) j
      = asMat (h0nRow m c) (((cfg0.win 21).blk t).view.emb j) := by
  obtain ⟨p, q, rfl⟩ : ∃ (p : Fin 2048) (q : Fin 32), j = ix2 p q := ⟨j 0, j 1, eq_ix2 j⟩
  rw [emb21_at, asMat_ix2]
  refine (Cert.KernelIdeal.Row.h0n_at (iblk m c 1 t) (iblk m c 2 t) (iblk m c 3 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk1_at, iblk2_at, iblk3_at]
  rfl

theorem flushed21_eq (c : Dev nD) (t : Fin cfg0.N) :
    (dats m 0 c).flushed 21 t = ((cfg0.win 21).blk t).view.read (Elt Ideal) (asMat (h0nRow m c)) := by
  show (cfg0.win 21).cut (grid0.coords t) ((dats m 0 c).after 21 t) = _
  rw [after0_21]
  unfold out0_21
  rw [View.canon_unit_zero hz2]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point21 m c t j

/-- The second result array after the run. -/
theorem final21 (c : Dev nD) : (dats m 0 c).arrAt 21 cfg0.N = asMat (h0nRow m c) :=
  (dats m 0 c).arrAt_eq_of_cover 21 (asMat (h0nRow m c)) (fun t _ => flushed21_eq m c t) cover21

/-! ## The first cell's new cell states (result window 22) -/

theorem point22 (c : Dev nD) (t : Fin cfg0.N) (j : S2048x32.Idx) :
    k0_pay5 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t) j
      = asMat (c0nRow m c) (((cfg0.win 22).blk t).view.emb j) := by
  obtain ⟨p, q, rfl⟩ : ∃ (p : Fin 2048) (q : Fin 32), j = ix2 p q := ⟨j 0, j 1, eq_ix2 j⟩
  rw [emb22_at, asMat_ix2]
  refine (Cert.KernelIdeal.Row.c0n_at (iblk m c 1 t) (iblk m c 2 t) (iblk m c 3 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk1_at, iblk2_at, iblk3_at]
  rfl

theorem flushed22_eq (c : Dev nD) (t : Fin cfg0.N) :
    (dats m 0 c).flushed 22 t = ((cfg0.win 22).blk t).view.read (Elt Ideal) (asMat (c0nRow m c)) := by
  show (cfg0.win 22).cut (grid0.coords t) ((dats m 0 c).after 22 t) = _
  rw [after0_22]
  unfold out0_22
  rw [View.canon_unit_zero hz2]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point22 m c t j

/-- The third result array after the run. -/
theorem final22 (c : Dev nD) : (dats m 0 c).arrAt 22 cfg0.N = asMat (c0nRow m c) :=
  (dats m 0 c).arrAt_eq_of_cover 22 (asMat (c0nRow m c)) (fun t _ => flushed22_eq m c t) cover22

/-! ## The second cell's new hidden states (result window 23) -/

theorem point23 (c : Dev nD) (t : Fin cfg0.N) (j : S2048x32.Idx) :
    k0_pay12 (k0_pay6 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t))
        (k0_pay7 (iblk m c 4 t)) (k0_pay8 (iblk m c 5 t)) (iblk m c 14 t) (iblk m c 15 t) (iblk m c 16 t) (iblk m c 17 t) j
      = asMat (h1nRow m c) (((cfg0.win 23).blk t).view.emb j) := by
  obtain ⟨p, q, rfl⟩ : ∃ (p : Fin 2048) (q : Fin 32), j = ix2 p q := ⟨j 0, j 1, eq_ix2 j⟩
  rw [emb23_at, asMat_ix2]
  refine (Cert.KernelIdeal.Row.h1n_at (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk1_at, iblk2_at, iblk3_at, iblk4_at, iblk5_at]
  rfl

theorem flushed23_eq (c : Dev nD) (t : Fin cfg0.N) :
    (dats m 0 c).flushed 23 t = ((cfg0.win 23).blk t).view.read (Elt Ideal) (asMat (h1nRow m c)) := by
  show (cfg0.win 23).cut (grid0.coords t) ((dats m 0 c).after 23 t) = _
  rw [after0_23]
  unfold out0_23
  rw [View.canon_unit_zero hz2]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point23 m c t j

/-- The fourth result array after the run. -/
theorem final23 (c : Dev nD) : (dats m 0 c).arrAt 23 cfg0.N = asMat (h1nRow m c) :=
  (dats m 0 c).arrAt_eq_of_cover 23 (asMat (h1nRow m c)) (fun t _ => flushed23_eq m c t) cover23

/-! ## The second cell's new cell states (result window 24) -/

theorem point24 (c : Dev nD) (t : Fin cfg0.N) (j : S2048x32.Idx) :
    k0_pay11 (k0_pay6 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t))
        (k0_pay7 (iblk m c 4 t)) (k0_pay8 (iblk m c 5 t)) (iblk m c 14 t) (iblk m c 15 t) (iblk m c 16 t) (iblk m c 17 t) j
      = asMat (c1nRow m c) (((cfg0.win 24).blk t).view.emb j) := by
  obtain ⟨p, q, rfl⟩ : ∃ (p : Fin 2048) (q : Fin 32), j = ix2 p q := ⟨j 0, j 1, eq_ix2 j⟩
  rw [emb24_at, asMat_ix2]
  refine (Cert.KernelIdeal.Row.c1n_at (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk1_at, iblk2_at, iblk3_at, iblk4_at, iblk5_at]
  rfl

theorem flushed24_eq (c : Dev nD) (t : Fin cfg0.N) :
    (dats m 0 c).flushed 24 t = ((cfg0.win 24).blk t).view.read (Elt Ideal) (asMat (c1nRow m c)) := by
  show (cfg0.win 24).cut (grid0.coords t) ((dats m 0 c).after 24 t) = _
  rw [after0_24]
  unfold out0_24
  rw [View.canon_unit_zero hz2]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point24 m c t j

/-- The fifth result array after the run. -/
theorem final24 (c : Dev nD) : (dats m 0 c).arrAt 24 cfg0.N = asMat (c1nRow m c) :=
  (dats m 0 c).arrAt_eq_of_cover 24 (asMat (c1nRow m c)) (fun t _ => flushed24_eq m c t) cover24

/-! ## The steps (result window 25) -/

theorem point25 (c : Dev nD) (t : Fin cfg0.N) (j : S2048.Idx) :
    k0_pay13 (k0_pay6 (k0_pay1 (iblk m c 1 t) (iblk m c 6 t) (iblk m c 7 t) (iblk m c 8 t) (iblk m c 9 t)) (k0_pay2 (iblk m c 2 t)) (iblk m c 3 t) (iblk m c 10 t) (iblk m c 11 t) (iblk m c 12 t) (iblk m c 13 t))
        (k0_pay7 (iblk m c 4 t)) (k0_pay8 (iblk m c 5 t)) (iblk m c 14 t) (iblk m c 15 t) (iblk m c 16 t) (iblk m c 17 t) (iblk m c 18 t) (iblk m c 19 t) j
      = asVec (stepRow m c) (((cfg0.win 25).blk t).view.emb j) := by
  obtain ⟨p, rfl⟩ : ∃ p : Fin 2048, j = ix1 p := ⟨j 0, eq_ix1 j⟩
  rw [emb25_at, asVec_ix1]
  refine (Cert.KernelIdeal.Row.step_at (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p).trans ?_
  simp only [iblk6_eq, iblk7_eq, iblk8_eq, iblk9_eq, iblk10_eq, iblk11_eq, iblk12_eq, iblk13_eq, iblk14_eq, iblk15_eq, iblk16_eq, iblk17_eq, iblk18_eq, iblk19_eq, iblk1_at, iblk2_at, iblk3_at, iblk4_at, iblk5_at]
  rfl

theorem flushed25_eq (c : Dev nD) (t : Fin cfg0.N) :
    (dats m 0 c).flushed 25 t = ((cfg0.win 25).blk t).view.read (Elt Ideal) (asVec (stepRow m c)) := by
  show (cfg0.win 25).cut (grid0.coords t) ((dats m 0 c).after 25 t) = _
  rw [after0_25]
  unfold out0_25
  rw [View.canon_unit_zero hz1]
  simp only [View.ld_unit_zero (S := S2048) hz1, View.ld_unit_zero (S := S2048x32) hz2, View.ld_unit_zero (S := S10x2) hz2,
    View.ld_unit_zero (S := S10) hz1, View.ld_unit_zero (S := S10x10) hz2, View.ld_unit_zero (S := S128x10) hz2,
    View.ld_unit_zero (S := S128x32) hz2, View.ld_unit_zero (S := S128) hz1, View.ld_unit_zero (S := S1x32) hz2, View.ld_unit_zero (S := S1) hz1]
  funext j
  exact point25 m c t j

/-- The sixth result array after the run: the step of every row. -/
theorem final25 (c : Dev nD) : (dats m 0 c).arrAt 25 cfg0.N = asVec (stepRow m c) :=
  (dats m 0 c).arrAt_eq_of_cover 25 (asVec (stepRow m c)) (fun t _ => flushed25_eq m c t) cover25

end Cert.KernelIdeal.Blocks

end
-- ==== Proof.LibPadHigh.lean ====
/-
  An array padded at the high end of its leading axis only, read below the original extent.

  `pad` (the host's `stablehlo.pad`) reads, at a result index all of whose coordinates land on an original element,
  that element, and the padding value elsewhere. With no padding in front and none between elements (low = 0,
  interior = 0) a coordinate `j` lands on the original coordinate `j` exactly when `j` is below the original extent. The
  two forms here are the vector case and the matrix case with only the rows padded, for any extents.
-/
import Idealize.ShloMosaic.PureOps.ShapeOps
import Idealize.ShloMosaic.Lib.ValueIdx

namespace Cert.LibPadHigh

open Idealize.ShloMosaic Idealize.ShloMosaic.ValueIdx

variable {α : Type}

/-- A vector of length `n` padded at the high end to length `t`, read at `r < n`, is the vector at `r`. -/
theorem pad_vec_apply {n t hi : ℕ} (x : (⟨1, ![n]⟩ : Shape).Idx → α) {u : Shape} (v : u.Idx → α)
    (h : (⟨1, ![n]⟩ : Shape).Pads ![0] ![hi] ![0] ⟨1, ![t]⟩) (hu : 0 < u.numel) (r : Fin t) (hr : r.val < n) :
    pad ⟨1, ![t]⟩ ![0] ![hi] ![0] x v h hu (ix1 r) = x (ix1 ⟨r.val, hr⟩) := by
  unfold pad
  have hin : ∀ a : Fin (⟨1, ![n]⟩ : Shape).rank, (![0] : Fin 1 → ℕ) a ≤ ((ix1 r) (a.cast h.1)).val
      ∧ (((ix1 r) (a.cast h.1)).val - (![0] : Fin 1 → ℕ) a) % ((![0] : Fin 1 → ℕ) a + 1) = 0
      ∧ (((ix1 r) (a.cast h.1)).val - (![0] : Fin 1 → ℕ) a) / ((![0] : Fin 1 → ℕ) a + 1) < (⟨1, ![n]⟩ : Shape).size a := by
    intro a
    match a with
    | ⟨0, _⟩ =>
      show 0 ≤ r.val ∧ (r.val - 0) % (0 + 1) = 0 ∧ (r.val - 0) / (0 + 1) < n
      refine ⟨Nat.zero_le _, Nat.mod_one _, ?_⟩
      rw [Nat.sub_zero, Nat.zero_add, Nat.div_one]; exact hr
  rw [dif_pos hin]
  refine congrArg x (funext fun a => Fin.ext ?_)
  match a with
  | ⟨0, _⟩ =>
    show (r.val - 0) / (0 + 1) = r.val
    rw [Nat.sub_zero, Nat.zero_add, Nat.div_one]

/-- A matrix of `n` rows padded at the high end of its rows to `t` rows, read at `(r, k)` with `r < n`, is the matrix
    at `(r, k)`. -/
theorem pad_rows_apply {n t c hi : ℕ} (x : (⟨2, ![n, c]⟩ : Shape).Idx → α) {u : Shape} (v : u.Idx → α)
    (h : (⟨2, ![n, c]⟩ : Shape).Pads ![0, 0] ![hi, 0] ![0, 0] ⟨2, ![t, c]⟩) (hu : 0 < u.numel) (r : Fin t) (k : Fin c)
    (hr : r.val < n) :
    pad ⟨2, ![t, c]⟩ ![0, 0] ![hi, 0] ![0, 0] x v h hu (ix2 r k) = x (ix2 ⟨r.val, hr⟩ k) := by
  unfold pad
  have hin : ∀ a : Fin (⟨2, ![n, c]⟩ : Shape).rank, (![0, 0] : Fin 2 → ℕ) a ≤ ((ix2 r k) (a.cast h.1)).val
      ∧ (((ix2 r k) (a.cast h.1)).val - (![0, 0] : Fin 2 → ℕ) a) % ((![0, 0] : Fin 2 → ℕ) a + 1) = 0
      ∧ (((ix2 r k) (a.cast h.1)).val - (![0, 0] : Fin 2 → ℕ) a) / ((![0, 0] : Fin 2 → ℕ) a + 1) < (⟨2, ![n, c]⟩ : Shape).size a := by
    intro a
    match a with
    | ⟨0, _⟩ =>
      show 0 ≤ r.val ∧ (r.val - 0) % (0 + 1) = 0 ∧ (r.val - 0) / (0 + 1) < n
      refine ⟨Nat.zero_le _, Nat.mod_one _, ?_⟩
      rw [Nat.sub_zero, Nat.zero_add, Nat.div_one]; exact hr
    | ⟨1, _⟩ =>
      show 0 ≤ k.val ∧ (k.val - 0) % (0 + 1) = 0 ∧ (k.val - 0) / (0 + 1) < c
      refine ⟨Nat.zero_le _, Nat.mod_one _, ?_⟩
      rw [Nat.sub_zero, Nat.zero_add, Nat.div_one]; exact k.isLt
  rw [dif_pos hin]
  refine congrArg x (funext fun a => Fin.ext ?_)
  match a with
  | ⟨0, _⟩ =>
    show (r.val - 0) / (0 + 1) = r.val
    rw [Nat.sub_zero, Nat.zero_add, Nat.div_one]
  | ⟨1, _⟩ =>
    show (k.val - 0) / (0 + 1) = k.val
    rw [Nat.sub_zero, Nat.zero_add, Nat.div_one]

end Cert.LibPadHigh
-- ==== Proof.EntryArrays.lean ====
/-
  The arrays the kernel's region finds.

  Before the region the program flattens each per-variable argument — the values and the gradient from [8, 100000] to
  [800000], the four state arrays from [8, 100000, 32] to [800000, 32] — and pads the 800000 rows with 768 rows of
  zeros, to 391 blocks of 2048. So row `b·100000 + n` of a padded array (`flat b n`, always below 800000) is
  variable `(b, n)` of the argument: the padding is never read there, and a row-major flattening sends `(b, n)` to
  `b·100000 + n` and `(b, n, k)` to `(b·100000 + n, k)`.
-/
import proofs.«144035_j37589553775001_2_alg».proof.Proof.Gen.KernelIdeal.Frame
import proofs.«144035_j37589553775001_2_alg».proof.Proof.LibPadHigh
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The flat row of variable `(b, n)`: `b·100000 + n`. -/
def flat (b : Fin 8) (n : Fin 100000) : Fin 800768 := ⟨b.val * 100000 + n.val, by have := b.isLt; have := n.isLt; omega⟩

theorem flat_lt (b : Fin 8) (n : Fin 100000) : (flat b n).val < 800000 := by
  show b.val * 100000 + n.val < 800000
  have := b.isLt; have := n.isLt; omega

/-- The padded values at the flat row of `(b, n)` are the values at `(b, n)`. -/
theorem V_v6_at (c : Dev nD) (b : Fin 8) (n : Fin 100000) :
    V m c main_v6 (ix1 (flat b n)) = m ((c.tc : Thread nD τ).loc main_arg0) (ix2 b n) := by
  have e : (V m c main_v6 : S800768.Idx → EReal) = pad S800768 ![0] ![768] ![0]
      (shapeCast S800000 (m ((c.tc : Thread nD τ).loc main_arg0)) shapeCasts_S8x100000_S800000)
      (sitofp (F := Ideal) .f32 (constantI S_ 32 0#32)) pads_S800000_S800768_07680 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v6 (ix1 (flat b n)) = _ from congrFun e (ix1 (flat b n))]
  rw [Cert.LibPadHigh.pad_vec_apply _ _ _ _ (flat b n) (flat_lt b n)]
  exact shapeCast_apply _ shapeCasts_S8x100000_S800000 _ (ix2 b n)
    (by rewrite [Shape.rowMajor_val_two, Shape.rowMajor_val_one]; rfl)

/-- The padded gradient at the flat row of `(b, n)` is the gradient at `(b, n)`. -/
theorem V_v7_at (c : Dev nD) (b : Fin 8) (n : Fin 100000) :
    V m c main_v7 (ix1 (flat b n)) = m ((c.tc : Thread nD τ).loc main_arg1) (ix2 b n) := by
  have e : (V m c main_v7 : S800768.Idx → EReal) = pad S800768 ![0] ![768] ![0]
      (shapeCast S800000 (m ((c.tc : Thread nD τ).loc main_arg1)) shapeCasts_S8x100000_S800000)
      (sitofp (F := Ideal) .f32 (constantI S_ 32 0#32)) pads_S800000_S800768_07680 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v7 (ix1 (flat b n)) = _ from congrFun e (ix1 (flat b n))]
  rw [Cert.LibPadHigh.pad_vec_apply _ _ _ _ (flat b n) (flat_lt b n)]
  exact shapeCast_apply _ shapeCasts_S8x100000_S800000 _ (ix2 b n)
    (by rewrite [Shape.rowMajor_val_two, Shape.rowMajor_val_one]; rfl)

/-- A padded state array at `(flat b n, k)` is the state argument at `(b, n, k)`: the first cell's hidden state. -/
theorem V_v8_at (c : Dev nD) (b : Fin 8) (n : Fin 100000) (k : Fin 32) :
    V m c main_v8 (ix2 (flat b n) k) = m ((c.tc : Thread nD τ).loc main_arg2) (ix3 b n k) := by
  have e : (V m c main_v8 : S800768x32.Idx → EReal) = pad S800768x32 ![0, 0] ![768, 0] ![0, 0]
      (shapeCast S800000x32 (m ((c.tc : Thread nD τ).loc main_arg2)) shapeCasts_S8x100000x32_S800000x32)
      (sitofp (F := Ideal) .f32 (constantI S_ 32 0#32)) pads_S800000x32_S800768x32_07680_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v8 (ix2 (flat b n) k) = _ from congrFun e (ix2 (flat b n) k)]
  rw [Cert.LibPadHigh.pad_rows_apply _ _ _ _ (flat b n) k (flat_lt b n)]
  exact shapeCast_apply _ shapeCasts_S8x100000x32_S800000x32 _ (ix3 b n k)
    (by rewrite [Shape.rowMajor_val_three, Shape.rowMajor_val_two]; rfl)

/-- The same for the first cell's cell state. -/
theorem V_v9_at (c : Dev nD) (b : Fin 8) (n : Fin 100000) (k : Fin 32) :
    V m c main_v9 (ix2 (flat b n) k) = m ((c.tc : Thread nD τ).loc main_arg3) (ix3 b n k) := by
  have e : (V m c main_v9 : S800768x32.Idx → EReal) = pad S800768x32 ![0, 0] ![768, 0] ![0, 0]
      (shapeCast S800000x32 (m ((c.tc : Thread nD τ).loc main_arg3)) shapeCasts_S8x100000x32_S800000x32)
      (sitofp (F := Ideal) .f32 (constantI S_ 32 0#32)) pads_S800000x32_S800768x32_07680_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v9 (ix2 (flat b n) k) = _ from congrFun e (ix2 (flat b n) k)]
  rw [Cert.LibPadHigh.pad_rows_apply _ _ _ _ (flat b n) k (flat_lt b n)]
  exact shapeCast_apply _ shapeCasts_S8x100000x32_S800000x32 _ (ix3 b n k)
    (by rewrite [Shape.rowMajor_val_three, Shape.rowMajor_val_two]; rfl)

/-- The same for the second cell's hidden state. -/
theorem V_v10_at (c : Dev nD) (b : Fin 8) (n : Fin 100000) (k : Fin 32) :
    V m c main_v10 (ix2 (flat b n) k) = m ((c.tc : Thread nD τ).loc main_arg4) (ix3 b n k) := by
  have e : (V m c main_v10 : S800768x32.Idx → EReal) = pad S800768x32 ![0, 0] ![768, 0] ![0, 0]
      (shapeCast S800000x32 (m ((c.tc : Thread nD τ).loc main_arg4)) shapeCasts_S8x100000x32_S800000x32)
      (sitofp (F := Ideal) .f32 (constantI S_ 32 0#32)) pads_S800000x32_S800768x32_07680_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v10 (ix2 (flat b n) k) = _ from congrFun e (ix2 (flat b n) k)]
  rw [Cert.LibPadHigh.pad_rows_apply _ _ _ _ (flat b n) k (flat_lt b n)]
  exact shapeCast_apply _ shapeCasts_S8x100000x32_S800000x32 _ (ix3 b n k)
    (by rewrite [Shape.rowMajor_val_three, Shape.rowMajor_val_two]; rfl)

/-- The same for the second cell's cell state. -/
theorem V_v11_at (c : Dev nD) (b : Fin 8) (n : Fin 100000) (k : Fin 32) :
    V m c main_v11 (ix2 (flat b n) k) = m ((c.tc : Thread nD τ).loc main_arg5) (ix3 b n k) := by
  have e : (V m c main_v11 : S800768x32.Idx → EReal) = pad S800768x32 ![0, 0] ![768, 0] ![0, 0]
      (shapeCast S800000x32 (m ((c.tc : Thread nD τ).loc main_arg5)) shapeCasts_S8x100000x32_S800000x32)
      (sitofp (F := Ideal) .f32 (constantI S_ 32 0#32)) pads_S800000x32_S800768x32_07680_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11,
      List.flatten_cons, List.flatten_nil, List.append_nil, List.cons_append, List.nil_append]
    after_results
    rfl
  rw [show V m c main_v11 (ix2 (flat b n) k) = _ from congrFun e (ix2 (flat b n) k)]
  rw [Cert.LibPadHigh.pad_rows_apply _ _ _ _ (flat b n) k (flat_lt b n)]
  exact shapeCast_apply _ shapeCasts_S8x100000x32_S800000x32 _ (ix3 b n k)
    (by rewrite [Shape.rowMajor_val_three, Shape.rowMajor_val_two]; rfl)

end Cert.KernelIdeal.Entry

end
-- ==== Proof.Results.lean ====
/-
  The six results over all 8 × 100000 variables, as functions of the argument arrays.

  Variable `(b, n)` has the value `a0 (b, n)`, the gradient entry `a1 (b, n)` and the four state rows `a2 … a5 (b, n, ·)`; the
  rule of UpdateRule.lean, applied to each variable on its own, gives the moved value and the step as [8, 100000]
  arrays and the four new states as [8, 100000, 32] arrays. Both programs are shown to end with exactly these arrays.
-/
import proofs.«144035_j37589553775001_2_alg».proof.Proof.UpdateRule

noncomputable section

namespace Cert.Update

open Idealize.ShloMosaic Idealize.ShloMosaic.ValueIdx

variable (P : Params)
variable (a0 a1 : (⟨2, ![8, 100000]⟩ : Shape).Idx → EReal) (a2 a3 a4 a5 : (⟨3, ![8, 100000, 32]⟩ : Shape).Idx → EReal)

/-- The moved values. -/
def movedAll : (⟨2, ![8, 100000]⟩ : Shape).Idx → EReal := fun i =>
  moved P (a0 (ix2 (⟨(i 0).val, (i 0).isLt⟩ : Fin 8) (⟨(i 1).val, (i 1).isLt⟩ : Fin 100000)))
    (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (fun k => a4 (ix3 (⟨(i 0).val, (i 0).isLt⟩ : Fin 8) (⟨(i 1).val, (i 1).isLt⟩ : Fin 100000) k))
    (fun k => a5 (ix3 (⟨(i 0).val, (i 0).isLt⟩ : Fin 8) (⟨(i 1).val, (i 1).isLt⟩ : Fin 100000) k))

/-- The steps. -/
def stepAll : (⟨2, ![8, 100000]⟩ : Shape).Idx → EReal := fun i =>
  step P (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (fun k => a4 (ix3 (⟨(i 0).val, (i 0).isLt⟩ : Fin 8) (⟨(i 1).val, (i 1).isLt⟩ : Fin 100000) k))
    (fun k => a5 (ix3 (⟨(i 0).val, (i 0).isLt⟩ : Fin 8) (⟨(i 1).val, (i 1).isLt⟩ : Fin 100000) k))

/-- The first cell's new hidden states. -/
def h0nAll : (⟨3, ![8, 100000, 32]⟩ : Shape).Idx → EReal := fun i =>
  h0n P (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (⟨(i 2).val, (i 2).isLt⟩ : Fin 32)

/-- The first cell's new cell states. -/
def c0nAll : (⟨3, ![8, 100000, 32]⟩ : Shape).Idx → EReal := fun i =>
  c0n P (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (⟨(i 2).val, (i 2).isLt⟩ : Fin 32)

/-- The second cell's new hidden states. -/
def h1nAll : (⟨3, ![8, 100000, 32]⟩ : Shape).Idx → EReal := fun i =>
  h1n P (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (fun k => a4 (ix3 (⟨(i 0).val, (i 0).isLt⟩ : Fin 8) (⟨(i 1).val, (i 1).isLt⟩ : Fin 100000) k))
    (fun k => a5 (ix3 (⟨(i 0).val, (i 0).isLt⟩ : Fin 8) (⟨(i 1).val, (i 1).isLt⟩ : Fin 100000) k))
    (⟨(i 2).val, (i 2).isLt⟩ : Fin 32)

/-- The second cell's new cell states. -/
def c1nAll : (⟨3, ![8, 100000, 32]⟩ : Shape).Idx → EReal := fun i =>
  c1n P (a1 (ix2 (⟨(i 0).val, (i 0).isLt⟩ : Fin 8) (⟨(i 1).val, (i 1).isLt⟩ : Fin 100000)))
    (fun k => a2 (ix3 (⟨(i 0).val, (i 0).isLt⟩ : Fin 8) (⟨(i 1).val, (i 1).isLt⟩ : Fin 100000) k))
    (fun k => a3 (ix3 (⟨(i 0).val, (i 0).isLt⟩ : Fin 8) (⟨(i 1).val, (i 1).isLt⟩ : Fin 100000) k))
    (fun k => a4 (ix3 (⟨(i 0).val, (i 0).isLt⟩ : Fin 8) (⟨(i 1).val, (i 1).isLt⟩ : Fin 100000) k))
    (fun k => a5 (ix3 (⟨(i 0).val, (i 0).isLt⟩ : Fin 8) (⟨(i 1).val, (i 1).isLt⟩ : Fin 100000) k))
    (⟨(i 2).val, (i 2).isLt⟩ : Fin 32)

/-! At coordinates each is the rule at that variable. -/

theorem movedAll_at (b : Fin 8) (n : Fin 100000) : movedAll P a0 a1 a2 a3 a4 a5 (ix2 b n)
    = moved P (a0 (ix2 b n)) (a1 (ix2 b n)) (fun k => a2 (ix3 b n k)) (fun k => a3 (ix3 b n k)) (fun k => a4 (ix3 b n k)) (fun k => a5 (ix3 b n k)) := rfl

theorem stepAll_at (b : Fin 8) (n : Fin 100000) : stepAll P a1 a2 a3 a4 a5 (ix2 b n)
    = step P (a1 (ix2 b n)) (fun k => a2 (ix3 b n k)) (fun k => a3 (ix3 b n k)) (fun k => a4 (ix3 b n k)) (fun k => a5 (ix3 b n k)) := rfl

theorem h0nAll_at (b : Fin 8) (n : Fin 100000) (q : Fin 32) : h0nAll P a1 a2 a3 (ix3 b n q)
    = h0n P (a1 (ix2 b n)) (fun k => a2 (ix3 b n k)) (fun k => a3 (ix3 b n k)) q := rfl

theorem c0nAll_at (b : Fin 8) (n : Fin 100000) (q : Fin 32) : c0nAll P a1 a2 a3 (ix3 b n q)
    = c0n P (a1 (ix2 b n)) (fun k => a2 (ix3 b n k)) (fun k => a3 (ix3 b n k)) q := rfl

theorem h1nAll_at (b : Fin 8) (n : Fin 100000) (q : Fin 32) : h1nAll P a1 a2 a3 a4 a5 (ix3 b n q)
    = h1n P (a1 (ix2 b n)) (fun k => a2 (ix3 b n k)) (fun k => a3 (ix3 b n k)) (fun k => a4 (ix3 b n k)) (fun k => a5 (ix3 b n k)) q := rfl

theorem c1nAll_at (b : Fin 8) (n : Fin 100000) (q : Fin 32) : c1nAll P a1 a2 a3 a4 a5 (ix3 b n q)
    = c1n P (a1 (ix2 b n)) (fun k => a2 (ix3 b n k)) (fun k => a3 (ix3 b n k)) (fun k => a4 (ix3 b n k)) (fun k => a5 (ix3 b n k)) q := rfl

end Cert.Update

end
-- ==== Proof.KernelRun.lean ====
/-
  The idealized kernel's run, with each result as a function of the arguments.

  After the region the program cuts each result array back to its first 800000 rows and folds them to [8, 100000] or
  [8, 100000, 32]. A row-major fold sends `(b, n)` to the flat row `b·100000 + n`, which the cut leaves in place; there
  the padded result array holds the update rule at that row of the padded inputs (PaddedResults.lean), and that row of
  the padded inputs is variable `(b, n)` of the arguments (EntryArrays.lean). The weight arrays pass through the region
  untouched. So the six results are the rule applied to every variable of the arguments (Results.lean), and the
  arguments end as they were launched (the generated frame's facts).
-/
import proofs.«144035_j37589553775001_2_alg».proof.Proof.PaddedResults
import proofs.«144035_j37589553775001_2_alg».proof.Proof.EntryArrays
import proofs.«144035_j37589553775001_2_alg».proof.Proof.Results
import Idealize.ShloMosaic.Lib.StableHlo.Run
import Idealize.ShloMosaic.Lib.ValueLayout

noncomputable section

namespace Cert.KernelIdeal.Whole

open Cert.KernelIdeal Cert.KernelIdeal.Gen Cert.KernelIdeal.Blocks Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The weights, as launched. -/
abbrev Pa (c : Dev nD) : Cert.Update.Params :=
  Cert.Update.Params.ofArrays (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- The region finds the weights as launched. -/
theorem Pm_eq (c : Dev nD) : Pm m c = Pa m c := by
  show Cert.Update.Params.ofArrays (V m c main_arg6) (V m c main_arg7) (V m c main_arg8) (V m c main_arg9) (V m c main_arg10) (V m c main_arg11)
    (V m c main_arg12) (V m c main_arg13) (V m c main_arg14) (V m c main_arg15) (V m c main_arg16) (V m c main_arg17) (V m c main_arg18) (V m c main_arg19) = _
  rw [V_main_arg6 m c, V_main_arg7 m c, V_main_arg8 m c, V_main_arg9 m c, V_main_arg10 m c, V_main_arg11 m c, V_main_arg12 m c, V_main_arg13 m c, V_main_arg14 m c, V_main_arg15 m c, V_main_arg16 m c, V_main_arg17 m c, V_main_arg18 m c, V_main_arg19 m c]

/-- The flat row of variable `(b, n)` among the first 800000. -/
abbrev flat0 (b : Fin 8) (n : Fin 100000) : Fin 800000 := ⟨b.val * 100000 + n.val, by have := b.isLt; have := n.isLt; omega⟩

/-! ## Each result after the lines that follow the region -/

theorem tail_v19 (c : Dev nD) : Pipeline.afterTail₀ cfgs (dats m) 0 (V0 m) [hostOps1] c main_v19
    = Cert.Update.movedAll (Pa m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, n, rfl⟩ : ∃ (b : Fin 8) (n : Fin 100000), i = ix2 b n := ⟨i 0, i 1, eq_ix2 i⟩
  rw [Cert.Update.movedAll_at]
  unfold Pipeline.afterTail₀
  show StableHlo.after hostOps1 _ (Proc.devRef .tc main_v19) (ix2 b n) = _
  after_results
  show shapeCast S8x100000 (extractStridedSlice S800000 ![0] (Pipeline.withArrays spec0 c (V0 m c) (fun w => (dats m 0 c).arrAt w cfg0.N) (Proc.devRef .tc (Pipeline.arrRef spec0 20))) slices_S800768_S800000_0) shapeCasts_S800000_S8x100000 (ix2 b n) = _
  rw [Pipeline.withArrays_arr spec0 winFacts0.arr_inj c (V0 m c) _ 20, final20]
  rw [shapeCast_apply _ shapeCasts_S800000_S8x100000 (ix2 b n) (ix1 (flat0 b n)) (by rewrite [Shape.rowMajor_val_one, Shape.rowMajor_val_two]; rfl)]
  rw [extractStridedSlice_apply _ _ slices_S800768_S800000_0 (ix1 (flat0 b n)) (ix1 (Entry.flat b n)) (fun a => by
    match a with
    | ⟨0, _⟩ => exact (Nat.zero_add _).symm)]
  rw [asVec_ix1]
  unfold movedRow
  rw [Entry.V_v6_at, Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k,
    show (fun k => V m c main_v10 (ix2 (Entry.flat b n) k)) = _ from funext fun k => Entry.V_v10_at m c b n k,
    show (fun k => V m c main_v11 (ix2 (Entry.flat b n) k)) = _ from funext fun k => Entry.V_v11_at m c b n k]

theorem tail_v24 (c : Dev nD) : Pipeline.afterTail₀ cfgs (dats m) 0 (V0 m) [hostOps1] c main_v24
    = Cert.Update.stepAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, n, rfl⟩ : ∃ (b : Fin 8) (n : Fin 100000), i = ix2 b n := ⟨i 0, i 1, eq_ix2 i⟩
  rw [Cert.Update.stepAll_at]
  unfold Pipeline.afterTail₀
  show StableHlo.after hostOps1 _ (Proc.devRef .tc main_v24) (ix2 b n) = _
  after_results
  show shapeCast S8x100000 (extractStridedSlice S800000 ![0] (Pipeline.withArrays spec0 c (V0 m c) (fun w => (dats m 0 c).arrAt w cfg0.N) (Proc.devRef .tc (Pipeline.arrRef spec0 25))) slices_S800768_S800000_0) shapeCasts_S800000_S8x100000 (ix2 b n) = _
  rw [Pipeline.withArrays_arr spec0 winFacts0.arr_inj c (V0 m c) _ 25, final25]
  rw [shapeCast_apply _ shapeCasts_S800000_S8x100000 (ix2 b n) (ix1 (flat0 b n)) (by rewrite [Shape.rowMajor_val_one, Shape.rowMajor_val_two]; rfl)]
  rw [extractStridedSlice_apply _ _ slices_S800768_S800000_0 (ix1 (flat0 b n)) (ix1 (Entry.flat b n)) (fun a => by
    match a with
    | ⟨0, _⟩ => exact (Nat.zero_add _).symm)]
  rw [asVec_ix1]
  unfold stepRow
  rw [Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k,
    show (fun k => V m c main_v10 (ix2 (Entry.flat b n) k)) = _ from funext fun k => Entry.V_v10_at m c b n k,
    show (fun k => V m c main_v11 (ix2 (Entry.flat b n) k)) = _ from funext fun k => Entry.V_v11_at m c b n k]

theorem tail_v20 (c : Dev nD) : Pipeline.afterTail₀ cfgs (dats m) 0 (V0 m) [hostOps1] c main_v20
    = Cert.Update.h0nAll (Pa m c) (m ((c.tc : Thread nD τ).loc main_arg1)) (m ((c.tc : Thread nD τ).loc main_arg2)) (m ((c.tc : Thread nD τ).loc main_arg3)) := by
  funext i
  obtain ⟨b, n, q, rfl⟩ : ∃ (b : Fin 8) (n : Fin 100000) (q : Fin 32), i = ix3 b n q := ⟨i 0, i 1, i 2, eq_ix3 i⟩
  rw [Cert.Update.h0nAll_at]
  unfold Pipeline.afterTail₀
  show StableHlo.after hostOps1 _ (Proc.devRef .tc main_v20) (ix3 b n q) = _
  after_results
  show shapeCast S8x100000x32 (extractStridedSlice S800000x32 ![0, 0] (Pipeline.withArrays spec0 c (V0 m c) (fun w => (dats m 0 c).arrAt w cfg0.N) (Proc.devRef .tc (Pipeline.arrRef spec0 21))) slices_S800768x32_S800000x32_0_0) shapeCasts_S800000x32_S8x100000x32 (ix3 b n q) = _
  rw [Pipeline.withArrays_arr spec0 winFacts0.arr_inj c (V0 m c) _ 21, final21]
  rw [shapeCast_apply _ shapeCasts_S800000x32_S8x100000x32 (ix3 b n q) (ix2 (flat0 b n) q) (by rewrite [Shape.rowMajor_val_two, Shape.rowMajor_val_three]; rfl)]
  rw [slice2_axis0_apply 0 _ slices_S800768x32_S800000x32_0_0 (flat0 b n) q (Entry.flat b n) (Nat.zero_add _).symm]
  rw [asMat_ix2]
  unfold h0nRow
  rw [Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k]

theorem tail_v21 (c : Dev nD) : Pipeline.afterTail₀ cfgs (dats m) 0 (V0 m) [hostOps1] c main_v21
    = Cert.Update.c0nAll (Pa m c) (m ((c.tc : Thread nD τ).loc main_arg1)) (m ((c.tc : Thread nD τ).loc main_arg2)) (m ((c.tc : Thread nD τ).loc main_arg3)) := by
  funext i
  obtain ⟨b, n, q, rfl⟩ : ∃ (b : Fin 8) (n : Fin 100000) (q : Fin 32), i = ix3 b n q := ⟨i 0, i 1, i 2, eq_ix3 i⟩
  rw [Cert.Update.c0nAll_at]
  unfold Pipeline.afterTail₀
  show StableHlo.after hostOps1 _ (Proc.devRef .tc main_v21) (ix3 b n q) = _
  after_results
  show shapeCast S8x100000x32 (extractStridedSlice S800000x32 ![0, 0] (Pipeline.withArrays spec0 c (V0 m c) (fun w => (dats m 0 c).arrAt w cfg0.N) (Proc.devRef .tc (Pipeline.arrRef spec0 22))) slices_S800768x32_S800000x32_0_0) shapeCasts_S800000x32_S8x100000x32 (ix3 b n q) = _
  rw [Pipeline.withArrays_arr spec0 winFacts0.arr_inj c (V0 m c) _ 22, final22]
  rw [shapeCast_apply _ shapeCasts_S800000x32_S8x100000x32 (ix3 b n q) (ix2 (flat0 b n) q) (by rewrite [Shape.rowMajor_val_two, Shape.rowMajor_val_three]; rfl)]
  rw [slice2_axis0_apply 0 _ slices_S800768x32_S800000x32_0_0 (flat0 b n) q (Entry.flat b n) (Nat.zero_add _).symm]
  rw [asMat_ix2]
  unfold c0nRow
  rw [Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k]

theorem tail_v22 (c : Dev nD) : Pipeline.afterTail₀ cfgs (dats m) 0 (V0 m) [hostOps1] c main_v22
    = Cert.Update.h1nAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, n, q, rfl⟩ : ∃ (b : Fin 8) (n : Fin 100000) (q : Fin 32), i = ix3 b n q := ⟨i 0, i 1, i 2, eq_ix3 i⟩
  rw [Cert.Update.h1nAll_at]
  unfold Pipeline.afterTail₀
  show StableHlo.after hostOps1 _ (Proc.devRef .tc main_v22) (ix3 b n q) = _
  after_results
  show shapeCast S8x100000x32 (extractStridedSlice S800000x32 ![0, 0] (Pipeline.withArrays spec0 c (V0 m c) (fun w => (dats m 0 c).arrAt w cfg0.N) (Proc.devRef .tc (Pipeline.arrRef spec0 23))) slices_S800768x32_S800000x32_0_0) shapeCasts_S800000x32_S8x100000x32 (ix3 b n q) = _
  rw [Pipeline.withArrays_arr spec0 winFacts0.arr_inj c (V0 m c) _ 23, final23]
  rw [shapeCast_apply _ shapeCasts_S800000x32_S8x100000x32 (ix3 b n q) (ix2 (flat0 b n) q) (by rewrite [Shape.rowMajor_val_two, Shape.rowMajor_val_three]; rfl)]
  rw [slice2_axis0_apply 0 _ slices_S800768x32_S800000x32_0_0 (flat0 b n) q (Entry.flat b n) (Nat.zero_add _).symm]
  rw [asMat_ix2]
  unfold h1nRow
  rw [Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k,
    show (fun k => V m c main_v10 (ix2 (Entry.flat b n) k)) = _ from funext fun k => Entry.V_v10_at m c b n k,
    show (fun k => V m c main_v11 (ix2 (Entry.flat b n) k)) = _ from funext fun k => Entry.V_v11_at m c b n k]

theorem tail_v23 (c : Dev nD) : Pipeline.afterTail₀ cfgs (dats m) 0 (V0 m) [hostOps1] c main_v23
    = Cert.Update.c1nAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, n, q, rfl⟩ : ∃ (b : Fin 8) (n : Fin 100000) (q : Fin 32), i = ix3 b n q := ⟨i 0, i 1, i 2, eq_ix3 i⟩
  rw [Cert.Update.c1nAll_at]
  unfold Pipeline.afterTail₀
  show StableHlo.after hostOps1 _ (Proc.devRef .tc main_v23) (ix3 b n q) = _
  after_results
  show shapeCast S8x100000x32 (extractStridedSlice S800000x32 ![0, 0] (Pipeline.withArrays spec0 c (V0 m c) (fun w => (dats m 0 c).arrAt w cfg0.N) (Proc.devRef .tc (Pipeline.arrRef spec0 24))) slices_S800768x32_S800000x32_0_0) shapeCasts_S800000x32_S8x100000x32 (ix3 b n q) = _
  rw [Pipeline.withArrays_arr spec0 winFacts0.arr_inj c (V0 m c) _ 24, final24]
  rw [shapeCast_apply _ shapeCasts_S800000x32_S8x100000x32 (ix3 b n q) (ix2 (flat0 b n) q) (by rewrite [Shape.rowMajor_val_two, Shape.rowMajor_val_three]; rfl)]
  rw [slice2_axis0_apply 0 _ slices_S800768x32_S800000x32_0_0 (flat0 b n) q (Entry.flat b n) (Nat.zero_add _).symm]
  rw [asMat_ix2]
  unfold c1nRow
  rw [Entry.V_v7_at, Pm_eq]
  rw [show (fun k => V m c main_v8 (ix2 (Entry.flat b n) k)) = _ from funext fun k => Entry.V_v8_at m c b n k,
    show (fun k => V m c main_v9 (ix2 (Entry.flat b n) k)) = _ from funext fun k => Entry.V_v9_at m c b n k,
    show (fun k => V m c main_v10 (ix2 (Entry.flat b n) k)) = _ from funext fun k => Entry.V_v10_at m c b n k,
    show (fun k => V m c main_v11 (ix2 (Entry.flat b n) k)) = _ from funext fun k => Entry.V_v11_at m c b n k]

/-! ## The run -/

set_option maxHeartbeats 4000000 in
/-- Every weakly fair execution of the idealized kernel's program ends with its six results at the update rule applied
    to every variable of the arguments, and the arguments as launched. -/
theorem run : θ_run defs (onTc (τ := τ) (main (F := Ideal))) ⟨m, fun _ => 0, ρ⟩ fun r => ∀ c : Dev nD,
      r.2.mem ((c.tc : Thread nD τ).loc main_v19) = Cert.Update.movedAll (Pa m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v20) = Cert.Update.h0nAll (Pa m c) (m ((c.tc : Thread nD τ).loc main_arg1)) (m ((c.tc : Thread nD τ).loc main_arg2)) (m ((c.tc : Thread nD τ).loc main_arg3))
      ∧ r.2.mem ((c.tc : Thread nD τ).loc main_v21) = Cert.Update.c0nAll (Pa m c) (m ((c.tc : Thread nD τ).loc main_arg1)) (m ((c.tc : Thread nD τ).loc main_arg2)) (m ((c.tc : Thread nD τ).loc main_arg3))
      ∧ r.2.mem ((c.tc : Thread nD τ).loc main_v22) = Cert.Update.h1nAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v23) = Cert.Update.c1nAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v24) = Cert.Update.stepAll (Pa m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨
      ((h c).2 main_v19 (Pipeline.mem_restRefs_of main_v19 (by decide) (by decide))).trans (tail_v19 m c),
      ((h c).2 main_v20 (Pipeline.mem_restRefs_of main_v20 (by decide) (by decide))).trans (tail_v20 m c),
      ((h c).2 main_v21 (Pipeline.mem_restRefs_of main_v21 (by decide) (by decide))).trans (tail_v21 m c),
      ((h c).2 main_v22 (Pipeline.mem_restRefs_of main_v22 (by decide) (by decide))).trans (tail_v22 m c),
      ((h c).2 main_v23 (Pipeline.mem_restRefs_of main_v23 (by decide) (by decide))).trans (tail_v23 m c),
      ((h c).2 main_v24 (Pipeline.mem_restRefs_of main_v24 (by decide) (by decide))).trans (tail_v24 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c)))⟩)
    (run_main m ρ)

end Cert.KernelIdeal.Whole

end
-- ==== Proof.RefEmbed.lean ====
/-
  The reference's first two layers, read at one flat row.

  The reference lays the 8 × 100000 gradient entries out as 800000 rows. For row `r` it joins the two features
  `sign g` and `log (|g| + ε)` into a row of width 2, multiplies by the transposed `W₁` (a sum of two terms), adds the
  bias row `b₁` and takes `tanh`; then multiplies by the transposed `W₂` (a sum of ten terms) and adds `b₂`. Read
  at `(r, l)` these are the update rule's `hidden` and `embed` at unit `l`, of the gradient entry of row `r`.
-/
import proofs.«144035_j37589553775001_2_alg».proof.Proof.Gen.ReferenceIdeal.Read
import proofs.«144035_j37589553775001_2_alg».proof.Proof.UpdateRule

noncomputable section

namespace Cert.ReferenceIdeal.Row

open Cert.ReferenceIdeal Cert.ReferenceIdeal.Read Idealize.ShloMosaic Idealize.ShloMosaic.ValueIdx

variable (x1 : (⟨S8x100000, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))

/-- The gradient entry of the flat row `r`: the [8,100000] array re-laid as an [800000,1] column, read at `(r, 0)`. -/
abbrev gradAt (r : Fin 800000) : EReal := x1 (idx_main_v0 (ix2 r (0 : Fin 1)))

/-- Column 0 of the joined feature array is the first piece, the sign of the gradient entry. -/
theorem feat0_at (r : Fin 800000) :
    val_main_v6 (F := Ideal) x1 (ix2 r (0 : Fin 2)) = Ideal.sign (gradAt x1 r) := by
  unfold val_main_v6
  refine (concatenate_pair_apply_left (t := S800000x2) (s₁ := S800000x1) (s₂ := S800000x1) (1 : Fin S800000x2.rank) _ _ _
    (ix2 r (0 : Fin 2)) rfl (ix2 r (0 : Fin 1)) (fun b => match b with | ⟨0, _⟩ => rfl | ⟨1, _⟩ => rfl)).trans ?_
  rw [val_main_v1_apply, val_main_v0_apply]
  rfl

/-- Column 1 of the joined feature array is the second piece at column 1 - 1 = 0, `log (|g| + ε)`. -/
theorem feat1_at (r : Fin 800000) :
    val_main_v6 (F := Ideal) x1 (ix2 r (1 : Fin 2)) = Cert.Update.logFeature (gradAt x1 r) := by
  unfold val_main_v6
  refine (concatenate_pair_apply_right (t := S800000x2) (s₁ := S800000x1) (s₂ := S800000x1) (1 : Fin S800000x2.rank) _ _ _
    (ix2 r (1 : Fin 2)) rfl rfl (ix2 r (0 : Fin 1))
    (fun b hb => match b, hb with | ⟨0, _⟩, _ => rfl | ⟨1, _⟩, hb => absurd rfl hb) rfl).trans ?_
  rw [val_main_v5_apply, val_main_v4_apply, val_main_v2_apply, val_main_v3_apply, val_main_cst_apply, val_main_v0_apply]
  rfl

/-! The index functions of the two small products and of the two bias rows, at `(r, l)`. -/

theorem lidx8 (r : Fin 800000) (l : Fin 10) (k : Fin 2) : lidx_main_v8 (ix2 r l) k = ix2 r k :=
  funext fun a => match a with | ⟨0, _⟩ => rfl | ⟨1, _⟩ => rfl

theorem ridx8 (r : Fin 800000) (l : Fin 10) (k : Fin 2) : idx_main_v7 (ridx_main_v8 (ix2 r l) k) = ix2 l k :=
  funext fun a => match a with | ⟨0, _⟩ => rfl | ⟨1, _⟩ => rfl

theorem bidx10 (r : Fin 800000) (l : Fin 10) : idx_main_v9 (idx_main_v10 (ix2 r l)) = ix1 l :=
  funext fun a => match a with | ⟨0, _⟩ => rfl

theorem lidx14 (r : Fin 800000) (l : Fin 10) (k : Fin 10) : lidx_main_v14 (ix2 r l) k = ix2 r k :=
  funext fun a => match a with | ⟨0, _⟩ => rfl | ⟨1, _⟩ => rfl

theorem ridx14 (r : Fin 800000) (l : Fin 10) (k : Fin 10) : idx_main_v13 (ridx_main_v14 (ix2 r l) k) = ix2 l k :=
  funext fun a => match a with | ⟨0, _⟩ => rfl | ⟨1, _⟩ => rfl

theorem bidx16 (r : Fin 800000) (l : Fin 10) : idx_main_v15 (idx_main_v16 (ix2 r l)) = ix1 l :=
  funext fun a => match a with | ⟨0, _⟩ => rfl

/-- The hidden layer of row `r` at unit `l`: the two-term product with the transposed `W₁`, the bias row, `tanh`. -/
theorem hidden_at (r : Fin 800000) (l : Fin 10) :
    val_main_v12 (F := Ideal) x1 x6 x7 (ix2 r l)
      = Cert.Update.hidden (gradAt x1 r) (fun l k => x6 (ix2 l k)) (fun l => x7 (ix1 l)) l := by
  rw [val_main_v12_apply, val_main_v11_apply, val_main_v8_apply, Fin.sum_univ_two, val_main_v10_apply, val_main_v9_apply,
    val_main_v7_apply, val_main_v7_apply, lidx8, lidx8, ridx8, ridx8, bidx10, feat0_at, feat1_at]
  rfl

/-- The embedding of row `r` at unit `l`: the ten-term product with the transposed `W₂` and the bias row. -/
theorem embed_at (r : Fin 800000) (l : Fin 10) :
    val_main_v17 (F := Ideal) x1 x6 x7 x8 x9 (ix2 r l)
      = Cert.Update.embed (gradAt x1 r) (fun l k => x6 (ix2 l k)) (fun l => x7 (ix1 l)) (fun l k => x8 (ix2 l k))
          (fun l => x9 (ix1 l)) l := by
  rw [val_main_v17_apply, val_main_v14_apply, val_main_v16_apply, val_main_v15_apply, bidx16]
  simp only [val_main_v13_apply, lidx14, ridx14, hidden_at]
  rfl

end Cert.ReferenceIdeal.Row

end
-- ==== Proof.RefCell0.lean ====
/-
  The reference's first recurrent cell, read at one flat row.

  For row `r` the reference forms the 128 pre-activations as
  `((embedding · Wih⁰ᵀ + bih⁰) + h⁰ · Whh⁰ᵀ) + bhh⁰`, the two products being sums of ten and of thirty-two terms,
  cuts them into four runs of 32 at offsets 0, 32, 64, 96, writes the logistic function as `1 / (1 + e⁻ˣ)`, and
  combines the runs into the new cell state `σ(f)·c⁰ + σ(i)·tanh(g)` and the new hidden state
  `σ(o)·tanh(new cell state)`. Read at `(r, q)` these are the update rule's `gates`, `cellState` and `cellOut` of
  the row's own data.
-/
import proofs.«144035_j37589553775001_2_alg».proof.Proof.RefEmbed

noncomputable section

namespace Cert.ReferenceIdeal.Row

open Cert.ReferenceIdeal Cert.ReferenceIdeal.Read Idealize.ShloMosaic Idealize.ShloMosaic.ValueIdx

variable (x1 : (⟨S8x100000, .f32⟩ : BufTy).Contents (Elt Ideal))
  (x2 x3 x4 x5 : (⟨S8x100000x32, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))
  (x10 : (⟨S128x10, .f32⟩ : BufTy).Contents (Elt Ideal)) (x11 : (⟨S128x32, .f32⟩ : BufTy).Contents (Elt Ideal))
  (x12 x13 : (⟨S128, .f32⟩ : BufTy).Contents (Elt Ideal))
  (x14 x15 : (⟨S128x32, .f32⟩ : BufTy).Contents (Elt Ideal)) (x16 x17 : (⟨S128, .f32⟩ : BufTy).Contents (Elt Ideal))
  (x18 : (⟨S1x32, .f32⟩ : BufTy).Contents (Elt Ideal)) (x19 : (⟨S1, .f32⟩ : BufTy).Contents (Elt Ideal))

/-- The pattern `0x3F800000` is the number one. -/
theorem one_f32 : (FloatOps.ofBits .f32 0x3F800000#32 : Ideal .f32) = 1 := IdealRules.sign_bit.ideal_onePat .f32

/-! The index functions of the first cell's two products, two bias rows and four slices, at `(r, ·)`. -/

theorem lidx21 (r : Fin 800000) (j : Fin 128) (k : Fin 10) : lidx_main_v21 (ix2 r j) k = ix2 r k :=
  funext fun a => match a with | ⟨0, _⟩ => rfl | ⟨1, _⟩ => rfl

theorem ridx21 (r : Fin 800000) (j : Fin 128) (k : Fin 10) : idx_main_v20 (ridx_main_v21 (ix2 r j) k) = ix2 j k :=
  funext fun a => match a with | ⟨0, _⟩ => rfl | ⟨1, _⟩ => rfl

theorem bidx23 (r : Fin 800000) (j : Fin 128) : idx_main_v22 (idx_main_v23 (ix2 r j)) = ix1 j :=
  funext fun a => match a with | ⟨0, _⟩ => rfl

theorem lidx26 (r : Fin 800000) (j : Fin 128) (k : Fin 32) : lidx_main_v26 (ix2 r j) k = ix2 r k :=
  funext fun a => match a with | ⟨0, _⟩ => rfl | ⟨1, _⟩ => rfl

theorem ridx26 (r : Fin 800000) (j : Fin 128) (k : Fin 32) : idx_main_v25 (ridx_main_v26 (ix2 r j) k) = ix2 j k :=
  funext fun a => match a with | ⟨0, _⟩ => rfl | ⟨1, _⟩ => rfl

theorem bidx29 (r : Fin 800000) (j : Fin 128) : idx_main_v28 (idx_main_v29 (ix2 r j)) = ix1 j :=
  funext fun a => match a with | ⟨0, _⟩ => rfl

theorem sidx31 (r : Fin 800000) (q : Fin 32) : idx_main_v31 (ix2 r q) = ix2 r (Cert.Update.run 0 (by omega) q) :=
  funext fun a => match a with | ⟨0, _⟩ => rfl | ⟨1, _⟩ => Fin.ext (by show q.val = 0 + q.val; omega)

theorem sidx32 (r : Fin 800000) (q : Fin 32) : idx_main_v32 (ix2 r q) = ix2 r (Cert.Update.run 32 (by omega) q) :=
  funext fun a => match a with | ⟨0, _⟩ => rfl | ⟨1, _⟩ => rfl

theorem sidx33 (r : Fin 800000) (q : Fin 32) : idx_main_v33 (ix2 r q) = ix2 r (Cert.Update.run 64 (by omega) q) :=
  funext fun a => match a with | ⟨0, _⟩ => rfl | ⟨1, _⟩ => rfl

theorem sidx34 (r : Fin 800000) (q : Fin 32) : idx_main_v34 (ix2 r q) = ix2 r (Cert.Update.run 96 (by omega) q) :=
  funext fun a => match a with | ⟨0, _⟩ => rfl | ⟨1, _⟩ => rfl

/-- The first cell's pre-activations of row `r`, as the update rule's `gates` of the row's embedding and hidden state. -/
abbrev G0 (r : Fin 800000) : Fin 128 → EReal :=
  Cert.Update.gates
    (Cert.Update.embed (gradAt x1 r) (fun l k => x6 (ix2 l k)) (fun l => x7 (ix1 l)) (fun l k => x8 (ix2 l k))
      (fun l => x9 (ix1 l)))
    (fun k => x2 (idx_main_v18 (ix2 r k))) (fun j k => x10 (ix2 j k)) (fun j k => x11 (ix2 j k))
    (fun j => x12 (ix1 j)) (fun j => x13 (ix1 j))

/-- Pre-activation `j` of row `r`. -/
theorem gates0_at (r : Fin 800000) (j : Fin 128) :
    val_main_v30 (F := Ideal) x1 x2 x6 x7 x8 x9 x10 x11 x12 x13 (ix2 r j) = G0 x1 x2 x6 x7 x8 x9 x10 x11 x12 x13 r j := by
  rw [val_main_v30_apply, val_main_v27_apply, val_main_v24_apply, val_main_v21_apply, val_main_v26_apply,
    val_main_v23_apply, val_main_v22_apply, val_main_v29_apply, val_main_v28_apply, bidx23, bidx29]
  simp only [val_main_v20_apply, val_main_v25_apply, val_main_v18_apply, lidx21, ridx21, lidx26, ridx26, embed_at]
  rfl

/-- The new cell state of row `r` at `q`. -/
theorem c0n_flat (r : Fin 800000) (q : Fin 32) :
    val_main_v56 (F := Ideal) x1 x2 x3 x6 x7 x8 x9 x10 x11 x12 x13 (ix2 r q)
      = Cert.Update.cellState (G0 x1 x2 x6 x7 x8 x9 x10 x11 x12 x13 r) (fun k => x3 (idx_main_v19 (ix2 r k))) q := by
  simp only [val_main_v56_apply, val_main_v54_apply, val_main_v55_apply, val_main_v46_apply, val_main_v45_apply,
    val_main_cst_3_apply, val_main_v44_apply, val_main_v43_apply, val_main_cst_2_apply, val_main_v42_apply,
    val_main_v41_apply, val_main_v32_apply, val_main_v19_apply, val_main_v40_apply, val_main_v39_apply,
    val_main_cst_1_apply, val_main_v38_apply, val_main_v37_apply, val_main_cst_0_apply, val_main_v36_apply,
    val_main_v35_apply, val_main_v31_apply, val_main_v47_apply, val_main_v33_apply, sidx31, sidx32, sidx33,
    gates0_at, one_f32]
  rfl

/-- The new hidden state of row `r` at `q`. -/
theorem h0n_flat (r : Fin 800000) (q : Fin 32) :
    val_main_v58 (F := Ideal) x1 x2 x3 x6 x7 x8 x9 x10 x11 x12 x13 (ix2 r q)
      = Cert.Update.cellOut (G0 x1 x2 x6 x7 x8 x9 x10 x11 x12 x13 r) (fun k => x3 (idx_main_v19 (ix2 r k))) q := by
  simp only [val_main_v58_apply, val_main_v57_apply, val_main_v53_apply, val_main_v52_apply, val_main_cst_5_apply,
    val_main_v51_apply, val_main_v50_apply, val_main_cst_4_apply, val_main_v49_apply, val_main_v48_apply,
    val_main_v34_apply, sidx34, gates0_at, c0n_flat, one_f32]
  rfl

end Cert.ReferenceIdeal.Row

end
-- ==== Proof.RefCell1.lean ====
/-
  The reference's second recurrent cell, read at one flat row.

  The second cell is fed by the first cell's new hidden state: for row `r` its 128 pre-activations are
  `((h⁰' · Wih¹ᵀ + bih¹) + h¹ · Whh¹ᵀ) + bhh¹`, both products sums of thirty-two terms; the four runs of 32, the
  logistic function spelt `1 / (1 + e⁻ˣ)`, the new cell state and the new hidden state are formed as in the first
  cell. Read at `(r, q)` these are the update rule's `gates`, `cellState` and `cellOut` of the row's own data.
-/
import proofs.«144035_j37589553775001_2_alg».proof.Proof.RefCell0

noncomputable section

namespace Cert.ReferenceIdeal.Row

open Cert.ReferenceIdeal Cert.ReferenceIdeal.Read Idealize.ShloMosaic Idealize.ShloMosaic.ValueIdx

variable (x1 : (⟨S8x100000, .f32⟩ : BufTy).Contents (Elt Ideal))
  (x2 x3 x4 x5 : (⟨S8x100000x32, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))
  (x10 : (⟨S128x10, .f32⟩ : BufTy).Contents (Elt Ideal)) (x11 : (⟨S128x32, .f32⟩ : BufTy).Contents (Elt Ideal))
  (x12 x13 : (⟨S128, .f32⟩ : BufTy).Contents (Elt Ideal))
  (x14 x15 : (⟨S128x32, .f32⟩ : BufTy).Contents (Elt Ideal)) (x16 x17 : (⟨S128, .f32⟩ : BufTy).Contents (Elt Ideal))
  (x18 : (⟨S1x32, .f32⟩ : BufTy).Contents (Elt Ideal)) (x19 : (⟨S1, .f32⟩ : BufTy).Contents (Elt Ideal))

/-! The index functions of the second cell's two products, two bias rows and four slices, at `(r, ·)`. -/

theorem lidx62 (r : Fin 800000) (j : Fin 128) (k : Fin 32) : lidx_main_v62 (ix2 r j) k = ix2 r k :=
  funext fun a => match a with | ⟨0, _⟩ => rfl | ⟨1, _⟩ => rfl

theorem ridx62 (r : Fin 800000) (j : Fin 128) (k : Fin 32) : idx_main_v61 (ridx_main_v62 (ix2 r j) k) = ix2 j k :=
  funext fun a => match a with | ⟨0, _⟩ => rfl | ⟨1, _⟩ => rfl

theorem bidx64 (r : Fin 800000) (j : Fin 128) : idx_main_v63 (idx_main_v64 (ix2 r j)) = ix1 j :=
  funext fun a => match a with | ⟨0, _⟩ => rfl

theorem lidx67 (r : Fin 800000) (j : Fin 128) (k : Fin 32) : lidx_main_v67 (ix2 r j) k = ix2 r k :=
  funext fun a => match a with | ⟨0, _⟩ => rfl | ⟨1, _⟩ => rfl

theorem ridx67 (r : Fin 800000) (j : Fin 128) (k : Fin 32) : idx_main_v66 (ridx_main_v67 (ix2 r j) k) = ix2 j k :=
  funext fun a => match a with | ⟨0, _⟩ => rfl | ⟨1, _⟩ => rfl

theorem bidx70 (r : Fin 800000) (j : Fin 128) : idx_main_v69 (idx_main_v70 (ix2 r j)) = ix1 j :=
  funext fun a => match a with | ⟨0, _⟩ => rfl

theorem sidx72 (r : Fin 800000) (q : Fin 32) : idx_main_v72 (ix2 r q) = ix2 r (Cert.Update.run 0 (by omega) q) :=
  funext fun a => match a with | ⟨0, _⟩ => rfl | ⟨1, _⟩ => Fin.ext (by show q.val = 0 + q.val; omega)

theorem sidx73 (r : Fin 800000) (q : Fin 32) : idx_main_v73 (ix2 r q) = ix2 r (Cert.Update.run 32 (by omega) q) :=
  funext fun a => match a with | ⟨0, _⟩ => rfl | ⟨1, _⟩ => rfl

theorem sidx74 (r : Fin 800000) (q : Fin 32) : idx_main_v74 (ix2 r q) = ix2 r (Cert.Update.run 64 (by omega) q) :=
  funext fun a => match a with | ⟨0, _⟩ => rfl | ⟨1, _⟩ => rfl

theorem sidx75 (r : Fin 800000) (q : Fin 32) : idx_main_v75 (ix2 r q) = ix2 r (Cert.Update.run 96 (by omega) q) :=
  funext fun a => match a with | ⟨0, _⟩ => rfl | ⟨1, _⟩ => rfl

/-- The second cell's pre-activations of row `r`, as the update rule's `gates` of the first cell's new hidden state
    and the row's second hidden state. -/
abbrev G1 (r : Fin 800000) : Fin 128 → EReal :=
  Cert.Update.gates
    (Cert.Update.cellOut (G0 x1 x2 x6 x7 x8 x9 x10 x11 x12 x13 r) (fun k => x3 (idx_main_v19 (ix2 r k))))
    (fun k => x4 (idx_main_v59 (ix2 r k))) (fun j k => x14 (ix2 j k)) (fun j k => x15 (ix2 j k))
    (fun j => x16 (ix1 j)) (fun j => x17 (ix1 j))

/-- Pre-activation `j` of row `r`. -/
theorem gates1_at (r : Fin 800000) (j : Fin 128) :
    val_main_v71 (F := Ideal) x1 x2 x3 x4 x6 x7 x8 x9 x10 x11 x12 x13 x14 x15 x16 x17 (ix2 r j)
      = G1 x1 x2 x3 x4 x6 x7 x8 x9 x10 x11 x12 x13 x14 x15 x16 x17 r j := by
  rw [val_main_v71_apply, val_main_v68_apply, val_main_v65_apply, val_main_v62_apply, val_main_v67_apply,
    val_main_v64_apply, val_main_v63_apply, val_main_v70_apply, val_main_v69_apply, bidx64, bidx70]
  simp only [val_main_v61_apply, val_main_v66_apply, val_main_v59_apply, lidx62, ridx62, lidx67, ridx67, h0n_flat]
  rfl

/-- The new cell state of row `r` at `q`. -/
theorem c1n_flat (r : Fin 800000) (q : Fin 32) :
    val_main_v97 (F := Ideal) x1 x2 x3 x4 x5 x6 x7 x8 x9 x10 x11 x12 x13 x14 x15 x16 x17 (ix2 r q)
      = Cert.Update.cellState (G1 x1 x2 x3 x4 x6 x7 x8 x9 x10 x11 x12 x13 x14 x15 x16 x17 r)
          (fun k => x5 (idx_main_v60 (ix2 r k))) q := by
  simp only [val_main_v97_apply, val_main_v95_apply, val_main_v96_apply, val_main_v87_apply, val_main_v86_apply,
    val_main_cst_9_apply, val_main_v85_apply, val_main_v84_apply, val_main_cst_8_apply, val_main_v83_apply,
    val_main_v82_apply, val_main_v73_apply, val_main_v60_apply, val_main_v81_apply, val_main_v80_apply,
    val_main_cst_7_apply, val_main_v79_apply, val_main_v78_apply, val_main_cst_6_apply, val_main_v77_apply,
    val_main_v76_apply, val_main_v72_apply, val_main_v88_apply, val_main_v74_apply, sidx72, sidx73, sidx74,
    gates1_at, one_f32]
  rfl

/-- The new hidden state of row `r` at `q`. -/
theorem h1n_flat (r : Fin 800000) (q : Fin 32) :
    val_main_v99 (F := Ideal) x1 x2 x3 x4 x5 x6 x7 x8 x9 x10 x11 x12 x13 x14 x15 x16 x17 (ix2 r q)
      = Cert.Update.cellOut (G1 x1 x2 x3 x4 x6 x7 x8 x9 x10 x11 x12 x13 x14 x15 x16 x17 r)
          (fun k => x5 (idx_main_v60 (ix2 r k))) q := by
  simp only [val_main_v99_apply, val_main_v98_apply, val_main_v94_apply, val_main_v93_apply, val_main_cst_11_apply,
    val_main_v92_apply, val_main_v91_apply, val_main_cst_10_apply, val_main_v90_apply, val_main_v89_apply,
    val_main_v75_apply, sidx75, gates1_at, c1n_flat, one_f32]
  rfl

end Cert.ReferenceIdeal.Row

end
-- ==== Proof.RefHead.lean ====
/-
  The reference's linear head, read at one flat row.

  For row `r` the step is the product of the second cell's new hidden state with the transposed `Wfc`, a sum of
  thirty-two terms, plus the single bias `bfc` repeated down the rows. Read at `(r, 0)` it is
  `Σₖ h¹'[k] · Wfc[0,k] + bfc[0]`.
-/
import proofs.«144035_j37589553775001_2_alg».proof.Proof.RefCell1

noncomputable section

namespace Cert.ReferenceIdeal.Row

open Cert.ReferenceIdeal Cert.ReferenceIdeal.Read Idealize.ShloMosaic Idealize.ShloMosaic.ValueIdx

variable (x1 : (⟨S8x100000, .f32⟩ : BufTy).Contents (Elt Ideal))
  (x2 x3 x4 x5 : (⟨S8x100000x32, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))
  (x10 : (⟨S128x10, .f32⟩ : BufTy).Contents (Elt Ideal)) (x11 : (⟨S128x32, .f32⟩ : BufTy).Contents (Elt Ideal))
  (x12 x13 : (⟨S128, .f32⟩ : BufTy).Contents (Elt Ideal))
  (x14 x15 : (⟨S128x32, .f32⟩ : BufTy).Contents (Elt Ideal)) (x16 x17 : (⟨S128, .f32⟩ : BufTy).Contents (Elt Ideal))
  (x18 : (⟨S1x32, .f32⟩ : BufTy).Contents (Elt Ideal)) (x19 : (⟨S1, .f32⟩ : BufTy).Contents (Elt Ideal))

/-! The index functions of the head's product and bias, at `(r, u)` with `u` the unit coordinate. -/

theorem lidx101 (r : Fin 800000) (u : Fin 1) (k : Fin 32) : lidx_main_v101 (ix2 r u) k = ix2 r k :=
  funext fun a => match a with | ⟨0, _⟩ => rfl | ⟨1, _⟩ => rfl

theorem ridx101 (r : Fin 800000) (u : Fin 1) (k : Fin 32) :
    idx_main_v100 (ridx_main_v101 (ix2 r u) k) = ix2 (0 : Fin 1) k :=
  funext fun a => match a with | ⟨0, _⟩ => Fin.ext (by show u.val = 0; omega) | ⟨1, _⟩ => rfl

theorem bidx103 (r : Fin 800000) (u : Fin 1) : idx_main_v102 (idx_main_v103 (ix2 r u)) = ix1 (0 : Fin 1) :=
  funext fun a => match a with | ⟨0, _⟩ => rfl

/-- The step of row `r`. -/
theorem step_flat (r : Fin 800000) (u : Fin 1) :
    val_main_v104 (F := Ideal) x1 x2 x3 x4 x5 x6 x7 x8 x9 x10 x11 x12 x13 x14 x15 x16 x17 x18 x19 (ix2 r u)
      = (∑ k : Fin 32,
          Cert.Update.cellOut (G1 x1 x2 x3 x4 x6 x7 x8 x9 x10 x11 x12 x13 x14 x15 x16 x17 r)
            (fun k => x5 (idx_main_v60 (ix2 r k))) k * x18 (ix2 (0 : Fin 1) k))
        + x19 (ix1 (0 : Fin 1)) := by
  rw [val_main_v104_apply, val_main_v101_apply, val_main_v103_apply, val_main_v102_apply, bidx103]
  simp only [val_main_v100_apply, lidx101, ridx101, h1n_flat]
  rfl

end Cert.ReferenceIdeal.Row

end
-- ==== Proof.RefRow.lean ====
/-
  The reference, read at one variable `(b, n)`.

  The reference re-lays the `8 × 100000` variables as `800000` rows, row `b · 100000 + n` holding variable `(b, n)`,
  and re-lays its results back. Row-major positions give the index equations: position `(b · 100000 + n) · 32 + k`
  of an `[800000, 32]` array is position `(b, n, k)` of the `[8, 100000, 32]` one, and likewise without the last
  axis. With them the flat row's readings become the update rule applied to the variable's own gradient entry and
  states: the new hidden and cell states of both cells, the step, and the moved value.
-/
import proofs.«144035_j37589553775001_2_alg».proof.Proof.RefHead

noncomputable section

namespace Cert.ReferenceIdeal.Row

open Cert.ReferenceIdeal Cert.ReferenceIdeal.Read Idealize.ShloMosaic Idealize.ShloMosaic.ValueIdx

variable (x0 x1 : (⟨S8x100000, .f32⟩ : BufTy).Contents (Elt Ideal))
  (x2 x3 x4 x5 : (⟨S8x100000x32, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))
  (x10 : (⟨S128x10, .f32⟩ : BufTy).Contents (Elt Ideal)) (x11 : (⟨S128x32, .f32⟩ : BufTy).Contents (Elt Ideal))
  (x12 x13 : (⟨S128, .f32⟩ : BufTy).Contents (Elt Ideal))
  (x14 x15 : (⟨S128x32, .f32⟩ : BufTy).Contents (Elt Ideal)) (x16 x17 : (⟨S128, .f32⟩ : BufTy).Contents (Elt Ideal))
  (x18 : (⟨S1x32, .f32⟩ : BufTy).Contents (Elt Ideal)) (x19 : (⟨S1, .f32⟩ : BufTy).Contents (Elt Ideal))
  (b : Fin 8) (n : Fin 100000) (q : Fin 32)

/-- The flat row that holds variable `(b, n)`. -/
def flat (b : Fin 8) (n : Fin 100000) : Fin 800000 := ⟨b.val * 100000 + n.val, by have := b.isLt; have := n.isLt; omega⟩

theorem flat_val (b : Fin 8) (n : Fin 100000) : (flat b n).val = b.val * 100000 + n.val := rfl

/-! Row-major positions: the re-laid arrays at the flat row are the original arrays at `(b, n, ·)`, and back. -/

theorem idx0_flat (u : Fin 1) : idx_main_v0 (ix2 (flat b n) u) = ix2 b n :=
  funext fun a => match a with
    | ⟨0, _⟩ => Fin.ext (by
        show ((flat b n).val * 1 + u.val) / 100000 = b.val
        rw [flat_val]; have := b.isLt; have := n.isLt; omega)
    | ⟨1, _⟩ => Fin.ext (by
        show ((flat b n).val * 1 + u.val) % 100000 = n.val
        rw [flat_val]; have := b.isLt; have := n.isLt; omega)

theorem idx18_flat (k : Fin 32) : idx_main_v18 (ix2 (flat b n) k) = ix3 b n k :=
  funext fun a => match a with
    | ⟨0, _⟩ => Fin.ext (by
        show ((flat b n).val * 32 + k.val) / 3200000 = b.val
        rw [flat_val]; have := b.isLt; have := n.isLt; omega)
    | ⟨1, _⟩ => Fin.ext (by
        show ((flat b n).val * 32 + k.val) / 32 % 100000 = n.val
        rw [flat_val]; have := b.isLt; have := n.isLt; omega)
    | ⟨2, _⟩ => Fin.ext (by
        show ((flat b n).val * 32 + k.val) % 32 = k.val
        rw [flat_val]; have := b.isLt; have := n.isLt; omega)

theorem idx19_flat (k : Fin 32) : idx_main_v19 (ix2 (flat b n) k) = ix3 b n k := idx18_flat b n k
theorem idx59_flat (k : Fin 32) : idx_main_v59 (ix2 (flat b n) k) = ix3 b n k := idx18_flat b n k
theorem idx60_flat (k : Fin 32) : idx_main_v60 (ix2 (flat b n) k) = ix3 b n k := idx18_flat b n k

theorem idx107_flat : idx_main_v107 (ix3 b n q) = ix2 (flat b n) q :=
  funext fun a => match a with
    | ⟨0, _⟩ => Fin.ext (by
        show ((b.val * 100000 + n.val) * 32 + q.val) / 32 = (flat b n).val
        rw [flat_val]; omega)
    | ⟨1, _⟩ => Fin.ext (by
        show ((b.val * 100000 + n.val) * 32 + q.val) % 32 = q.val
        omega)

theorem idx108_flat : idx_main_v108 (ix3 b n q) = ix2 (flat b n) q := idx107_flat b n q
theorem idx109_flat : idx_main_v109 (ix3 b n q) = ix2 (flat b n) q := idx107_flat b n q
theorem idx110_flat : idx_main_v110 (ix3 b n q) = ix2 (flat b n) q := idx107_flat b n q

theorem idx105_flat : idx_main_v105 (ix2 b n) = ix2 (flat b n) (0 : Fin 1) :=
  funext fun a => match a with
    | ⟨0, _⟩ => Fin.ext (by
        show (b.val * 100000 + n.val) / 1 = (flat b n).val
        rw [flat_val]; omega)
    | ⟨1, _⟩ => rfl

/-- The first cell's new hidden state of variable `(b, n)`. -/
theorem h0n_at :
    val_main_v107 (F := Ideal) x1 x2 x3 x6 x7 x8 x9 x10 x11 x12 x13 (ix3 b n q)
      = Cert.Update.h0n (Cert.Update.Params.ofArrays x6 x7 x8 x9 x10 x11 x12 x13 x14 x15 x16 x17 x18 x19)
          (x1 (ix2 b n)) (fun k => x2 (ix3 b n k)) (fun k => x3 (ix3 b n k)) q := by
  rw [val_main_v107_apply, idx107_flat, h0n_flat]
  simp only [G0, gradAt, idx0_flat, idx18_flat, idx19_flat]
  rfl

/-- The first cell's new cell state of variable `(b, n)`. -/
theorem c0n_at :
    val_main_v108 (F := Ideal) x1 x2 x3 x6 x7 x8 x9 x10 x11 x12 x13 (ix3 b n q)
      = Cert.Update.c0n (Cert.Update.Params.ofArrays x6 x7 x8 x9 x10 x11 x12 x13 x14 x15 x16 x17 x18 x19)
          (x1 (ix2 b n)) (fun k => x2 (ix3 b n k)) (fun k => x3 (ix3 b n k)) q := by
  rw [val_main_v108_apply, idx108_flat, c0n_flat]
  simp only [G0, gradAt, idx0_flat, idx18_flat, idx19_flat]
  rfl

/-- The second cell's new hidden state of variable `(b, n)`. -/
theorem h1n_at :
    val_main_v109 (F := Ideal) x1 x2 x3 x4 x5 x6 x7 x8 x9 x10 x11 x12 x13 x14 x15 x16 x17 (ix3 b n q)
      = Cert.Update.h1n (Cert.Update.Params.ofArrays x6 x7 x8 x9 x10 x11 x12 x13 x14 x15 x16 x17 x18 x19)
          (x1 (ix2 b n)) (fun k => x2 (ix3 b n k)) (fun k => x3 (ix3 b n k)) (fun k => x4 (ix3 b n k))
          (fun k => x5 (ix3 b n k)) q := by
  rw [val_main_v109_apply, idx109_flat, h1n_flat]
  simp only [G1, G0, gradAt, idx0_flat, idx18_flat, idx19_flat, idx59_flat, idx60_flat]
  rfl

/-- The second cell's new cell state of variable `(b, n)`. -/
theorem c1n_at :
    val_main_v110 (F := Ideal) x1 x2 x3 x4 x5 x6 x7 x8 x9 x10 x11 x12 x13 x14 x15 x16 x17 (ix3 b n q)
      = Cert.Update.c1n (Cert.Update.Params.ofArrays x6 x7 x8 x9 x10 x11 x12 x13 x14 x15 x16 x17 x18 x19)
          (x1 (ix2 b n)) (fun k => x2 (ix3 b n k)) (fun k => x3 (ix3 b n k)) (fun k => x4 (ix3 b n k))
          (fun k => x5 (ix3 b n k)) q := by
  rw [val_main_v110_apply, idx110_flat, c1n_flat]
  simp only [G1, G0, gradAt, idx0_flat, idx18_flat, idx19_flat, idx59_flat, idx60_flat]
  rfl

/-- The step of variable `(b, n)`. -/
theorem step_at :
    val_main_v105 (F := Ideal) x1 x2 x3 x4 x5 x6 x7 x8 x9 x10 x11 x12 x13 x14 x15 x16 x17 x18 x19 (ix2 b n)
      = Cert.Update.step (Cert.Update.Params.ofArrays x6 x7 x8 x9 x10 x11 x12 x13 x14 x15 x16 x17 x18 x19)
          (x1 (ix2 b n)) (fun k => x2 (ix3 b n k)) (fun k => x3 (ix3 b n k)) (fun k => x4 (ix3 b n k))
          (fun k => x5 (ix3 b n k)) := by
  rw [val_main_v105_apply, idx105_flat, step_flat]
  simp only [G1, G0, gradAt, idx0_flat, idx18_flat, idx19_flat, idx59_flat, idx60_flat]
  rfl

/-- The moved value of variable `(b, n)`. -/
theorem moved_at :
    val_main_v106 (F := Ideal) x0 x1 x2 x3 x4 x5 x6 x7 x8 x9 x10 x11 x12 x13 x14 x15 x16 x17 x18 x19 (ix2 b n)
      = Cert.Update.moved (Cert.Update.Params.ofArrays x6 x7 x8 x9 x10 x11 x12 x13 x14 x15 x16 x17 x18 x19)
          (x0 (ix2 b n)) (x1 (ix2 b n)) (fun k => x2 (ix3 b n k)) (fun k => x3 (ix3 b n k)) (fun k => x4 (ix3 b n k))
          (fun k => x5 (ix3 b n k)) := by
  rw [val_main_v106_apply, step_at]
  rfl

end Cert.ReferenceIdeal.Row

end
-- ==== Proof.ReferenceRun.lean ====
/-
  The idealized reference's six results as the update rule applied to every variable of the arguments.

  The generated module reads the reference's program one operation at a time; RefRow.lean chains those readings and
  finds, at each variable `(b, n)` (and column `q`), the update rule of UpdateRule.lean at that variable's data. Here
  the six results are restated as whole arrays: each is, index by index, the array of Results.lean.
-/
import proofs.«144035_j37589553775001_2_alg».proof.Proof.RefRow
import proofs.«144035_j37589553775001_2_alg».proof.Proof.Results

noncomputable section

namespace Cert.ReferenceIdeal.Whole

open Cert.ReferenceIdeal Cert.ReferenceIdeal.Read Idealize.ShloMosaic Idealize.ShloMosaic.ValueIdx

variable (x0 x1 : (⟨S8x100000, .f32⟩ : BufTy).Contents (Elt Ideal)) (x2 x3 x4 x5 : (⟨S8x100000x32, .f32⟩ : BufTy).Contents (Elt Ideal))
  (x6 : (⟨S10x2, .f32⟩ : BufTy).Contents (Elt Ideal)) (x7 : (⟨S10, .f32⟩ : BufTy).Contents (Elt Ideal))
  (x8 : (⟨S10x10, .f32⟩ : BufTy).Contents (Elt Ideal)) (x9 : (⟨S10, .f32⟩ : BufTy).Contents (Elt Ideal))
  (x10 : (⟨S128x10, .f32⟩ : BufTy).Contents (Elt Ideal)) (x11 : (⟨S128x32, .f32⟩ : BufTy).Contents (Elt Ideal))
  (x12 x13 : (⟨S128, .f32⟩ : BufTy).Contents (Elt Ideal)) (x14 x15 : (⟨S128x32, .f32⟩ : BufTy).Contents (Elt Ideal))
  (x16 x17 : (⟨S128, .f32⟩ : BufTy).Contents (Elt Ideal)) (x18 : (⟨S1x32, .f32⟩ : BufTy).Contents (Elt Ideal))
  (x19 : (⟨S1, .f32⟩ : BufTy).Contents (Elt Ideal))

theorem moved_eq : val_main_v106 (F := Ideal) x0 x1 x2 x3 x4 x5 x6 x7 x8 x9 x10 x11 x12 x13 x14 x15 x16 x17 x18 x19
    = Cert.Update.movedAll (Cert.Update.Params.ofArrays x6 x7 x8 x9 x10 x11 x12 x13 x14 x15 x16 x17 x18 x19) x0 x1 x2 x3 x4 x5 := by
  funext i
  obtain ⟨b, n, rfl⟩ : ∃ (b : Fin 8) (n : Fin 100000), i = ix2 b n := ⟨i 0, i 1, eq_ix2 i⟩
  rw [Cert.Update.movedAll_at]
  exact Cert.ReferenceIdeal.Row.moved_at x0 x1 x2 x3 x4 x5 x6 x7 x8 x9 x10 x11 x12 x13 x14 x15 x16 x17 x18 x19 b n

theorem h0n_eq : val_main_v107 (F := Ideal) x1 x2 x3 x6 x7 x8 x9 x10 x11 x12 x13
    = Cert.Update.h0nAll (Cert.Update.Params.ofArrays x6 x7 x8 x9 x10 x11 x12 x13 x14 x15 x16 x17 x18 x19) x1 x2 x3 := by
  funext i
  obtain ⟨b, n, q, rfl⟩ : ∃ (b : Fin 8) (n : Fin 100000) (q : Fin 32), i = ix3 b n q := ⟨i 0, i 1, i 2, eq_ix3 i⟩
  rw [Cert.Update.h0nAll_at]
  exact Cert.ReferenceIdeal.Row.h0n_at x1 x2 x3 x6 x7 x8 x9 x10 x11 x12 x13 x14 x15 x16 x17 x18 x19 b n q

theorem c0n_eq : val_main_v108 (F := Ideal) x1 x2 x3 x6 x7 x8 x9 x10 x11 x12 x13
    = Cert.Update.c0nAll (Cert.Update.Params.ofArrays x6 x7 x8 x9 x10 x11 x12 x13 x14 x15 x16 x17 x18 x19) x1 x2 x3 := by
  funext i
  obtain ⟨b, n, q, rfl⟩ : ∃ (b : Fin 8) (n : Fin 100000) (q : Fin 32), i = ix3 b n q := ⟨i 0, i 1, i 2, eq_ix3 i⟩
  rw [Cert.Update.c0nAll_at]
  exact Cert.ReferenceIdeal.Row.c0n_at x1 x2 x3 x6 x7 x8 x9 x10 x11 x12 x13 x14 x15 x16 x17 x18 x19 b n q

theorem h1n_eq : val_main_v109 (F := Ideal) x1 x2 x3 x4 x5 x6 x7 x8 x9 x10 x11 x12 x13 x14 x15 x16 x17
    = Cert.Update.h1nAll (Cert.Update.Params.ofArrays x6 x7 x8 x9 x10 x11 x12 x13 x14 x15 x16 x17 x18 x19) x1 x2 x3 x4 x5 := by
  funext i
  obtain ⟨b, n, q, rfl⟩ : ∃ (b : Fin 8) (n : Fin 100000) (q : Fin 32), i = ix3 b n q := ⟨i 0, i 1, i 2, eq_ix3 i⟩
  rw [Cert.Update.h1nAll_at]
  exact Cert.ReferenceIdeal.Row.h1n_at x1 x2 x3 x4 x5 x6 x7 x8 x9 x10 x11 x12 x13 x14 x15 x16 x17 x18 x19 b n q

theorem c1n_eq : val_main_v110 (F := Ideal) x1 x2 x3 x4 x5 x6 x7 x8 x9 x10 x11 x12 x13 x14 x15 x16 x17
    = Cert.Update.c1nAll (Cert.Update.Params.ofArrays x6 x7 x8 x9 x10 x11 x12 x13 x14 x15 x16 x17 x18 x19) x1 x2 x3 x4 x5 := by
  funext i
  obtain ⟨b, n, q, rfl⟩ : ∃ (b : Fin 8) (n : Fin 100000) (q : Fin 32), i = ix3 b n q := ⟨i 0, i 1, i 2, eq_ix3 i⟩
  rw [Cert.Update.c1nAll_at]
  exact Cert.ReferenceIdeal.Row.c1n_at x1 x2 x3 x4 x5 x6 x7 x8 x9 x10 x11 x12 x13 x14 x15 x16 x17 x18 x19 b n q

theorem step_eq : val_main_v105 (F := Ideal) x1 x2 x3 x4 x5 x6 x7 x8 x9 x10 x11 x12 x13 x14 x15 x16 x17 x18 x19
    = Cert.Update.stepAll (Cert.Update.Params.ofArrays x6 x7 x8 x9 x10 x11 x12 x13 x14 x15 x16 x17 x18 x19) x1 x2 x3 x4 x5 := by
  funext i
  obtain ⟨b, n, rfl⟩ : ∃ (b : Fin 8) (n : Fin 100000), i = ix2 b n := ⟨i 0, i 1, eq_ix2 i⟩
  rw [Cert.Update.stepAll_at]
  exact Cert.ReferenceIdeal.Row.step_at x1 x2 x3 x4 x5 x6 x7 x8 x9 x10 x11 x12 x13 x14 x15 x16 x17 x18 x19 b n

end Cert.ReferenceIdeal.Whole

end
-- ==== Proof.Claims.lean ====
/-
  The five claims.

  The three frames are the generated frame certificates of the two kernel programs and the reference's generated run
  with its results dropped. `preserves` is the one rewrite the idealization applied: the sign of a float read through
  its word's sign bit is the comparison with zero. `algebraic`: at the extended reals the idealized kernel's run ends
  with its six results at the update rule applied to every variable of the arguments (KernelRun.lean), and so does the
  reference's (the generated run, read by ReferenceRun.lean); from memories that agree on the arguments these are the
  same six arrays.
-/
import proofs.«144035_j37589553775001_2_alg».proof.Defs
import proofs.«144035_j37589553775001_2_alg».proof.Proof.Gen.Kernel.Frame
import proofs.«144035_j37589553775001_2_alg».proof.Proof.Gen.Pre_finite_inputs
import proofs.«144035_j37589553775001_2_alg».proof.Proof.KernelRun
import proofs.«144035_j37589553775001_2_alg».proof.Proof.ReferenceRun
import Idealize.ShloMosaic.PureOps.IdealRules

noncomputable section

namespace Cert.Proof.Parts

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2.2.2)
    (Cert.ReferenceIdeal.Value.run (F := Ideal) m ρ)

/-- The one entry of the idealization's ledger: `1.0` carrying a float's sign bit is `-1` where the float is below
    zero and `1` elsewhere. -/
theorem preserves : Cert.preserves_Kernel_KernelIdeal := IdealRules.sign_bit.statement Cert.KernelIdeal.S2048 .f32

set_option maxHeartbeats 4000000 in
/-- From memories agreeing on the arguments, both idealized programs end with the same six arrays: the update rule
    applied to every variable. -/
theorem algebraic : Cert.algebraic_KernelIdeal_ReferenceIdeal := by
  intro m ρ m' ρ' _ hagree
  refine ⟨_, _, _, _, _, _, Cert.KernelIdeal.Whole.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19⟩ := hagree c
  obtain ⟨r0, r1, r2, r3, r4, r5, rargs⟩ := h c
  refine ⟨r0.trans ?_, r1.trans ?_, r2.trans ?_, r3.trans ?_, r4.trans ?_, r5.trans ?_, rargs⟩
  · rw [Cert.ReferenceIdeal.Read.val_main_v106_eq, h0, h1, h2, h3, h4, h5, h6, h7, h8, h9, h10, h11, h12, h13, h14, h15, h16, h17, h18, h19]
    exact Cert.ReferenceIdeal.Whole.moved_eq _ _ _ _ _ _ _ _ _ _ _ _ _ _ _ _ _ _ _ _
  · rw [Cert.ReferenceIdeal.Read.val_main_v107_eq, h1, h2, h3, h6, h7, h8, h9, h10, h11, h12, h13]
    exact Cert.ReferenceIdeal.Whole.h0n_eq _ _ _ _ _ _ _ _ _ _ _ _ _ _ _ _ _
  · rw [Cert.ReferenceIdeal.Read.val_main_v108_eq, h1, h2, h3, h6, h7, h8, h9, h10, h11, h12, h13]
    exact Cert.ReferenceIdeal.Whole.c0n_eq _ _ _ _ _ _ _ _ _ _ _ _ _ _ _ _ _
  · rw [Cert.ReferenceIdeal.Read.val_main_v109_eq, h1, h2, h3, h4, h5, h6, h7, h8, h9, h10, h11, h12, h13, h14, h15, h16, h17]
    exact Cert.ReferenceIdeal.Whole.h1n_eq _ _ _ _ _ _ _ _ _ _ _ _ _ _ _ _ _ _ _
  · rw [Cert.ReferenceIdeal.Read.val_main_v110_eq, h1, h2, h3, h4, h5, h6, h7, h8, h9, h10, h11, h12, h13, h14, h15, h16, h17]
    exact Cert.ReferenceIdeal.Whole.c1n_eq _ _ _ _ _ _ _ _ _ _ _ _ _ _ _ _ _ _ _
  · rw [Cert.ReferenceIdeal.Read.val_main_v105_eq, h1, h2, h3, h4, h5, h6, h7, h8, h9, h10, h11, h12, h13, h14, h15, h16, h17, h18, h19]
    exact Cert.ReferenceIdeal.Whole.step_eq _ _ _ _ _ _ _ _ _ _ _ _ _ _ _ _ _ _ _

end Cert.Proof.Parts

end
-- ==== Proof.lean ====
/-
  The proof of `Cert.Claim`: a kernel that applies, to each of 8 × 100000 variables on its own, a small learned update
  rule — two features of the gradient entry (its sign and `log (|g| + ε)`), a 2→10 `tanh` layer, a 10→10 linear layer,
  two recurrent cells of width 32, and a 32→1 linear head added to the value — against the same rule written in plain
  array operations.

  The rule is stated once, as a function on the extended reals (Proof/UpdateRule.lean), and over all variables
  (Proof/Results.lean). The kernel's side: its body's arithmetic at one row of a block is the rule at that row
  (Proof/Body*.lean); the grid's 391 blocks of 2048 rows cut, read and cover the padded arrays (Proof/BlockReads.lean,
  Proof/BlockCover.lean), so each padded result array ends holding the rule at every row (Proof/PaddedResults.lean); the
  padded inputs are the arguments flattened and padded with zeros (Proof/EntryArrays.lean, Proof/LibPadHigh.lean), and
  the lines after the region cut the padding off and fold the rows back (Proof/KernelRun.lean). The reference's side:
  its program read one operation at a time is the rule at each variable (Proof/Ref*.lean, Proof/ReferenceRun.lean).
  Proof/Claims.lean sets the two runs side by side; the frames are the generated frame certificates.
-/
import proofs.«144035_j37589553775001_2_alg».proof.Defs
import proofs.«144035_j37589553775001_2_alg».proof.Proof.Claims
import proofs.«144035_j37589553775001_2_alg».proof.Proof.Gen.Kernel
import proofs.«144035_j37589553775001_2_alg».proof.Proof.Gen.Kernel.Skeleton
import proofs.«144035_j37589553775001_2_alg».proof.Proof.Gen.Kernel.Launch
import proofs.«144035_j37589553775001_2_alg».proof.Proof.Gen.Kernel.Points
import proofs.«144035_j37589553775001_2_alg».proof.Proof.Gen.Kernel.Frame
import proofs.«144035_j37589553775001_2_alg».proof.Proof.Gen.KernelIdeal
import proofs.«144035_j37589553775001_2_alg».proof.Proof.Gen.KernelIdeal.Skeleton
import proofs.«144035_j37589553775001_2_alg».proof.Proof.Gen.KernelIdeal.Launch
import proofs.«144035_j37589553775001_2_alg».proof.Proof.Gen.KernelIdeal.Points
import proofs.«144035_j37589553775001_2_alg».proof.Proof.Gen.KernelIdeal.Frame
import proofs.«144035_j37589553775001_2_alg».proof.Proof.Gen.ReferenceIdeal
import proofs.«144035_j37589553775001_2_alg».proof.Proof.Gen.ReferenceIdeal.Run
import proofs.«144035_j37589553775001_2_alg».proof.Proof.Gen.ReferenceIdeal.Read
import proofs.«144035_j37589553775001_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_ri, Parts.preserves, Parts.algebraic⟩

end Cert.Proof

end
